-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x40 .f32) (main_arg12 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg11
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x40 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 133
  | .vmem => 54
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S50000x128, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x1, .f32⟩
  | 53 => ⟨S850000x128, .f32⟩
  | 54 => ⟨S850000x128, .f32⟩
  | 55 => ⟨S_, .f32⟩
  | 56 => ⟨S50000x128, .f32⟩
  | 57 => ⟨S850000x1, .i32⟩
  | 58 => ⟨S50000x128, .f32⟩
  | 59 => ⟨S1x128, .f32⟩
  | 60 => ⟨S50000x128, .f32⟩
  | 61 => ⟨S1x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S_, .f32⟩
  | 69 => ⟨S128, .f32⟩
  | 70 => ⟨S128, .f32⟩
  | 71 => ⟨S128, .f32⟩
  | 72 => ⟨S128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S1x128, .f32⟩
  | 98 => ⟨S1x128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S1x128, .f32⟩
  | 111 => ⟨S1x128, .f32⟩
  | 112 => ⟨S1x128, .f32⟩
  | 113 => ⟨S50000x128, .f32⟩
  | 114 => ⟨S50000x40, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x40, .f32⟩
  | 124 => ⟨S850000x1, .f32⟩
  | 125 => ⟨S850000x40, .f32⟩
  | 126 => ⟨S850000x40, .f32⟩
  | 127 => ⟨S_, .f32⟩
  | _ => ⟨S50000x128, .f32⟩

abbrev hbmTy0_1 (i : Nat) : BufTy := match i % 128 with
  | 0 => ⟨S50000x40, .f32⟩
  | 1 => ⟨S850000x1, .i32⟩
  | 2 => ⟨S50000x40, .f32⟩
  | 3 => ⟨S1x40, .f32⟩
  | 4 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x40, .f32⟩
  | .local _ .vmem, ⟨47, _⟩ => ⟨S5000x40, .f32⟩
  | .local _ .vmem, ⟨48, _⟩ => ⟨S5000x40, .f32⟩
  | .local _ .vmem, ⟨49, _⟩ => ⟨S5000x40, .f32⟩
  | .local _ .vmem, ⟨50, _⟩ => ⟨S5000x40, .f32⟩
  | .local _ .vmem, ⟨51, _⟩ => ⟨S1x40, .f32⟩
  | .local _ .vmem, ⟨52, _⟩ => ⟨S5000x40, .f32⟩
  | .local _ .vmem, ⟨53, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69_0 : Ref sig .tc := ⟨.hbm, 97, rfl⟩
abbrev main_v69_1 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_14 : Ref sig .tc := ⟨.hbm, 115, rfl⟩
abbrev main_v84 : Ref sig .tc := ⟨.hbm, 116, rfl⟩
abbrev main_v85 : Ref sig .tc := ⟨.hbm, 117, rfl⟩
abbrev main_c_15 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg5_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg4_0 : Ref sig .tc := ⟨.vmem, 41, rfl⟩
abbrev cc7_stg5_0 : Ref sig .tc := ⟨.vmem, 42, rfl⟩
abbrev cc7_stg5_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg2_0 : Ref sig .tc := ⟨.vmem, 47, rfl⟩
abbrev cc8_stg2_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg2_0 : Ref sig .tc := ⟨.vmem, 52, rfl⟩
abbrev cc9_stg2_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem5_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem4_0 : DmaSem sig := 41
abbrev cc7_sem5_0 : DmaSem sig := 42
abbrev cc7_sem5_1 : DmaSem sig := 43
abbrev cc8_sem0_0 : DmaSem sig := 44
abbrev cc8_sem0_1 : DmaSem sig := 45
abbrev cc8_sem1_0 : DmaSem sig := 46
abbrev cc8_sem2_0 : DmaSem sig := 47
abbrev cc8_sem2_1 : DmaSem sig := 48
abbrev cc9_sem0_0 : DmaSem sig := 49
abbrev cc9_sem0_1 : DmaSem sig := 50
abbrev cc9_sem1_0 : DmaSem sig := 51
abbrev cc9_sem2_0 : DmaSem sig := 52
abbrev cc9_sem2_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x40 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x40 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x40.size a ≤ S128x40.size a
  hwx8_1 : ∀ i : grid8.Coords, EltTy.bits .f32 = 32 ∨ (Rect.block (s := S128x40) S128x40.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x40.size a ≤ S50000x40.size a
  hwx8_2 : ∀ i : grid8.Coords, EltTy.bits .f32 = 32 ∨ (Rect.block (s := S50000x40) S5000x40.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x40.size a ≤ S50000x40.size a
  hwx9_0 : ∀ i : grid9.Coords, EltTy.bits .f32 = 32 ∨ (Rect.block (s := S50000x40) S5000x40.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x40.size a ≤ S1x40.size a
  hwx9_1 : ∀ i : grid9.Coords, EltTy.bits .f32 = 32 ∨ (Rect.block (s := S1x40) S1x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x40.size a ≤ S50000x40.size a
  hwx9_2 : ∀ i : grid9.Coords, EltTy.bits .f32 = 32 ∨ (Rect.block (s := S50000x40) S5000x40.size (cc9_transform_2 i) (hinb9_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v68) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v68) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v78) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v79) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v80) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v81) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v82) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v82) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v83) S5000x40.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v96) S5000x40.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v97) S1x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v98) S5000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 168
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x40, .f32⟩
  | 12 => ⟨S40, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S50000x128, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x1, .f32⟩
  | 53 => ⟨S850000x128, .f32⟩
  | 54 => ⟨S850000x128, .f32⟩
  | 55 => ⟨S_, .f32⟩
  | 56 => ⟨S50000x128, .f32⟩
  | 57 => ⟨S850000x1, .i32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x40, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x40, .f32⟩
  | 30 => ⟨S850000x1, .f32⟩
  | 31 => ⟨S850000x40, .f32⟩
  | 32 => ⟨S850000x40, .f32⟩
  | 33 => ⟨S_, .f32⟩
  | 34 => ⟨S50000x40, .f32⟩
  | 35 => ⟨S850000x1, .i32⟩
  | 36 => ⟨S50000x40, .f32⟩
  | 37 => ⟨S1x40, .f32⟩
  | 38 => ⟨S50000x40, .f32⟩
  | 39 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call0_cst : Ref sig .tc := ⟨.hbm, 92, rfl⟩
abbrev main_call0_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_call1_cst : Ref sig .tc := ⟨.hbm, 145, rfl⟩
abbrev main_call1_v0 : Ref sig .tc := ⟨.hbm, 146, rfl⟩
abbrev main_v108 : Ref sig .tc := ⟨.hbm, 147, rfl⟩
abbrev main_v109 : Ref sig .tc := ⟨.hbm, 148, rfl⟩
abbrev main_c_20 : Ref sig .tc := ⟨.hbm, 149, rfl⟩
abbrev main_v110 : Ref sig .tc := ⟨.hbm, 150, rfl⟩
abbrev main_v111 : Ref sig .tc := ⟨.hbm, 151, rfl⟩
abbrev main_c_21 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_22 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.RunResult.lean ====
/-
  The run of the whole program with its result read.

  The program is ten kernel regions among stretches of host operations.  From any memory with zero counters every
  weakly fair execution terminates without a fault; at the end the argument arrays are as launched, and the result
  buffer holds what the last region's write-backs leave in it: the contents obtained by folding, from the launch
  memory, each host stretch's operations and each region's written-back blocks in program order.
-/
import proofs.«138892_j2886218022956_1_alg».proof.Proof.Gen.KernelIdeal.Frame

set_option maxRecDepth 16384

noncomputable section

namespace Cert.KernelIdeal.RunResult

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    every argument array as launched. -/
theorem run_result : θ_run defs (onTc (τ := τ) (main (F := F))) ⟨m, fun _ => 0, ρ⟩ (fun r => ∀ c : Dev nD,
      r.2.mem ((c.tc : Thread nD τ).loc main_v98) = W16 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v98 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.RunResult

end
-- ==== Proof.Carry.lean ====
/-
  What the program keeps from one boundary to the next.

  The two index vectors (sources and targets with the self-loops appended) and the edge weights are computed by the
  first stretch of host operations and never written again; the argument arrays are never written at all.  So at every
  boundary between regions and host stretches each of them still holds what it held after the first stretch: a region
  writes only its own output arrays, a host stretch only its own results.  The first stretch's three results are, term
  for term, the reference program's first stages.
-/
import proofs.«138892_j2886218022956_1_alg».proof.Proof.Gen.KernelIdeal.Frame
import proofs.«138892_j2886218022956_1_alg».proof.Proof.Gen.ReferenceIdeal.Read
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.ShloMosaic.Tactic Idealize.SL.Sem Idealize.ShloMosaic.StableHlo

/-- Reads a buffer after a stretch of host operations: every operation's result at its own buffer is its function of
    its operands' contents, and at any other buffer what was there. -/
macro "host_read" : tactic => `(tactic| (
  after_results_simp
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))))

variable (m : (ℓ : Loc nD τ sig) → Buf (Elt Ideal) ℓ) (ρ : Dev nD → PrngReg)

/-! ## The two index vectors and the edge weights, computed once before the first region and kept to the end -/

theorem srcAt_1 (c : Dev nD) : W1 (F := Ideal) m ρ c (Proc.devRef .tc main_v1) = Cert.ReferenceIdeal.Read.val_main_v1 (F := Ideal) (m ((c.tc : Thread nD τ).loc main_arg1)) := by
  show StableHlo.after (hostOps0 (F := Ideal)) (W0 m ρ c) (Proc.devRef .tc main_v1) = Cert.ReferenceIdeal.Read.val_main_v1 (F := Ideal) (m ((c.tc : Thread nD τ).loc main_arg1))
  host_read
  rfl
theorem srcAt_2 (c : Dev nD) : W2 (F := Ideal) m ρ c (Proc.devRef .tc main_v1) = Cert.ReferenceIdeal.Read.val_main_v1 (F := Ideal) (m ((c.tc : Thread nD τ).loc main_arg1)) :=
  (W2_of_ne m ρ c main_v1 (by decide)).trans (srcAt_1 m ρ c)
theorem srcAt_3 (c : Dev nD) : W3 (F := Ideal) m ρ c (Proc.devRef .tc main_v1) = Cert.ReferenceIdeal.Read.val_main_v1 (F := Ideal) (m ((c.tc : Thread nD τ).loc main_arg1)) := by
  refine Eq.trans ?_ (srcAt_2 m ρ c)
  show StableHlo.after (hostOps1 (F := Ideal)) (W2 m ρ c) (Proc.devRef .tc main_v1) = _
  after_results_simp
theorem srcAt_4 (c : Dev nD) : W4 (F := Ideal) m ρ c (Proc.devRef .tc main_v1) = Cert.ReferenceIdeal.Read.val_main_v1 (F := Ideal) (m ((c.tc : Thread nD τ).loc main_arg1)) :=
  (W4_of_ne m ρ c main_v1 (by decide)).trans (srcAt_3 m ρ c)
theorem srcAt_5 (c : Dev nD) : W5 (F := Ideal) m ρ c (Proc.devRef .tc main_v1) = Cert.ReferenceIdeal.Read.val_main_v1 (F := Ideal) (m ((c.tc : Thread nD τ).loc main_arg1)) :=
  (W5_of_ne m ρ c main_v1 (by decide)).trans (srcAt_4 m ρ c)
theorem srcAt_6 (c : Dev nD) : W6 (F := Ideal) m ρ c (Proc.devRef .tc main_v1) = Cert.ReferenceIdeal.Read.val_main_v1 (F := Ideal) (m ((c.tc : Thread nD τ).loc main_arg1)) := by
  refine Eq.trans ?_ (srcAt_5 m ρ c)
  show StableHlo.after (hostOps3 (F := Ideal)) (W5 m ρ c) (Proc.devRef .tc main_v1) = _
  after_results_simp
theorem srcAt_7 (c : Dev nD) : W7 (F := Ideal) m ρ c (Proc.devRef .tc main_v1) = Cert.ReferenceIdeal.Read.val_main_v1 (F := Ideal) (m ((c.tc : Thread nD τ).loc main_arg1)) :=
  (W7_of_ne m ρ c main_v1 (by decide)).trans (srcAt_6 m ρ c)
theorem srcAt_8 (c : Dev nD) : W8 (F := Ideal) m ρ c (Proc.devRef .tc main_v1) = Cert.ReferenceIdeal.Read.val_main_v1 (F := Ideal) (m ((c.tc : Thread nD τ).loc main_arg1)) :=
  (W8_of_ne m ρ c main_v1 (by decide)).trans (srcAt_7 m ρ c)
theorem srcAt_9 (c : Dev nD) : W9 (F := Ideal) m ρ c (Proc.devRef .tc main_v1) = Cert.ReferenceIdeal.Read.val_main_v1 (F := Ideal) (m ((c.tc : Thread nD τ).loc main_arg1)) := by
  refine Eq.trans ?_ (srcAt_8 m ρ c)
  show StableHlo.after (hostOps5 (F := Ideal)) (W8 m ρ c) (Proc.devRef .tc main_v1) = _
  after_results_simp
theorem srcAt_10 (c : Dev nD) : W10 (F := Ideal) m ρ c (Proc.devRef .tc main_v1) = Cert.ReferenceIdeal.Read.val_main_v1 (F := Ideal) (m ((c.tc : Thread nD τ).loc main_arg1)) :=
  (W10_of_ne m ρ c main_v1 (by decide)).trans (srcAt_9 m ρ c)
theorem srcAt_11 (c : Dev nD) : W11 (F := Ideal) m ρ c (Proc.devRef .tc main_v1) = Cert.ReferenceIdeal.Read.val_main_v1 (F := Ideal) (m ((c.tc : Thread nD τ).loc main_arg1)) :=
  (W11_of_ne m ρ c main_v1 (by decide)).trans (srcAt_10 m ρ c)
theorem srcAt_12 (c : Dev nD) : W12 (F := Ideal) m ρ c (Proc.devRef .tc main_v1) = Cert.ReferenceIdeal.Read.val_main_v1 (F := Ideal) (m ((c.tc : Thread nD τ).loc main_arg1)) := by
  refine Eq.trans ?_ (srcAt_11 m ρ c)
  show StableHlo.after (hostOps7 (F := Ideal)) (W11 m ρ c) (Proc.devRef .tc main_v1) = _
  after_results_simp
theorem srcAt_13 (c : Dev nD) : W13 (F := Ideal) m ρ c (Proc.devRef .tc main_v1) = Cert.ReferenceIdeal.Read.val_main_v1 (F := Ideal) (m ((c.tc : Thread nD τ).loc main_arg1)) :=
  (W13_of_ne m ρ c main_v1 (by decide)).trans (srcAt_12 m ρ c)
theorem srcAt_14 (c : Dev nD) : W14 (F := Ideal) m ρ c (Proc.devRef .tc main_v1) = Cert.ReferenceIdeal.Read.val_main_v1 (F := Ideal) (m ((c.tc : Thread nD τ).loc main_arg1)) :=
  (W14_of_ne m ρ c main_v1 (by decide)).trans (srcAt_13 m ρ c)

theorem dstAt_1 (c : Dev nD) : W1 (F := Ideal) m ρ c (Proc.devRef .tc main_v2) = Cert.ReferenceIdeal.Read.val_main_v2 (F := Ideal) (m ((c.tc : Thread nD τ).loc main_arg2)) := by
  show StableHlo.after (hostOps0 (F := Ideal)) (W0 m ρ c) (Proc.devRef .tc main_v2) = Cert.ReferenceIdeal.Read.val_main_v2 (F := Ideal) (m ((c.tc : Thread nD τ).loc main_arg2))
  host_read
  rfl
theorem dstAt_2 (c : Dev nD) : W2 (F := Ideal) m ρ c (Proc.devRef .tc main_v2) = Cert.ReferenceIdeal.Read.val_main_v2 (F := Ideal) (m ((c.tc : Thread nD τ).loc main_arg2)) :=
  (W2_of_ne m ρ c main_v2 (by decide)).trans (dstAt_1 m ρ c)
theorem dstAt_3 (c : Dev nD) : W3 (F := Ideal) m ρ c (Proc.devRef .tc main_v2) = Cert.ReferenceIdeal.Read.val_main_v2 (F := Ideal) (m ((c.tc : Thread nD τ).loc main_arg2)) := by
  refine Eq.trans ?_ (dstAt_2 m ρ c)
  show StableHlo.after (hostOps1 (F := Ideal)) (W2 m ρ c) (Proc.devRef .tc main_v2) = _
  after_results_simp
theorem dstAt_4 (c : Dev nD) : W4 (F := Ideal) m ρ c (Proc.devRef .tc main_v2) = Cert.ReferenceIdeal.Read.val_main_v2 (F := Ideal) (m ((c.tc : Thread nD τ).loc main_arg2)) :=
  (W4_of_ne m ρ c main_v2 (by decide)).trans (dstAt_3 m ρ c)
theorem dstAt_5 (c : Dev nD) : W5 (F := Ideal) m ρ c (Proc.devRef .tc main_v2) = Cert.ReferenceIdeal.Read.val_main_v2 (F := Ideal) (m ((c.tc : Thread nD τ).loc main_arg2)) :=
  (W5_of_ne m ρ c main_v2 (by decide)).trans (dstAt_4 m ρ c)
theorem dstAt_6 (c : Dev nD) : W6 (F := Ideal) m ρ c (Proc.devRef .tc main_v2) = Cert.ReferenceIdeal.Read.val_main_v2 (F := Ideal) (m ((c.tc : Thread nD τ).loc main_arg2)) := by
  refine Eq.trans ?_ (dstAt_5 m ρ c)
  show StableHlo.after (hostOps3 (F := Ideal)) (W5 m ρ c) (Proc.devRef .tc main_v2) = _
  after_results_simp
theorem dstAt_7 (c : Dev nD) : W7 (F := Ideal) m ρ c (Proc.devRef .tc main_v2) = Cert.ReferenceIdeal.Read.val_main_v2 (F := Ideal) (m ((c.tc : Thread nD τ).loc main_arg2)) :=
  (W7_of_ne m ρ c main_v2 (by decide)).trans (dstAt_6 m ρ c)
theorem dstAt_8 (c : Dev nD) : W8 (F := Ideal) m ρ c (Proc.devRef .tc main_v2) = Cert.ReferenceIdeal.Read.val_main_v2 (F := Ideal) (m ((c.tc : Thread nD τ).loc main_arg2)) :=
  (W8_of_ne m ρ c main_v2 (by decide)).trans (dstAt_7 m ρ c)
theorem dstAt_9 (c : Dev nD) : W9 (F := Ideal) m ρ c (Proc.devRef .tc main_v2) = Cert.ReferenceIdeal.Read.val_main_v2 (F := Ideal) (m ((c.tc : Thread nD τ).loc main_arg2)) := by
  refine Eq.trans ?_ (dstAt_8 m ρ c)
  show StableHlo.after (hostOps5 (F := Ideal)) (W8 m ρ c) (Proc.devRef .tc main_v2) = _
  after_results_simp
theorem dstAt_10 (c : Dev nD) : W10 (F := Ideal) m ρ c (Proc.devRef .tc main_v2) = Cert.ReferenceIdeal.Read.val_main_v2 (F := Ideal) (m ((c.tc : Thread nD τ).loc main_arg2)) :=
  (W10_of_ne m ρ c main_v2 (by decide)).trans (dstAt_9 m ρ c)
theorem dstAt_11 (c : Dev nD) : W11 (F := Ideal) m ρ c (Proc.devRef .tc main_v2) = Cert.ReferenceIdeal.Read.val_main_v2 (F := Ideal) (m ((c.tc : Thread nD τ).loc main_arg2)) :=
  (W11_of_ne m ρ c main_v2 (by decide)).trans (dstAt_10 m ρ c)
theorem dstAt_12 (c : Dev nD) : W12 (F := Ideal) m ρ c (Proc.devRef .tc main_v2) = Cert.ReferenceIdeal.Read.val_main_v2 (F := Ideal) (m ((c.tc : Thread nD τ).loc main_arg2)) := by
  refine Eq.trans ?_ (dstAt_11 m ρ c)
  show StableHlo.after (hostOps7 (F := Ideal)) (W11 m ρ c) (Proc.devRef .tc main_v2) = _
  after_results_simp
theorem dstAt_13 (c : Dev nD) : W13 (F := Ideal) m ρ c (Proc.devRef .tc main_v2) = Cert.ReferenceIdeal.Read.val_main_v2 (F := Ideal) (m ((c.tc : Thread nD τ).loc main_arg2)) :=
  (W13_of_ne m ρ c main_v2 (by decide)).trans (dstAt_12 m ρ c)
theorem dstAt_14 (c : Dev nD) : W14 (F := Ideal) m ρ c (Proc.devRef .tc main_v2) = Cert.ReferenceIdeal.Read.val_main_v2 (F := Ideal) (m ((c.tc : Thread nD τ).loc main_arg2)) :=
  (W14_of_ne m ρ c main_v2 (by decide)).trans (dstAt_13 m ρ c)

theorem normAt_1 (c : Dev nD) : W1 (F := Ideal) m ρ c (Proc.devRef .tc main_v22) = Cert.ReferenceIdeal.Read.val_main_v22 (F := Ideal) (m ((c.tc : Thread nD τ).loc main_arg1)) (m ((c.tc : Thread nD τ).loc main_arg2)) := by
  show StableHlo.after (hostOps0 (F := Ideal)) (W0 m ρ c) (Proc.devRef .tc main_v22) = Cert.ReferenceIdeal.Read.val_main_v22 (F := Ideal) (m ((c.tc : Thread nD τ).loc main_arg1)) (m ((c.tc : Thread nD τ).loc main_arg2))
  host_read
  rfl
theorem normAt_2 (c : Dev nD) : W2 (F := Ideal) m ρ c (Proc.devRef .tc main_v22) = Cert.ReferenceIdeal.Read.val_main_v22 (F := Ideal) (m ((c.tc : Thread nD τ).loc main_arg1)) (m ((c.tc : Thread nD τ).loc main_arg2)) :=
  (W2_of_ne m ρ c main_v22 (by decide)).trans (normAt_1 m ρ c)
theorem normAt_3 (c : Dev nD) : W3 (F := Ideal) m ρ c (Proc.devRef .tc main_v22) = Cert.ReferenceIdeal.Read.val_main_v22 (F := Ideal) (m ((c.tc : Thread nD τ).loc main_arg1)) (m ((c.tc : Thread nD τ).loc main_arg2)) := by
  refine Eq.trans ?_ (normAt_2 m ρ c)
  show StableHlo.after (hostOps1 (F := Ideal)) (W2 m ρ c) (Proc.devRef .tc main_v22) = _
  after_results_simp
theorem normAt_4 (c : Dev nD) : W4 (F := Ideal) m ρ c (Proc.devRef .tc main_v22) = Cert.ReferenceIdeal.Read.val_main_v22 (F := Ideal) (m ((c.tc : Thread nD τ).loc main_arg1)) (m ((c.tc : Thread nD τ).loc main_arg2)) :=
  (W4_of_ne m ρ c main_v22 (by decide)).trans (normAt_3 m ρ c)
theorem normAt_5 (c : Dev nD) : W5 (F := Ideal) m ρ c (Proc.devRef .tc main_v22) = Cert.ReferenceIdeal.Read.val_main_v22 (F := Ideal) (m ((c.tc : Thread nD τ).loc main_arg1)) (m ((c.tc : Thread nD τ).loc main_arg2)) :=
  (W5_of_ne m ρ c main_v22 (by decide)).trans (normAt_4 m ρ c)
theorem normAt_6 (c : Dev nD) : W6 (F := Ideal) m ρ c (Proc.devRef .tc main_v22) = Cert.ReferenceIdeal.Read.val_main_v22 (F := Ideal) (m ((c.tc : Thread nD τ).loc main_arg1)) (m ((c.tc : Thread nD τ).loc main_arg2)) := by
  refine Eq.trans ?_ (normAt_5 m ρ c)
  show StableHlo.after (hostOps3 (F := Ideal)) (W5 m ρ c) (Proc.devRef .tc main_v22) = _
  after_results_simp
theorem normAt_7 (c : Dev nD) : W7 (F := Ideal) m ρ c (Proc.devRef .tc main_v22) = Cert.ReferenceIdeal.Read.val_main_v22 (F := Ideal) (m ((c.tc : Thread nD τ).loc main_arg1)) (m ((c.tc : Thread nD τ).loc main_arg2)) :=
  (W7_of_ne m ρ c main_v22 (by decide)).trans (normAt_6 m ρ c)
theorem normAt_8 (c : Dev nD) : W8 (F := Ideal) m ρ c (Proc.devRef .tc main_v22) = Cert.ReferenceIdeal.Read.val_main_v22 (F := Ideal) (m ((c.tc : Thread nD τ).loc main_arg1)) (m ((c.tc : Thread nD τ).loc main_arg2)) :=
  (W8_of_ne m ρ c main_v22 (by decide)).trans (normAt_7 m ρ c)
theorem normAt_9 (c : Dev nD) : W9 (F := Ideal) m ρ c (Proc.devRef .tc main_v22) = Cert.ReferenceIdeal.Read.val_main_v22 (F := Ideal) (m ((c.tc : Thread nD τ).loc main_arg1)) (m ((c.tc : Thread nD τ).loc main_arg2)) := by
  refine Eq.trans ?_ (normAt_8 m ρ c)
  show StableHlo.after (hostOps5 (F := Ideal)) (W8 m ρ c) (Proc.devRef .tc main_v22) = _
  after_results_simp
theorem normAt_10 (c : Dev nD) : W10 (F := Ideal) m ρ c (Proc.devRef .tc main_v22) = Cert.ReferenceIdeal.Read.val_main_v22 (F := Ideal) (m ((c.tc : Thread nD τ).loc main_arg1)) (m ((c.tc : Thread nD τ).loc main_arg2)) :=
  (W10_of_ne m ρ c main_v22 (by decide)).trans (normAt_9 m ρ c)
theorem normAt_11 (c : Dev nD) : W11 (F := Ideal) m ρ c (Proc.devRef .tc main_v22) = Cert.ReferenceIdeal.Read.val_main_v22 (F := Ideal) (m ((c.tc : Thread nD τ).loc main_arg1)) (m ((c.tc : Thread nD τ).loc main_arg2)) :=
  (W11_of_ne m ρ c main_v22 (by decide)).trans (normAt_10 m ρ c)
theorem normAt_12 (c : Dev nD) : W12 (F := Ideal) m ρ c (Proc.devRef .tc main_v22) = Cert.ReferenceIdeal.Read.val_main_v22 (F := Ideal) (m ((c.tc : Thread nD τ).loc main_arg1)) (m ((c.tc : Thread nD τ).loc main_arg2)) := by
  refine Eq.trans ?_ (normAt_11 m ρ c)
  show StableHlo.after (hostOps7 (F := Ideal)) (W11 m ρ c) (Proc.devRef .tc main_v22) = _
  after_results_simp
theorem normAt_13 (c : Dev nD) : W13 (F := Ideal) m ρ c (Proc.devRef .tc main_v22) = Cert.ReferenceIdeal.Read.val_main_v22 (F := Ideal) (m ((c.tc : Thread nD τ).loc main_arg1)) (m ((c.tc : Thread nD τ).loc main_arg2)) :=
  (W13_of_ne m ρ c main_v22 (by decide)).trans (normAt_12 m ρ c)
theorem normAt_14 (c : Dev nD) : W14 (F := Ideal) m ρ c (Proc.devRef .tc main_v22) = Cert.ReferenceIdeal.Read.val_main_v22 (F := Ideal) (m ((c.tc : Thread nD τ).loc main_arg1)) (m ((c.tc : Thread nD τ).loc main_arg2)) :=
  (W14_of_ne m ρ c main_v22 (by decide)).trans (normAt_13 m ρ c)

/-! ## The argument arrays are as launched at every boundary -/

theorem arg0At_1 (c : Dev nD) : W1 (F := Ideal) m ρ c (Proc.devRef .tc main_arg0) = (m ((c.tc : Thread nD τ).loc main_arg0)) := by
  show StableHlo.after (hostOps0 (F := Ideal)) (W0 m ρ c) (Proc.devRef .tc main_arg0) = (m ((c.tc : Thread nD τ).loc main_arg0))
  after_results_simp <;> rfl
theorem arg0At_2 (c : Dev nD) : W2 (F := Ideal) m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (arg0At_1 m ρ c)
theorem arg0At_3 (c : Dev nD) : W3 (F := Ideal) m ρ c (Proc.devRef .tc main_arg0) = (m ((c.tc : Thread nD τ).loc main_arg0)) := by
  refine Eq.trans ?_ (arg0At_2 m ρ c)
  show StableHlo.after (hostOps1 (F := Ideal)) (W2 m ρ c) (Proc.devRef .tc main_arg0) = _
  after_results_simp
theorem arg0At_4 (c : Dev nD) : W4 (F := Ideal) m ρ c (Proc.devRef .tc main_arg0) = (m ((c.tc : Thread nD τ).loc main_arg0)) :=
  (W4_of_ne m ρ c main_arg0 (by decide)).trans (arg0At_3 m ρ c)
theorem arg0At_5 (c : Dev nD) : W5 (F := Ideal) m ρ c (Proc.devRef .tc main_arg0) = (m ((c.tc : Thread nD τ).loc main_arg0)) :=
  (W5_of_ne m ρ c main_arg0 (by decide)).trans (arg0At_4 m ρ c)
theorem arg0At_6 (c : Dev nD) : W6 (F := Ideal) m ρ c (Proc.devRef .tc main_arg0) = (m ((c.tc : Thread nD τ).loc main_arg0)) := by
  refine Eq.trans ?_ (arg0At_5 m ρ c)
  show StableHlo.after (hostOps3 (F := Ideal)) (W5 m ρ c) (Proc.devRef .tc main_arg0) = _
  after_results_simp
theorem arg0At_7 (c : Dev nD) : W7 (F := Ideal) m ρ c (Proc.devRef .tc main_arg0) = (m ((c.tc : Thread nD τ).loc main_arg0)) :=
  (W7_of_ne m ρ c main_arg0 (by decide)).trans (arg0At_6 m ρ c)
theorem arg0At_8 (c : Dev nD) : W8 (F := Ideal) m ρ c (Proc.devRef .tc main_arg0) = (m ((c.tc : Thread nD τ).loc main_arg0)) :=
  (W8_of_ne m ρ c main_arg0 (by decide)).trans (arg0At_7 m ρ c)
theorem arg0At_9 (c : Dev nD) : W9 (F := Ideal) m ρ c (Proc.devRef .tc main_arg0) = (m ((c.tc : Thread nD τ).loc main_arg0)) := by
  refine Eq.trans ?_ (arg0At_8 m ρ c)
  show StableHlo.after (hostOps5 (F := Ideal)) (W8 m ρ c) (Proc.devRef .tc main_arg0) = _
  after_results_simp
theorem arg0At_10 (c : Dev nD) : W10 (F := Ideal) m ρ c (Proc.devRef .tc main_arg0) = (m ((c.tc : Thread nD τ).loc main_arg0)) :=
  (W10_of_ne m ρ c main_arg0 (by decide)).trans (arg0At_9 m ρ c)
theorem arg0At_11 (c : Dev nD) : W11 (F := Ideal) m ρ c (Proc.devRef .tc main_arg0) = (m ((c.tc : Thread nD τ).loc main_arg0)) :=
  (W11_of_ne m ρ c main_arg0 (by decide)).trans (arg0At_10 m ρ c)
theorem arg0At_12 (c : Dev nD) : W12 (F := Ideal) m ρ c (Proc.devRef .tc main_arg0) = (m ((c.tc : Thread nD τ).loc main_arg0)) := by
  refine Eq.trans ?_ (arg0At_11 m ρ c)
  show StableHlo.after (hostOps7 (F := Ideal)) (W11 m ρ c) (Proc.devRef .tc main_arg0) = _
  after_results_simp
theorem arg0At_13 (c : Dev nD) : W13 (F := Ideal) m ρ c (Proc.devRef .tc main_arg0) = (m ((c.tc : Thread nD τ).loc main_arg0)) :=
  (W13_of_ne m ρ c main_arg0 (by decide)).trans (arg0At_12 m ρ c)
theorem arg0At_14 (c : Dev nD) : W14 (F := Ideal) m ρ c (Proc.devRef .tc main_arg0) = (m ((c.tc : Thread nD τ).loc main_arg0)) :=
  (W14_of_ne m ρ c main_arg0 (by decide)).trans (arg0At_13 m ρ c)

theorem arg3At_1 (c : Dev nD) : W1 (F := Ideal) m ρ c (Proc.devRef .tc main_arg3) = (m ((c.tc : Thread nD τ).loc main_arg3)) := by
  show StableHlo.after (hostOps0 (F := Ideal)) (W0 m ρ c) (Proc.devRef .tc main_arg3) = (m ((c.tc : Thread nD τ).loc main_arg3))
  after_results_simp <;> rfl
theorem arg3At_2 (c : Dev nD) : W2 (F := Ideal) m ρ c (Proc.devRef .tc main_arg3) = (m ((c.tc : Thread nD τ).loc main_arg3)) :=
  ((W2_arr m ρ c 1).trans (((dat0 (V1 m ρ) c).arrAt_in 1 rfl _).trans (A_eq0 (V1 m ρ) c 1))).trans (arg3At_1 m ρ c)
theorem arg3At_3 (c : Dev nD) : W3 (F := Ideal) m ρ c (Proc.devRef .tc main_arg3) = (m ((c.tc : Thread nD τ).loc main_arg3)) := by
  refine Eq.trans ?_ (arg3At_2 m ρ c)
  show StableHlo.after (hostOps1 (F := Ideal)) (W2 m ρ c) (Proc.devRef .tc main_arg3) = _
  after_results_simp
theorem arg3At_4 (c : Dev nD) : W4 (F := Ideal) m ρ c (Proc.devRef .tc main_arg3) = (m ((c.tc : Thread nD τ).loc main_arg3)) :=
  (W4_of_ne m ρ c main_arg3 (by decide)).trans (arg3At_3 m ρ c)
theorem arg3At_5 (c : Dev nD) : W5 (F := Ideal) m ρ c (Proc.devRef .tc main_arg3) = (m ((c.tc : Thread nD τ).loc main_arg3)) :=
  (W5_of_ne m ρ c main_arg3 (by decide)).trans (arg3At_4 m ρ c)
theorem arg3At_6 (c : Dev nD) : W6 (F := Ideal) m ρ c (Proc.devRef .tc main_arg3) = (m ((c.tc : Thread nD τ).loc main_arg3)) := by
  refine Eq.trans ?_ (arg3At_5 m ρ c)
  show StableHlo.after (hostOps3 (F := Ideal)) (W5 m ρ c) (Proc.devRef .tc main_arg3) = _
  after_results_simp
theorem arg3At_7 (c : Dev nD) : W7 (F := Ideal) m ρ c (Proc.devRef .tc main_arg3) = (m ((c.tc : Thread nD τ).loc main_arg3)) :=
  (W7_of_ne m ρ c main_arg3 (by decide)).trans (arg3At_6 m ρ c)
theorem arg3At_8 (c : Dev nD) : W8 (F := Ideal) m ρ c (Proc.devRef .tc main_arg3) = (m ((c.tc : Thread nD τ).loc main_arg3)) :=
  (W8_of_ne m ρ c main_arg3 (by decide)).trans (arg3At_7 m ρ c)
theorem arg3At_9 (c : Dev nD) : W9 (F := Ideal) m ρ c (Proc.devRef .tc main_arg3) = (m ((c.tc : Thread nD τ).loc main_arg3)) := by
  refine Eq.trans ?_ (arg3At_8 m ρ c)
  show StableHlo.after (hostOps5 (F := Ideal)) (W8 m ρ c) (Proc.devRef .tc main_arg3) = _
  after_results_simp
theorem arg3At_10 (c : Dev nD) : W10 (F := Ideal) m ρ c (Proc.devRef .tc main_arg3) = (m ((c.tc : Thread nD τ).loc main_arg3)) :=
  (W10_of_ne m ρ c main_arg3 (by decide)).trans (arg3At_9 m ρ c)
theorem arg3At_11 (c : Dev nD) : W11 (F := Ideal) m ρ c (Proc.devRef .tc main_arg3) = (m ((c.tc : Thread nD τ).loc main_arg3)) :=
  (W11_of_ne m ρ c main_arg3 (by decide)).trans (arg3At_10 m ρ c)
theorem arg3At_12 (c : Dev nD) : W12 (F := Ideal) m ρ c (Proc.devRef .tc main_arg3) = (m ((c.tc : Thread nD τ).loc main_arg3)) := by
  refine Eq.trans ?_ (arg3At_11 m ρ c)
  show StableHlo.after (hostOps7 (F := Ideal)) (W11 m ρ c) (Proc.devRef .tc main_arg3) = _
  after_results_simp
theorem arg3At_13 (c : Dev nD) : W13 (F := Ideal) m ρ c (Proc.devRef .tc main_arg3) = (m ((c.tc : Thread nD τ).loc main_arg3)) :=
  (W13_of_ne m ρ c main_arg3 (by decide)).trans (arg3At_12 m ρ c)
theorem arg3At_14 (c : Dev nD) : W14 (F := Ideal) m ρ c (Proc.devRef .tc main_arg3) = (m ((c.tc : Thread nD τ).loc main_arg3)) :=
  (W14_of_ne m ρ c main_arg3 (by decide)).trans (arg3At_13 m ρ c)

theorem arg4At_1 (c : Dev nD) : W1 (F := Ideal) m ρ c (Proc.devRef .tc main_arg4) = (m ((c.tc : Thread nD τ).loc main_arg4)) := by
  show StableHlo.after (hostOps0 (F := Ideal)) (W0 m ρ c) (Proc.devRef .tc main_arg4) = (m ((c.tc : Thread nD τ).loc main_arg4))
  after_results_simp <;> rfl
theorem arg4At_2 (c : Dev nD) : W2 (F := Ideal) m ρ c (Proc.devRef .tc main_arg4) = (m ((c.tc : Thread nD τ).loc main_arg4)) :=
  (W2_of_ne m ρ c main_arg4 (by decide)).trans (arg4At_1 m ρ c)
theorem arg4At_3 (c : Dev nD) : W3 (F := Ideal) m ρ c (Proc.devRef .tc main_arg4) = (m ((c.tc : Thread nD τ).loc main_arg4)) := by
  refine Eq.trans ?_ (arg4At_2 m ρ c)
  show StableHlo.after (hostOps1 (F := Ideal)) (W2 m ρ c) (Proc.devRef .tc main_arg4) = _
  after_results_simp
theorem arg4At_4 (c : Dev nD) : W4 (F := Ideal) m ρ c (Proc.devRef .tc main_arg4) = (m ((c.tc : Thread nD τ).loc main_arg4)) :=
  (W4_of_ne m ρ c main_arg4 (by decide)).trans (arg4At_3 m ρ c)
theorem arg4At_5 (c : Dev nD) : W5 (F := Ideal) m ρ c (Proc.devRef .tc main_arg4) = (m ((c.tc : Thread nD τ).loc main_arg4)) :=
  (W5_of_ne m ρ c main_arg4 (by decide)).trans (arg4At_4 m ρ c)
theorem arg4At_6 (c : Dev nD) : W6 (F := Ideal) m ρ c (Proc.devRef .tc main_arg4) = (m ((c.tc : Thread nD τ).loc main_arg4)) := by
  refine Eq.trans ?_ (arg4At_5 m ρ c)
  show StableHlo.after (hostOps3 (F := Ideal)) (W5 m ρ c) (Proc.devRef .tc main_arg4) = _
  after_results_simp
theorem arg4At_7 (c : Dev nD) : W7 (F := Ideal) m ρ c (Proc.devRef .tc main_arg4) = (m ((c.tc : Thread nD τ).loc main_arg4)) :=
  (W7_of_ne m ρ c main_arg4 (by decide)).trans (arg4At_6 m ρ c)
theorem arg4At_8 (c : Dev nD) : W8 (F := Ideal) m ρ c (Proc.devRef .tc main_arg4) = (m ((c.tc : Thread nD τ).loc main_arg4)) :=
  (W8_of_ne m ρ c main_arg4 (by decide)).trans (arg4At_7 m ρ c)
theorem arg4At_9 (c : Dev nD) : W9 (F := Ideal) m ρ c (Proc.devRef .tc main_arg4) = (m ((c.tc : Thread nD τ).loc main_arg4)) := by
  refine Eq.trans ?_ (arg4At_8 m ρ c)
  show StableHlo.after (hostOps5 (F := Ideal)) (W8 m ρ c) (Proc.devRef .tc main_arg4) = _
  after_results_simp
theorem arg4At_10 (c : Dev nD) : W10 (F := Ideal) m ρ c (Proc.devRef .tc main_arg4) = (m ((c.tc : Thread nD τ).loc main_arg4)) :=
  (W10_of_ne m ρ c main_arg4 (by decide)).trans (arg4At_9 m ρ c)
theorem arg4At_11 (c : Dev nD) : W11 (F := Ideal) m ρ c (Proc.devRef .tc main_arg4) = (m ((c.tc : Thread nD τ).loc main_arg4)) :=
  (W11_of_ne m ρ c main_arg4 (by decide)).trans (arg4At_10 m ρ c)
theorem arg4At_12 (c : Dev nD) : W12 (F := Ideal) m ρ c (Proc.devRef .tc main_arg4) = (m ((c.tc : Thread nD τ).loc main_arg4)) := by
  refine Eq.trans ?_ (arg4At_11 m ρ c)
  show StableHlo.after (hostOps7 (F := Ideal)) (W11 m ρ c) (Proc.devRef .tc main_arg4) = _
  after_results_simp
theorem arg4At_13 (c : Dev nD) : W13 (F := Ideal) m ρ c (Proc.devRef .tc main_arg4) = (m ((c.tc : Thread nD τ).loc main_arg4)) :=
  (W13_of_ne m ρ c main_arg4 (by decide)).trans (arg4At_12 m ρ c)
theorem arg4At_14 (c : Dev nD) : W14 (F := Ideal) m ρ c (Proc.devRef .tc main_arg4) = (m ((c.tc : Thread nD τ).loc main_arg4)) :=
  (W14_of_ne m ρ c main_arg4 (by decide)).trans (arg4At_13 m ρ c)

theorem arg5At_1 (c : Dev nD) : W1 (F := Ideal) m ρ c (Proc.devRef .tc main_arg5) = (m ((c.tc : Thread nD τ).loc main_arg5)) := by
  show StableHlo.after (hostOps0 (F := Ideal)) (W0 m ρ c) (Proc.devRef .tc main_arg5) = (m ((c.tc : Thread nD τ).loc main_arg5))
  after_results_simp <;> rfl
theorem arg5At_2 (c : Dev nD) : W2 (F := Ideal) m ρ c (Proc.devRef .tc main_arg5) = (m ((c.tc : Thread nD τ).loc main_arg5)) :=
  (W2_of_ne m ρ c main_arg5 (by decide)).trans (arg5At_1 m ρ c)
theorem arg5At_3 (c : Dev nD) : W3 (F := Ideal) m ρ c (Proc.devRef .tc main_arg5) = (m ((c.tc : Thread nD τ).loc main_arg5)) := by
  refine Eq.trans ?_ (arg5At_2 m ρ c)
  show StableHlo.after (hostOps1 (F := Ideal)) (W2 m ρ c) (Proc.devRef .tc main_arg5) = _
  after_results_simp
theorem arg5At_4 (c : Dev nD) : W4 (F := Ideal) m ρ c (Proc.devRef .tc main_arg5) = (m ((c.tc : Thread nD τ).loc main_arg5)) :=
  (W4_of_ne m ρ c main_arg5 (by decide)).trans (arg5At_3 m ρ c)
theorem arg5At_5 (c : Dev nD) : W5 (F := Ideal) m ρ c (Proc.devRef .tc main_arg5) = (m ((c.tc : Thread nD τ).loc main_arg5)) :=
  (W5_of_ne m ρ c main_arg5 (by decide)).trans (arg5At_4 m ρ c)
theorem arg5At_6 (c : Dev nD) : W6 (F := Ideal) m ρ c (Proc.devRef .tc main_arg5) = (m ((c.tc : Thread nD τ).loc main_arg5)) := by
  refine Eq.trans ?_ (arg5At_5 m ρ c)
  show StableHlo.after (hostOps3 (F := Ideal)) (W5 m ρ c) (Proc.devRef .tc main_arg5) = _
  after_results_simp
theorem arg5At_7 (c : Dev nD) : W7 (F := Ideal) m ρ c (Proc.devRef .tc main_arg5) = (m ((c.tc : Thread nD τ).loc main_arg5)) :=
  (W7_of_ne m ρ c main_arg5 (by decide)).trans (arg5At_6 m ρ c)
theorem arg5At_8 (c : Dev nD) : W8 (F := Ideal) m ρ c (Proc.devRef .tc main_arg5) = (m ((c.tc : Thread nD τ).loc main_arg5)) :=
  (W8_of_ne m ρ c main_arg5 (by decide)).trans (arg5At_7 m ρ c)
theorem arg5At_9 (c : Dev nD) : W9 (F := Ideal) m ρ c (Proc.devRef .tc main_arg5) = (m ((c.tc : Thread nD τ).loc main_arg5)) := by
  refine Eq.trans ?_ (arg5At_8 m ρ c)
  show StableHlo.after (hostOps5 (F := Ideal)) (W8 m ρ c) (Proc.devRef .tc main_arg5) = _
  after_results_simp
theorem arg5At_10 (c : Dev nD) : W10 (F := Ideal) m ρ c (Proc.devRef .tc main_arg5) = (m ((c.tc : Thread nD τ).loc main_arg5)) :=
  (W10_of_ne m ρ c main_arg5 (by decide)).trans (arg5At_9 m ρ c)
theorem arg5At_11 (c : Dev nD) : W11 (F := Ideal) m ρ c (Proc.devRef .tc main_arg5) = (m ((c.tc : Thread nD τ).loc main_arg5)) :=
  (W11_of_ne m ρ c main_arg5 (by decide)).trans (arg5At_10 m ρ c)
theorem arg5At_12 (c : Dev nD) : W12 (F := Ideal) m ρ c (Proc.devRef .tc main_arg5) = (m ((c.tc : Thread nD τ).loc main_arg5)) := by
  refine Eq.trans ?_ (arg5At_11 m ρ c)
  show StableHlo.after (hostOps7 (F := Ideal)) (W11 m ρ c) (Proc.devRef .tc main_arg5) = _
  after_results_simp
theorem arg5At_13 (c : Dev nD) : W13 (F := Ideal) m ρ c (Proc.devRef .tc main_arg5) = (m ((c.tc : Thread nD τ).loc main_arg5)) :=
  (W13_of_ne m ρ c main_arg5 (by decide)).trans (arg5At_12 m ρ c)
theorem arg5At_14 (c : Dev nD) : W14 (F := Ideal) m ρ c (Proc.devRef .tc main_arg5) = (m ((c.tc : Thread nD τ).loc main_arg5)) :=
  (W14_of_ne m ρ c main_arg5 (by decide)).trans (arg5At_13 m ρ c)

theorem arg6At_1 (c : Dev nD) : W1 (F := Ideal) m ρ c (Proc.devRef .tc main_arg6) = (m ((c.tc : Thread nD τ).loc main_arg6)) := by
  show StableHlo.after (hostOps0 (F := Ideal)) (W0 m ρ c) (Proc.devRef .tc main_arg6) = (m ((c.tc : Thread nD τ).loc main_arg6))
  after_results_simp <;> rfl
theorem arg6At_2 (c : Dev nD) : W2 (F := Ideal) m ρ c (Proc.devRef .tc main_arg6) = (m ((c.tc : Thread nD τ).loc main_arg6)) :=
  (W2_of_ne m ρ c main_arg6 (by decide)).trans (arg6At_1 m ρ c)
theorem arg6At_3 (c : Dev nD) : W3 (F := Ideal) m ρ c (Proc.devRef .tc main_arg6) = (m ((c.tc : Thread nD τ).loc main_arg6)) := by
  refine Eq.trans ?_ (arg6At_2 m ρ c)
  show StableHlo.after (hostOps1 (F := Ideal)) (W2 m ρ c) (Proc.devRef .tc main_arg6) = _
  after_results_simp
theorem arg6At_4 (c : Dev nD) : W4 (F := Ideal) m ρ c (Proc.devRef .tc main_arg6) = (m ((c.tc : Thread nD τ).loc main_arg6)) :=
  (W4_of_ne m ρ c main_arg6 (by decide)).trans (arg6At_3 m ρ c)
theorem arg6At_5 (c : Dev nD) : W5 (F := Ideal) m ρ c (Proc.devRef .tc main_arg6) = (m ((c.tc : Thread nD τ).loc main_arg6)) :=
  (W5_of_ne m ρ c main_arg6 (by decide)).trans (arg6At_4 m ρ c)
theorem arg6At_6 (c : Dev nD) : W6 (F := Ideal) m ρ c (Proc.devRef .tc main_arg6) = (m ((c.tc : Thread nD τ).loc main_arg6)) := by
  refine Eq.trans ?_ (arg6At_5 m ρ c)
  show StableHlo.after (hostOps3 (F := Ideal)) (W5 m ρ c) (Proc.devRef .tc main_arg6) = _
  after_results_simp
theorem arg6At_7 (c : Dev nD) : W7 (F := Ideal) m ρ c (Proc.devRef .tc main_arg6) = (m ((c.tc : Thread nD τ).loc main_arg6)) :=
  (W7_of_ne m ρ c main_arg6 (by decide)).trans (arg6At_6 m ρ c)
theorem arg6At_8 (c : Dev nD) : W8 (F := Ideal) m ρ c (Proc.devRef .tc main_arg6) = (m ((c.tc : Thread nD τ).loc main_arg6)) :=
  (W8_of_ne m ρ c main_arg6 (by decide)).trans (arg6At_7 m ρ c)
theorem arg6At_9 (c : Dev nD) : W9 (F := Ideal) m ρ c (Proc.devRef .tc main_arg6) = (m ((c.tc : Thread nD τ).loc main_arg6)) := by
  refine Eq.trans ?_ (arg6At_8 m ρ c)
  show StableHlo.after (hostOps5 (F := Ideal)) (W8 m ρ c) (Proc.devRef .tc main_arg6) = _
  after_results_simp
theorem arg6At_10 (c : Dev nD) : W10 (F := Ideal) m ρ c (Proc.devRef .tc main_arg6) = (m ((c.tc : Thread nD τ).loc main_arg6)) :=
  (W10_of_ne m ρ c main_arg6 (by decide)).trans (arg6At_9 m ρ c)
theorem arg6At_11 (c : Dev nD) : W11 (F := Ideal) m ρ c (Proc.devRef .tc main_arg6) = (m ((c.tc : Thread nD τ).loc main_arg6)) :=
  (W11_of_ne m ρ c main_arg6 (by decide)).trans (arg6At_10 m ρ c)
theorem arg6At_12 (c : Dev nD) : W12 (F := Ideal) m ρ c (Proc.devRef .tc main_arg6) = (m ((c.tc : Thread nD τ).loc main_arg6)) := by
  refine Eq.trans ?_ (arg6At_11 m ρ c)
  show StableHlo.after (hostOps7 (F := Ideal)) (W11 m ρ c) (Proc.devRef .tc main_arg6) = _
  after_results_simp
theorem arg6At_13 (c : Dev nD) : W13 (F := Ideal) m ρ c (Proc.devRef .tc main_arg6) = (m ((c.tc : Thread nD τ).loc main_arg6)) :=
  (W13_of_ne m ρ c main_arg6 (by decide)).trans (arg6At_12 m ρ c)
theorem arg6At_14 (c : Dev nD) : W14 (F := Ideal) m ρ c (Proc.devRef .tc main_arg6) = (m ((c.tc : Thread nD τ).loc main_arg6)) :=
  (W14_of_ne m ρ c main_arg6 (by decide)).trans (arg6At_13 m ρ c)

theorem arg7At_1 (c : Dev nD) : W1 (F := Ideal) m ρ c (Proc.devRef .tc main_arg7) = (m ((c.tc : Thread nD τ).loc main_arg7)) := by
  show StableHlo.after (hostOps0 (F := Ideal)) (W0 m ρ c) (Proc.devRef .tc main_arg7) = (m ((c.tc : Thread nD τ).loc main_arg7))
  after_results_simp <;> rfl
theorem arg7At_2 (c : Dev nD) : W2 (F := Ideal) m ρ c (Proc.devRef .tc main_arg7) = (m ((c.tc : Thread nD τ).loc main_arg7)) :=
  (W2_of_ne m ρ c main_arg7 (by decide)).trans (arg7At_1 m ρ c)
theorem arg7At_3 (c : Dev nD) : W3 (F := Ideal) m ρ c (Proc.devRef .tc main_arg7) = (m ((c.tc : Thread nD τ).loc main_arg7)) := by
  refine Eq.trans ?_ (arg7At_2 m ρ c)
  show StableHlo.after (hostOps1 (F := Ideal)) (W2 m ρ c) (Proc.devRef .tc main_arg7) = _
  after_results_simp
theorem arg7At_4 (c : Dev nD) : W4 (F := Ideal) m ρ c (Proc.devRef .tc main_arg7) = (m ((c.tc : Thread nD τ).loc main_arg7)) :=
  (W4_of_ne m ρ c main_arg7 (by decide)).trans (arg7At_3 m ρ c)
theorem arg7At_5 (c : Dev nD) : W5 (F := Ideal) m ρ c (Proc.devRef .tc main_arg7) = (m ((c.tc : Thread nD τ).loc main_arg7)) :=
  (W5_of_ne m ρ c main_arg7 (by decide)).trans (arg7At_4 m ρ c)
theorem arg7At_6 (c : Dev nD) : W6 (F := Ideal) m ρ c (Proc.devRef .tc main_arg7) = (m ((c.tc : Thread nD τ).loc main_arg7)) := by
  refine Eq.trans ?_ (arg7At_5 m ρ c)
  show StableHlo.after (hostOps3 (F := Ideal)) (W5 m ρ c) (Proc.devRef .tc main_arg7) = _
  after_results_simp
theorem arg7At_7 (c : Dev nD) : W7 (F := Ideal) m ρ c (Proc.devRef .tc main_arg7) = (m ((c.tc : Thread nD τ).loc main_arg7)) :=
  (W7_of_ne m ρ c main_arg7 (by decide)).trans (arg7At_6 m ρ c)
theorem arg7At_8 (c : Dev nD) : W8 (F := Ideal) m ρ c (Proc.devRef .tc main_arg7) = (m ((c.tc : Thread nD τ).loc main_arg7)) :=
  ((W8_arr m ρ c 1).trans (((dat4 (V7 m ρ) c).arrAt_in 1 rfl _).trans (A_eq4 (V7 m ρ) c 1))).trans (arg7At_7 m ρ c)
theorem arg7At_9 (c : Dev nD) : W9 (F := Ideal) m ρ c (Proc.devRef .tc main_arg7) = (m ((c.tc : Thread nD τ).loc main_arg7)) := by
  refine Eq.trans ?_ (arg7At_8 m ρ c)
  show StableHlo.after (hostOps5 (F := Ideal)) (W8 m ρ c) (Proc.devRef .tc main_arg7) = _
  after_results_simp
theorem arg7At_10 (c : Dev nD) : W10 (F := Ideal) m ρ c (Proc.devRef .tc main_arg7) = (m ((c.tc : Thread nD τ).loc main_arg7)) :=
  (W10_of_ne m ρ c main_arg7 (by decide)).trans (arg7At_9 m ρ c)
theorem arg7At_11 (c : Dev nD) : W11 (F := Ideal) m ρ c (Proc.devRef .tc main_arg7) = (m ((c.tc : Thread nD τ).loc main_arg7)) :=
  (W11_of_ne m ρ c main_arg7 (by decide)).trans (arg7At_10 m ρ c)
theorem arg7At_12 (c : Dev nD) : W12 (F := Ideal) m ρ c (Proc.devRef .tc main_arg7) = (m ((c.tc : Thread nD τ).loc main_arg7)) := by
  refine Eq.trans ?_ (arg7At_11 m ρ c)
  show StableHlo.after (hostOps7 (F := Ideal)) (W11 m ρ c) (Proc.devRef .tc main_arg7) = _
  after_results_simp
theorem arg7At_13 (c : Dev nD) : W13 (F := Ideal) m ρ c (Proc.devRef .tc main_arg7) = (m ((c.tc : Thread nD τ).loc main_arg7)) :=
  (W13_of_ne m ρ c main_arg7 (by decide)).trans (arg7At_12 m ρ c)
theorem arg7At_14 (c : Dev nD) : W14 (F := Ideal) m ρ c (Proc.devRef .tc main_arg7) = (m ((c.tc : Thread nD τ).loc main_arg7)) :=
  (W14_of_ne m ρ c main_arg7 (by decide)).trans (arg7At_13 m ρ c)

theorem arg8At_1 (c : Dev nD) : W1 (F := Ideal) m ρ c (Proc.devRef .tc main_arg8) = (m ((c.tc : Thread nD τ).loc main_arg8)) := by
  show StableHlo.after (hostOps0 (F := Ideal)) (W0 m ρ c) (Proc.devRef .tc main_arg8) = (m ((c.tc : Thread nD τ).loc main_arg8))
  after_results_simp <;> rfl
theorem arg8At_2 (c : Dev nD) : W2 (F := Ideal) m ρ c (Proc.devRef .tc main_arg8) = (m ((c.tc : Thread nD τ).loc main_arg8)) :=
  (W2_of_ne m ρ c main_arg8 (by decide)).trans (arg8At_1 m ρ c)
theorem arg8At_3 (c : Dev nD) : W3 (F := Ideal) m ρ c (Proc.devRef .tc main_arg8) = (m ((c.tc : Thread nD τ).loc main_arg8)) := by
  refine Eq.trans ?_ (arg8At_2 m ρ c)
  show StableHlo.after (hostOps1 (F := Ideal)) (W2 m ρ c) (Proc.devRef .tc main_arg8) = _
  after_results_simp
theorem arg8At_4 (c : Dev nD) : W4 (F := Ideal) m ρ c (Proc.devRef .tc main_arg8) = (m ((c.tc : Thread nD τ).loc main_arg8)) :=
  (W4_of_ne m ρ c main_arg8 (by decide)).trans (arg8At_3 m ρ c)
theorem arg8At_5 (c : Dev nD) : W5 (F := Ideal) m ρ c (Proc.devRef .tc main_arg8) = (m ((c.tc : Thread nD τ).loc main_arg8)) :=
  (W5_of_ne m ρ c main_arg8 (by decide)).trans (arg8At_4 m ρ c)
theorem arg8At_6 (c : Dev nD) : W6 (F := Ideal) m ρ c (Proc.devRef .tc main_arg8) = (m ((c.tc : Thread nD τ).loc main_arg8)) := by
  refine Eq.trans ?_ (arg8At_5 m ρ c)
  show StableHlo.after (hostOps3 (F := Ideal)) (W5 m ρ c) (Proc.devRef .tc main_arg8) = _
  after_results_simp
theorem arg8At_7 (c : Dev nD) : W7 (F := Ideal) m ρ c (Proc.devRef .tc main_arg8) = (m ((c.tc : Thread nD τ).loc main_arg8)) :=
  (W7_of_ne m ρ c main_arg8 (by decide)).trans (arg8At_6 m ρ c)
theorem arg8At_8 (c : Dev nD) : W8 (F := Ideal) m ρ c (Proc.devRef .tc main_arg8) = (m ((c.tc : Thread nD τ).loc main_arg8)) :=
  (W8_of_ne m ρ c main_arg8 (by decide)).trans (arg8At_7 m ρ c)
theorem arg8At_9 (c : Dev nD) : W9 (F := Ideal) m ρ c (Proc.devRef .tc main_arg8) = (m ((c.tc : Thread nD τ).loc main_arg8)) := by
  refine Eq.trans ?_ (arg8At_8 m ρ c)
  show StableHlo.after (hostOps5 (F := Ideal)) (W8 m ρ c) (Proc.devRef .tc main_arg8) = _
  after_results_simp
theorem arg8At_10 (c : Dev nD) : W10 (F := Ideal) m ρ c (Proc.devRef .tc main_arg8) = (m ((c.tc : Thread nD τ).loc main_arg8)) :=
  (W10_of_ne m ρ c main_arg8 (by decide)).trans (arg8At_9 m ρ c)
theorem arg8At_11 (c : Dev nD) : W11 (F := Ideal) m ρ c (Proc.devRef .tc main_arg8) = (m ((c.tc : Thread nD τ).loc main_arg8)) :=
  (W11_of_ne m ρ c main_arg8 (by decide)).trans (arg8At_10 m ρ c)
theorem arg8At_12 (c : Dev nD) : W12 (F := Ideal) m ρ c (Proc.devRef .tc main_arg8) = (m ((c.tc : Thread nD τ).loc main_arg8)) := by
  refine Eq.trans ?_ (arg8At_11 m ρ c)
  show StableHlo.after (hostOps7 (F := Ideal)) (W11 m ρ c) (Proc.devRef .tc main_arg8) = _
  after_results_simp
theorem arg8At_13 (c : Dev nD) : W13 (F := Ideal) m ρ c (Proc.devRef .tc main_arg8) = (m ((c.tc : Thread nD τ).loc main_arg8)) :=
  (W13_of_ne m ρ c main_arg8 (by decide)).trans (arg8At_12 m ρ c)
theorem arg8At_14 (c : Dev nD) : W14 (F := Ideal) m ρ c (Proc.devRef .tc main_arg8) = (m ((c.tc : Thread nD τ).loc main_arg8)) :=
  (W14_of_ne m ρ c main_arg8 (by decide)).trans (arg8At_13 m ρ c)

theorem arg9At_1 (c : Dev nD) : W1 (F := Ideal) m ρ c (Proc.devRef .tc main_arg9) = (m ((c.tc : Thread nD τ).loc main_arg9)) := by
  show StableHlo.after (hostOps0 (F := Ideal)) (W0 m ρ c) (Proc.devRef .tc main_arg9) = (m ((c.tc : Thread nD τ).loc main_arg9))
  after_results_simp <;> rfl
theorem arg9At_2 (c : Dev nD) : W2 (F := Ideal) m ρ c (Proc.devRef .tc main_arg9) = (m ((c.tc : Thread nD τ).loc main_arg9)) :=
  (W2_of_ne m ρ c main_arg9 (by decide)).trans (arg9At_1 m ρ c)
theorem arg9At_3 (c : Dev nD) : W3 (F := Ideal) m ρ c (Proc.devRef .tc main_arg9) = (m ((c.tc : Thread nD τ).loc main_arg9)) := by
  refine Eq.trans ?_ (arg9At_2 m ρ c)
  show StableHlo.after (hostOps1 (F := Ideal)) (W2 m ρ c) (Proc.devRef .tc main_arg9) = _
  after_results_simp
theorem arg9At_4 (c : Dev nD) : W4 (F := Ideal) m ρ c (Proc.devRef .tc main_arg9) = (m ((c.tc : Thread nD τ).loc main_arg9)) :=
  (W4_of_ne m ρ c main_arg9 (by decide)).trans (arg9At_3 m ρ c)
theorem arg9At_5 (c : Dev nD) : W5 (F := Ideal) m ρ c (Proc.devRef .tc main_arg9) = (m ((c.tc : Thread nD τ).loc main_arg9)) :=
  (W5_of_ne m ρ c main_arg9 (by decide)).trans (arg9At_4 m ρ c)
theorem arg9At_6 (c : Dev nD) : W6 (F := Ideal) m ρ c (Proc.devRef .tc main_arg9) = (m ((c.tc : Thread nD τ).loc main_arg9)) := by
  refine Eq.trans ?_ (arg9At_5 m ρ c)
  show StableHlo.after (hostOps3 (F := Ideal)) (W5 m ρ c) (Proc.devRef .tc main_arg9) = _
  after_results_simp
theorem arg9At_7 (c : Dev nD) : W7 (F := Ideal) m ρ c (Proc.devRef .tc main_arg9) = (m ((c.tc : Thread nD τ).loc main_arg9)) :=
  (W7_of_ne m ρ c main_arg9 (by decide)).trans (arg9At_6 m ρ c)
theorem arg9At_8 (c : Dev nD) : W8 (F := Ideal) m ρ c (Proc.devRef .tc main_arg9) = (m ((c.tc : Thread nD τ).loc main_arg9)) :=
  (W8_of_ne m ρ c main_arg9 (by decide)).trans (arg9At_7 m ρ c)
theorem arg9At_9 (c : Dev nD) : W9 (F := Ideal) m ρ c (Proc.devRef .tc main_arg9) = (m ((c.tc : Thread nD τ).loc main_arg9)) := by
  refine Eq.trans ?_ (arg9At_8 m ρ c)
  show StableHlo.after (hostOps5 (F := Ideal)) (W8 m ρ c) (Proc.devRef .tc main_arg9) = _
  after_results_simp
theorem arg9At_10 (c : Dev nD) : W10 (F := Ideal) m ρ c (Proc.devRef .tc main_arg9) = (m ((c.tc : Thread nD τ).loc main_arg9)) :=
  (W10_of_ne m ρ c main_arg9 (by decide)).trans (arg9At_9 m ρ c)
theorem arg9At_11 (c : Dev nD) : W11 (F := Ideal) m ρ c (Proc.devRef .tc main_arg9) = (m ((c.tc : Thread nD τ).loc main_arg9)) :=
  (W11_of_ne m ρ c main_arg9 (by decide)).trans (arg9At_10 m ρ c)
theorem arg9At_12 (c : Dev nD) : W12 (F := Ideal) m ρ c (Proc.devRef .tc main_arg9) = (m ((c.tc : Thread nD τ).loc main_arg9)) := by
  refine Eq.trans ?_ (arg9At_11 m ρ c)
  show StableHlo.after (hostOps7 (F := Ideal)) (W11 m ρ c) (Proc.devRef .tc main_arg9) = _
  after_results_simp
theorem arg9At_13 (c : Dev nD) : W13 (F := Ideal) m ρ c (Proc.devRef .tc main_arg9) = (m ((c.tc : Thread nD τ).loc main_arg9)) :=
  (W13_of_ne m ρ c main_arg9 (by decide)).trans (arg9At_12 m ρ c)
theorem arg9At_14 (c : Dev nD) : W14 (F := Ideal) m ρ c (Proc.devRef .tc main_arg9) = (m ((c.tc : Thread nD τ).loc main_arg9)) :=
  (W14_of_ne m ρ c main_arg9 (by decide)).trans (arg9At_13 m ρ c)

theorem arg10At_1 (c : Dev nD) : W1 (F := Ideal) m ρ c (Proc.devRef .tc main_arg10) = (m ((c.tc : Thread nD τ).loc main_arg10)) := by
  show StableHlo.after (hostOps0 (F := Ideal)) (W0 m ρ c) (Proc.devRef .tc main_arg10) = (m ((c.tc : Thread nD τ).loc main_arg10))
  after_results_simp <;> rfl
theorem arg10At_2 (c : Dev nD) : W2 (F := Ideal) m ρ c (Proc.devRef .tc main_arg10) = (m ((c.tc : Thread nD τ).loc main_arg10)) :=
  (W2_of_ne m ρ c main_arg10 (by decide)).trans (arg10At_1 m ρ c)
theorem arg10At_3 (c : Dev nD) : W3 (F := Ideal) m ρ c (Proc.devRef .tc main_arg10) = (m ((c.tc : Thread nD τ).loc main_arg10)) := by
  refine Eq.trans ?_ (arg10At_2 m ρ c)
  show StableHlo.after (hostOps1 (F := Ideal)) (W2 m ρ c) (Proc.devRef .tc main_arg10) = _
  after_results_simp
theorem arg10At_4 (c : Dev nD) : W4 (F := Ideal) m ρ c (Proc.devRef .tc main_arg10) = (m ((c.tc : Thread nD τ).loc main_arg10)) :=
  (W4_of_ne m ρ c main_arg10 (by decide)).trans (arg10At_3 m ρ c)
theorem arg10At_5 (c : Dev nD) : W5 (F := Ideal) m ρ c (Proc.devRef .tc main_arg10) = (m ((c.tc : Thread nD τ).loc main_arg10)) :=
  (W5_of_ne m ρ c main_arg10 (by decide)).trans (arg10At_4 m ρ c)
theorem arg10At_6 (c : Dev nD) : W6 (F := Ideal) m ρ c (Proc.devRef .tc main_arg10) = (m ((c.tc : Thread nD τ).loc main_arg10)) := by
  refine Eq.trans ?_ (arg10At_5 m ρ c)
  show StableHlo.after (hostOps3 (F := Ideal)) (W5 m ρ c) (Proc.devRef .tc main_arg10) = _
  after_results_simp
theorem arg10At_7 (c : Dev nD) : W7 (F := Ideal) m ρ c (Proc.devRef .tc main_arg10) = (m ((c.tc : Thread nD τ).loc main_arg10)) :=
  (W7_of_ne m ρ c main_arg10 (by decide)).trans (arg10At_6 m ρ c)
theorem arg10At_8 (c : Dev nD) : W8 (F := Ideal) m ρ c (Proc.devRef .tc main_arg10) = (m ((c.tc : Thread nD τ).loc main_arg10)) :=
  (W8_of_ne m ρ c main_arg10 (by decide)).trans (arg10At_7 m ρ c)
theorem arg10At_9 (c : Dev nD) : W9 (F := Ideal) m ρ c (Proc.devRef .tc main_arg10) = (m ((c.tc : Thread nD τ).loc main_arg10)) := by
  refine Eq.trans ?_ (arg10At_8 m ρ c)
  show StableHlo.after (hostOps5 (F := Ideal)) (W8 m ρ c) (Proc.devRef .tc main_arg10) = _
  after_results_simp
theorem arg10At_10 (c : Dev nD) : W10 (F := Ideal) m ρ c (Proc.devRef .tc main_arg10) = (m ((c.tc : Thread nD τ).loc main_arg10)) :=
  (W10_of_ne m ρ c main_arg10 (by decide)).trans (arg10At_9 m ρ c)
theorem arg10At_11 (c : Dev nD) : W11 (F := Ideal) m ρ c (Proc.devRef .tc main_arg10) = (m ((c.tc : Thread nD τ).loc main_arg10)) :=
  (W11_of_ne m ρ c main_arg10 (by decide)).trans (arg10At_10 m ρ c)
theorem arg10At_12 (c : Dev nD) : W12 (F := Ideal) m ρ c (Proc.devRef .tc main_arg10) = (m ((c.tc : Thread nD τ).loc main_arg10)) := by
  refine Eq.trans ?_ (arg10At_11 m ρ c)
  show StableHlo.after (hostOps7 (F := Ideal)) (W11 m ρ c) (Proc.devRef .tc main_arg10) = _
  after_results_simp
theorem arg10At_13 (c : Dev nD) : W13 (F := Ideal) m ρ c (Proc.devRef .tc main_arg10) = (m ((c.tc : Thread nD τ).loc main_arg10)) :=
  (W13_of_ne m ρ c main_arg10 (by decide)).trans (arg10At_12 m ρ c)
theorem arg10At_14 (c : Dev nD) : W14 (F := Ideal) m ρ c (Proc.devRef .tc main_arg10) = (m ((c.tc : Thread nD τ).loc main_arg10)) :=
  (W14_of_ne m ρ c main_arg10 (by decide)).trans (arg10At_13 m ρ c)

theorem arg11At_1 (c : Dev nD) : W1 (F := Ideal) m ρ c (Proc.devRef .tc main_arg11) = (m ((c.tc : Thread nD τ).loc main_arg11)) := by
  show StableHlo.after (hostOps0 (F := Ideal)) (W0 m ρ c) (Proc.devRef .tc main_arg11) = (m ((c.tc : Thread nD τ).loc main_arg11))
  after_results_simp <;> rfl
theorem arg11At_2 (c : Dev nD) : W2 (F := Ideal) m ρ c (Proc.devRef .tc main_arg11) = (m ((c.tc : Thread nD τ).loc main_arg11)) :=
  (W2_of_ne m ρ c main_arg11 (by decide)).trans (arg11At_1 m ρ c)
theorem arg11At_3 (c : Dev nD) : W3 (F := Ideal) m ρ c (Proc.devRef .tc main_arg11) = (m ((c.tc : Thread nD τ).loc main_arg11)) := by
  refine Eq.trans ?_ (arg11At_2 m ρ c)
  show StableHlo.after (hostOps1 (F := Ideal)) (W2 m ρ c) (Proc.devRef .tc main_arg11) = _
  after_results_simp
theorem arg11At_4 (c : Dev nD) : W4 (F := Ideal) m ρ c (Proc.devRef .tc main_arg11) = (m ((c.tc : Thread nD τ).loc main_arg11)) :=
  (W4_of_ne m ρ c main_arg11 (by decide)).trans (arg11At_3 m ρ c)
theorem arg11At_5 (c : Dev nD) : W5 (F := Ideal) m ρ c (Proc.devRef .tc main_arg11) = (m ((c.tc : Thread nD τ).loc main_arg11)) :=
  (W5_of_ne m ρ c main_arg11 (by decide)).trans (arg11At_4 m ρ c)
theorem arg11At_6 (c : Dev nD) : W6 (F := Ideal) m ρ c (Proc.devRef .tc main_arg11) = (m ((c.tc : Thread nD τ).loc main_arg11)) := by
  refine Eq.trans ?_ (arg11At_5 m ρ c)
  show StableHlo.after (hostOps3 (F := Ideal)) (W5 m ρ c) (Proc.devRef .tc main_arg11) = _
  after_results_simp
theorem arg11At_7 (c : Dev nD) : W7 (F := Ideal) m ρ c (Proc.devRef .tc main_arg11) = (m ((c.tc : Thread nD τ).loc main_arg11)) :=
  (W7_of_ne m ρ c main_arg11 (by decide)).trans (arg11At_6 m ρ c)
theorem arg11At_8 (c : Dev nD) : W8 (F := Ideal) m ρ c (Proc.devRef .tc main_arg11) = (m ((c.tc : Thread nD τ).loc main_arg11)) :=
  (W8_of_ne m ρ c main_arg11 (by decide)).trans (arg11At_7 m ρ c)
theorem arg11At_9 (c : Dev nD) : W9 (F := Ideal) m ρ c (Proc.devRef .tc main_arg11) = (m ((c.tc : Thread nD τ).loc main_arg11)) := by
  refine Eq.trans ?_ (arg11At_8 m ρ c)
  show StableHlo.after (hostOps5 (F := Ideal)) (W8 m ρ c) (Proc.devRef .tc main_arg11) = _
  after_results_simp
theorem arg11At_10 (c : Dev nD) : W10 (F := Ideal) m ρ c (Proc.devRef .tc main_arg11) = (m ((c.tc : Thread nD τ).loc main_arg11)) :=
  (W10_of_ne m ρ c main_arg11 (by decide)).trans (arg11At_9 m ρ c)
theorem arg11At_11 (c : Dev nD) : W11 (F := Ideal) m ρ c (Proc.devRef .tc main_arg11) = (m ((c.tc : Thread nD τ).loc main_arg11)) :=
  (W11_of_ne m ρ c main_arg11 (by decide)).trans (arg11At_10 m ρ c)
theorem arg11At_12 (c : Dev nD) : W12 (F := Ideal) m ρ c (Proc.devRef .tc main_arg11) = (m ((c.tc : Thread nD τ).loc main_arg11)) := by
  refine Eq.trans ?_ (arg11At_11 m ρ c)
  show StableHlo.after (hostOps7 (F := Ideal)) (W11 m ρ c) (Proc.devRef .tc main_arg11) = _
  after_results_simp
theorem arg11At_13 (c : Dev nD) : W13 (F := Ideal) m ρ c (Proc.devRef .tc main_arg11) = (m ((c.tc : Thread nD τ).loc main_arg11)) :=
  (W13_of_ne m ρ c main_arg11 (by decide)).trans (arg11At_12 m ρ c)
theorem arg11At_14 (c : Dev nD) : W14 (F := Ideal) m ρ c (Proc.devRef .tc main_arg11) = (m ((c.tc : Thread nD τ).loc main_arg11)) :=
  ((W14_arr m ρ c 1).trans (((dat8 (V13 m ρ) c).arrAt_in 1 rfl _).trans (A_eq8 (V13 m ρ) c 1))).trans (arg11At_13 m ρ c)

theorem arg12At_1 (c : Dev nD) : W1 (F := Ideal) m ρ c (Proc.devRef .tc main_arg12) = (m ((c.tc : Thread nD τ).loc main_arg12)) := by
  show StableHlo.after (hostOps0 (F := Ideal)) (W0 m ρ c) (Proc.devRef .tc main_arg12) = (m ((c.tc : Thread nD τ).loc main_arg12))
  after_results_simp <;> rfl
theorem arg12At_2 (c : Dev nD) : W2 (F := Ideal) m ρ c (Proc.devRef .tc main_arg12) = (m ((c.tc : Thread nD τ).loc main_arg12)) :=
  (W2_of_ne m ρ c main_arg12 (by decide)).trans (arg12At_1 m ρ c)
theorem arg12At_3 (c : Dev nD) : W3 (F := Ideal) m ρ c (Proc.devRef .tc main_arg12) = (m ((c.tc : Thread nD τ).loc main_arg12)) := by
  refine Eq.trans ?_ (arg12At_2 m ρ c)
  show StableHlo.after (hostOps1 (F := Ideal)) (W2 m ρ c) (Proc.devRef .tc main_arg12) = _
  after_results_simp
theorem arg12At_4 (c : Dev nD) : W4 (F := Ideal) m ρ c (Proc.devRef .tc main_arg12) = (m ((c.tc : Thread nD τ).loc main_arg12)) :=
  (W4_of_ne m ρ c main_arg12 (by decide)).trans (arg12At_3 m ρ c)
theorem arg12At_5 (c : Dev nD) : W5 (F := Ideal) m ρ c (Proc.devRef .tc main_arg12) = (m ((c.tc : Thread nD τ).loc main_arg12)) :=
  (W5_of_ne m ρ c main_arg12 (by decide)).trans (arg12At_4 m ρ c)
theorem arg12At_6 (c : Dev nD) : W6 (F := Ideal) m ρ c (Proc.devRef .tc main_arg12) = (m ((c.tc : Thread nD τ).loc main_arg12)) := by
  refine Eq.trans ?_ (arg12At_5 m ρ c)
  show StableHlo.after (hostOps3 (F := Ideal)) (W5 m ρ c) (Proc.devRef .tc main_arg12) = _
  after_results_simp
theorem arg12At_7 (c : Dev nD) : W7 (F := Ideal) m ρ c (Proc.devRef .tc main_arg12) = (m ((c.tc : Thread nD τ).loc main_arg12)) :=
  (W7_of_ne m ρ c main_arg12 (by decide)).trans (arg12At_6 m ρ c)
theorem arg12At_8 (c : Dev nD) : W8 (F := Ideal) m ρ c (Proc.devRef .tc main_arg12) = (m ((c.tc : Thread nD τ).loc main_arg12)) :=
  (W8_of_ne m ρ c main_arg12 (by decide)).trans (arg12At_7 m ρ c)
theorem arg12At_9 (c : Dev nD) : W9 (F := Ideal) m ρ c (Proc.devRef .tc main_arg12) = (m ((c.tc : Thread nD τ).loc main_arg12)) := by
  refine Eq.trans ?_ (arg12At_8 m ρ c)
  show StableHlo.after (hostOps5 (F := Ideal)) (W8 m ρ c) (Proc.devRef .tc main_arg12) = _
  after_results_simp
theorem arg12At_10 (c : Dev nD) : W10 (F := Ideal) m ρ c (Proc.devRef .tc main_arg12) = (m ((c.tc : Thread nD τ).loc main_arg12)) :=
  (W10_of_ne m ρ c main_arg12 (by decide)).trans (arg12At_9 m ρ c)
theorem arg12At_11 (c : Dev nD) : W11 (F := Ideal) m ρ c (Proc.devRef .tc main_arg12) = (m ((c.tc : Thread nD τ).loc main_arg12)) :=
  (W11_of_ne m ρ c main_arg12 (by decide)).trans (arg12At_10 m ρ c)
theorem arg12At_12 (c : Dev nD) : W12 (F := Ideal) m ρ c (Proc.devRef .tc main_arg12) = (m ((c.tc : Thread nD τ).loc main_arg12)) := by
  refine Eq.trans ?_ (arg12At_11 m ρ c)
  show StableHlo.after (hostOps7 (F := Ideal)) (W11 m ρ c) (Proc.devRef .tc main_arg12) = _
  after_results_simp
theorem arg12At_13 (c : Dev nD) : W13 (F := Ideal) m ρ c (Proc.devRef .tc main_arg12) = (m ((c.tc : Thread nD τ).loc main_arg12)) :=
  (W13_of_ne m ρ c main_arg12 (by decide)).trans (arg12At_12 m ρ c)
theorem arg12At_14 (c : Dev nD) : W14 (F := Ideal) m ρ c (Proc.devRef .tc main_arg12) = (m ((c.tc : Thread nD τ).loc main_arg12)) :=
  (W14_of_ne m ρ c main_arg12 (by decide)).trans (arg12At_13 m ρ c)

end Cert.KernelIdeal.Value

end
-- ==== Proof.LibFinite.lean ====
/-
  Finite extended reals.

  An extended real is finite when it is a real number.  Sums, differences and products of finite values are finite,
  so is a finite sum of finite values, a quotient by a nonzero real, the maximum of two finite values, and the
  reciprocal square root of a positive real.  These are the closure facts one needs to know that a computation that
  starts from real inputs never leaves the reals.
-/
import Idealize.ShloMosaic.PureOps.Ideal

noncomputable section

open scoped BigOperators

namespace Finite

open Idealize.ShloMosaic

/-- An extended real that is a real number. -/
def IsFin (x : EReal) : Prop := ∃ r : ℝ, x = (r : EReal)

theorem IsFin.coe (r : ℝ) : IsFin (r : EReal) := ⟨r, rfl⟩

theorem IsFin.zero : IsFin (0 : EReal) := ⟨0, rfl⟩

theorem IsFin.one : IsFin (1 : EReal) := ⟨1, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.max {x y : EReal} (hx : IsFin x) (hy : IsFin y) : IsFin (max x y) := by
  rcases max_cases x y with h | h
  · rw [h.1]; exact hx
  · rw [h.1]; exact hy

/-- A finite sum of real numbers, taken on the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of finite values is finite. -/
theorem IsFin.sum {ι : Type} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- The quotient of a finite value by a nonzero real is finite. -/
theorem IsFin.div_coe {x : EReal} (hx : IsFin x) {y : ℝ} (hy : y ≠ 0) : IsFin (Ideal.div x (y : EReal)) := by
  rw [Ideal.div_coe hy]; exact hx.mul (IsFin.coe _)

/-- The reciprocal square root of a positive real is the real reciprocal of its square root. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of a positive real is finite. -/
theorem IsFin.rsqrt_pos {r : ℝ} (hr : 0 < r) : IsFin (Ideal.rsqrt (r : EReal)) := ⟨_, rsqrt_coe_pos hr⟩

end Finite

end
-- ==== Proof.LibMoments.lean ====
/-
  The second central moment from the first two raw moments.

  For real numbers h_1 … h_n with mean μ = (Σ h_i) / n, the mean of the squared deviations (Σ (h_i − μ)²) / n is the
  mean of the squares minus the square of the mean, (Σ h_i²) / n − μ².  Expanding the square gives
  Σ h_i² − 2 μ Σ h_i + n μ², and Σ h_i = n μ.  The statement below is that identity on the extended reals for finite
  entries, with the quotient read as the exact division by the real number n.
-/
import proofs.«138892_j2886218022956_1_alg».proof.Proof.LibFinite

noncomputable section

open scoped BigOperators

namespace Moments

open Idealize.ShloMosaic Finite

/-- The identity over the reals. -/
theorem real_law {n : ℕ} (hn : n ≠ 0) (h : Fin n → ℝ) :
    (∑ r, (h r - (∑ r, h r) * (1 / (n : ℝ))) * (h r - (∑ r, h r) * (1 / (n : ℝ)))) * (1 / (n : ℝ))
      = (∑ r, h r * h r) * (1 / (n : ℝ)) - ((∑ r, h r) * (1 / (n : ℝ))) * ((∑ r, h r) * (1 / (n : ℝ))) := by
  have hn' : (n : ℝ) ≠ 0 := Nat.cast_ne_zero.mpr hn
  set S := ∑ r, h r with hS
  set μ := S * (1 / (n : ℝ)) with hμ
  have hexp : ∀ r, (h r - μ) * (h r - μ) = h r * h r - 2 * μ * h r + μ * μ := fun r => by ring
  rw [Finset.sum_congr rfl fun r _ => hexp r, Finset.sum_add_distrib, Finset.sum_sub_distrib, ← Finset.mul_sum,
    Finset.sum_const, Finset.card_univ, Fintype.card_fin, nsmul_eq_mul, ← hS]
  rw [hμ]
  field_simp
  ring

/-- THE MOMENT LAW on the extended reals: for finite entries and the divisor the real number n of entries, the mean of
    the squared deviations from the mean is the mean of the squares minus the squared mean. -/
theorem law {n : ℕ} (hn : n ≠ 0) (H : Fin n → EReal) (hH : ∀ r, IsFin (H r)) (D : EReal) (hD : D = ((n : ℝ) : EReal)) :
    Ideal.div (∑ r, (H r - Ideal.div (∑ r, H r) D) * (H r - Ideal.div (∑ r, H r) D)) D
      = Ideal.div (∑ r, H r * H r) D - Ideal.div (∑ r, H r) D * Ideal.div (∑ r, H r) D := by
  have hn' : (n : ℝ) ≠ 0 := Nat.cast_ne_zero.mpr hn
  choose h hh using hH
  have hfun : H = fun r => ((h r : ℝ) : EReal) := funext hh
  subst hfun
  subst hD
  simp only [Ideal.div_coe hn', sum_coe, ← EReal.coe_mul, ← EReal.coe_sub]
  exact congrArg _ (real_law hn h)

end Moments

end
-- ==== Proof.LibRowOps.lean ====
/-
  Row operations of a two-axis array read at an index.

  A gather of rows: the operand is n × q, the start indices an m × 1 array of words, and row e of the result is the
  operand's row at the word of e read signed and clamped into 0 … n − 1 (the slice is one whole row, so the clamp's upper
  end is n − 1).  Its rank-1 sibling gathers entries of a vector of n entries.

  An accumulating scatter of rows: update row e is added to operand row i exactly when the word of e, read signed and
  not clamped, is i; the column is kept.  So entry (i, c) of the result is the operand's entry plus the sum, over the
  rows e whose word is i, of update entry (e, c).

  Two facts about extended reals used beside them: a finite sum times a factor that is nonnegative and not ⊤ distributes,
  and the guarded reciprocal square root (0 unless the argument is positive) is nonnegative and never ⊤.
-/
import Idealize.ShloMosaic.Lib.ValueIdx
import Idealize.ShloMosaic.PureOps.Ideal.Laws

noncomputable section

open scoped BigOperators

namespace RowOps

open Idealize.ShloMosaic Idealize.ShloMosaic.ValueIdx

/-- a word read signed, a negative one as 0, capped at n - 1 -/
def clampRow (n : Nat) (hn : 0 < n) {wd : Nat} (x : BitVec wd) : Fin n := ⟨min x.toInt.toNat (n - 1), by omega⟩

/-! ## A gather of rows -/

section GatherRows
variable {α : Type} {n m q wd : Nat}

/-- The dimension numbers of a gather of rows as a literal record over given conditions. -/
abbrev rowGatherDims (n m q : Nat)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

/-- The gather of rows read at (e, c), for the literal record: the operand at the clamped word of row e, column c. -/
theorem rowGatherDims_apply (wf : GatherDims.WF ⟨2, ![n, q]⟩ ⟨2, ![m, 1]⟩ ⟨2, ![m, q]⟩ [1] [0] [] [0] [] 1 ![1, q])
    (hn : 0 < n) (x : (⟨2, ![n, q]⟩ : Shape).Idx → α) (idx : IVec (⟨2, ![m, 1]⟩ : Shape) wd) (e : Fin m) (c : Fin q) :
    Host.gather (rowGatherDims n m q wf) x idx (ix2 e c) = x (ix2 (clampRow n hn (idx (ix2 e (0 : Fin 1)))) c) := by
  unfold Host.gather
  congr 1
  funext a
  refine Fin.ext ?_
  match a with
  | ⟨0, _⟩ =>
    show (rowGatherDims n m q wf).start (ix2 e c) idx 0 + (rowGatherDims n m q wf).batchCoord (ix2 e c) 0
      + (rowGatherDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n m q wf).startIndexMap from List.mem_singleton.mpr rfl)]
    have hsi : (rowGatherDims n m q wf).siIdx (ix2 e c) ⟨List.idxOf (0 : Fin 2) (rowGatherDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims n m q wf).start (ix2 e c) idx 1 + (rowGatherDims n m q wf).batchCoord (ix2 e c) 1
      + (rowGatherDims n m q wf).offCoord (ix2 e c) 1 = c.val
    rw [GatherDims.batchCoord_eq_zero _ _ _ List.not_mem_nil]
    have hst : (rowGatherDims n m q wf).start (ix2 e c) idx 1 = 0 := by
      unfold GatherDims.start
      rw [dif_neg (show ¬ (1 : Fin 2) ∈ ([0] : List (Fin 2)) by decide)]
    have hoff : (rowGatherDims n m q wf).offCoord (ix2 e c) 1 = c.val := by
      unfold GatherDims.offCoord
      have hmem : (1 : Fin 2) ∈ (rowGatherDims n m q wf).sKept :=
        (GatherDims.mem_sKept _ _).mpr ⟨show ¬ (1 : Fin 2) ∈ ([0] : List (Fin 2)) by decide, List.not_mem_nil⟩
      rw [dif_pos hmem]
      rfl
    rw [hst, hoff]; simp

/-- THE GATHER OF ROWS READ AT (e, c), for any record with these fields: the operand at the word of row e, read signed
    and clamped into 0 … n − 1, column c. -/
theorem gather_rows_apply {α : Type} {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) wd) (e : Fin m) (c : Fin q) :
    Host.gather gd x idx (ix2 e c) = x (ix2 (clampRow n hn (idx (ix2 e (0 : Fin 1)))) c) := by
  obtain ⟨od, cd, ob, sb, sm, iv, ss, wf⟩ := gd
  dsimp only at ho hc hob hsb hm hv hs
  subst ho hc hob hsb hm hv hs
  exact rowGatherDims_apply wf hn x idx e c

end GatherRows

/-! ## An accumulating scatter of rows -/

section ScatterRows
variable {n m q wd : Nat}

/-- The dimension numbers of a scatter of rows as a literal record over given conditions. -/
abbrev rowScatterDims (n m q : Nat) (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

/-- On the row axis, start plus window coordinate of update (e, c') is the word of row e read signed. -/
theorem rowScatterDims_axis0 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 0 + ((rowScatterDims n m q wf).window (ix2 e c') 0 : Nat)
      = (idx (ix2 e (0 : Fin 1))).toInt := by
  have hw : (rowScatterDims n m q wf).window (ix2 e c') 0 = 0 := by
    unfold ScatterDims.window
    have hmem : ¬ (0 : Fin 2) ∈ (rowScatterDims n m q wf).sKept := by
      show ¬ (0 : Fin 2) ∈ (List.finRange 2).filter (· ∉ ([0] : List (Fin 2)))
      decide
    rw [dif_neg hmem]
  have hs : (rowScatterDims n m q wf).start (ix2 e c') idx 0 = (idx (ix2 e (0 : Fin 1))).toInt := by
    unfold ScatterDims.start
    rw [dif_pos (show (0 : Fin 2) ∈ (rowScatterDims n m q wf).scatterDimsToOperandDims from List.mem_cons_self)]
    have hsi : (rowScatterDims n m q wf).siIdx (ix2 e c')
        ⟨List.idxOf (0 : Fin 2) (rowScatterDims n m q wf).scatterDimsToOperandDims,
          List.idxOf_lt_length_iff.2 List.mem_cons_self⟩ = ix2 e (0 : Fin 1) := by
      funext b; refine Fin.ext ?_
      match b with
      | ⟨0, _⟩ => rfl
      | ⟨1, _⟩ => rfl
    rw [hsi]
  rw [hw, hs]; simp

/-- On the column axis, start plus window coordinate of update (e, c') is c'. -/
theorem rowScatterDims_axis1 (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) :
    (rowScatterDims n m q wf).start (ix2 e c') idx 1 + ((rowScatterDims n m q wf).window (ix2 e c') 1 : Nat)
      = (c'.val : Int) := by
  have hw : (rowScatterDims n m q wf).window (ix2 e c') 1 = c'.val := by
    unfold ScatterDims.window
    have hmem : (1 : Fin 2) ∈ (rowScatterDims n m q wf).sKept := by
      show (1 : Fin 2) ∈ (List.finRange 2).filter (· ∉ ([0] : List (Fin 2)))
      decide
    rw [dif_pos hmem]
    rfl
  have hs : (rowScatterDims n m q wf).start (ix2 e c') idx 1 = 0 := by
    unfold ScatterDims.start
    rw [dif_neg (show ¬ (1 : Fin 2) ∈ ([0] : List (Fin 2)) by decide)]
  rw [hw, hs]; simp

/-- Update (e, c') lands on entry (i, c) exactly when the word of row e read signed is i and c' = c: the literal
    record. -/
theorem rowScatterDims_resultIdx (wf : ScatterDims.WF ⟨2, ![n, q]⟩ ⟨2, ![m, 1]⟩ ⟨2, ![m, q]⟩ [1] [0] [0] 1)
    (idx : IVec (⟨2, ![m, 1]⟩ : Shape) wd) (e : Fin m) (c' : Fin q) (i : Fin n) (c : Fin q) :
    (rowScatterDims n m q wf).resultIdx? (ix2 e c') idx = some (ix2 i c)
      ↔ (idx (ix2 e (0 : Fin 1))).toInt = (i.val : Int) ∧ c' = c := by
  have h0 := rowScatterDims_axis0 wf idx e c'
  have h1 := rowScatterDims_axis1 wf idx e c'
  have hi := i.isLt
  have hc' := c'.isLt
  unfold ScatterDims.resultIdx?
  constructor
  · intro h
    split at h
    · have e0 := congrArg Fin.val (congrFun (Option.some.inj h) 0)
      have e1 := congrArg Fin.val (congrFun (Option.some.inj h) 1)
      change ((rowScatterDims n m q wf).start (ix2 e c') idx 0
        + ((rowScatterDims n m q wf).window (ix2 e c') 0 : Nat)).toNat = i.val at e0
      change ((rowScatterDims n m q wf).start (ix2 e c') idx 1
        + ((rowScatterDims n m q wf).window (ix2 e c') 1 : Nat)).toNat = c.val at e1
      rename_i hall
      have a0 := hall 0
      rw [h0] at e0 a0
      rw [h1] at e1
      exact ⟨by omega, Fin.ext (by omega)⟩
    · cases h
  · rintro ⟨hw, rfl⟩
    have hall : ∀ a : Fin 2, 0 ≤ (rowScatterDims n m q wf).start (ix2 e c') idx a
          + ((rowScatterDims n m q wf).window (ix2 e c') a : Nat)
        ∧ (rowScatterDims n m q wf).start (ix2 e c') idx a + ((rowScatterDims n m q wf).window (ix2 e c') a : Nat)
          < ((⟨2, ![n, q]⟩ : Shape).size a : Nat) := by
      intro a
      match a with
      | ⟨0, _⟩ =>
        show 0 ≤ (rowScatterDims n m q wf).start (ix2 e c') idx 0 + ((rowScatterDims n m q wf).window (ix2 e c') 0 : Nat)
          ∧ (rowScatterDims n m q wf).start (ix2 e c') idx 0 + ((rowScatterDims n m q wf).window (ix2 e c') 0 : Nat)
            < (n : Int)
        rw [h0]; omega
      | ⟨1, _⟩ =>
        show 0 ≤ (rowScatterDims n m q wf).start (ix2 e c') idx 1 + ((rowScatterDims n m q wf).window (ix2 e c') 1 : Nat)
          ∧ (rowScatterDims n m q wf).start (ix2 e c') idx 1 + ((rowScatterDims n m q wf).window (ix2 e c') 1 : Nat)
            < (q : Int)
        rw [h1]; omega
    rw [dif_pos hall]
    congr 1
    funext a
    refine Fin.ext ?_
    match a with
    | ⟨0, _⟩ =>
      show ((rowScatterDims n m q wf).start (ix2 e c') idx 0
        + ((rowScatterDims n m q wf).window (ix2 e c') 0 : Nat)).toNat = i.val
      rw [h0]; omega
    | ⟨1, _⟩ =>
      show ((rowScatterDims n m q wf).start (ix2 e c') idx 1
        + ((rowScatterDims n m q wf).window (ix2 e c') 1 : Nat)).toNat = c'.val
      rw [h1]; omega

/-- UPDATE (e, c') LANDS ON ENTRY (i, c) EXACTLY WHEN THE WORD OF ROW e READ SIGNED IS i AND c' = c, for any record with
    these fields. -/
theorem resultIdx_rows (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (idx : IVec (⟨2, ![m, 1]⟩ : Shape) wd) (e : Fin m) (c' : Fin q) (i : Fin n) (c : Fin q) :
    d.resultIdx? (ix2 e c') idx = some (ix2 i c) ↔ (idx (ix2 e (0 : Fin 1))).toInt = (i.val : Int) ∧ c' = c := by
  obtain ⟨uw, iw, sd, iv, wf⟩ := d
  dsimp only at hu hi hs hv
  subst hu hi hs hv
  exact rowScatterDims_resultIdx wf idx e c' i c

/-- ENTRY (i, c) OF THE ACCUMULATING SCATTER OF ROWS: the operand's entry plus the sum, over the update rows whose word
    read signed is i, of their entries in column c. -/
theorem scatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Ideal.hostScatterAdd d x idx upd (ix2 i c)
      = x (ix2 i c) + ∑ e ∈ Finset.univ.filter (fun e : Fin m => (idx (ix2 e (0 : Fin 1))).toInt = (i.val : Int)), upd (ix2 e c) := by
  unfold Ideal.hostScatterAdd
  congr 1
  rw [Finset.sum_filter, Finset.sum_filter, sum_idx2]
  refine Finset.sum_congr rfl fun e _ => ?_
  have hterm : ∀ c' : Fin q,
      (if d.resultIdx? (ix2 e c') idx = some (ix2 i c) then upd (ix2 e c') else 0)
        = if c' = c then (if (idx (ix2 e (0 : Fin 1))).toInt = (i.val : Int) then upd (ix2 e c) else 0) else 0 := by
    intro c'
    rw [if_congr (resultIdx_rows d hu hi hs hv idx e c' i c) rfl rfl]
    by_cases hcc : c' = c
    · subst hcc; simp
    · simp [hcc]
  rw [Finset.sum_congr rfl fun c' _ => hterm c']
  simp

end ScatterRows

/-! ## A gather of entries of a vector -/

section GatherVec
variable {α : Type} {n m wd : Nat}

/-- The dimension numbers of a gather of entries of a vector as a literal record over given conditions. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The gather of entries read at e, for the literal record: the operand at the clamped word of row e. -/
theorem vecGatherDims_apply (wf : GatherDims.WF ⟨1, ![n]⟩ ⟨2, ![m, 1]⟩ ⟨1, ![m]⟩ [] [0] [] [0] [] 1 ![1])
    (hn : 0 < n) (x : (⟨1, ![n]⟩ : Shape).Idx → α) (idx : IVec (⟨2, ![m, 1]⟩ : Shape) wd) (e : Fin m) :
    Host.gather (vecGatherDims n m wf) x idx (ix1 e) = x (ix1 (clampRow n hn (idx (ix2 e (0 : Fin 1))))) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF ENTRIES OF A VECTOR READ AT e, for any record with these fields: the operand at the word of row e,
    read signed and clamped into 0 … n − 1. -/
theorem gather_vec_apply {α : Type} {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    (x : (⟨1, ![n]⟩ : Shape).Idx → α) (idx : IVec (⟨2, ![m, 1]⟩ : Shape) wd) (e : Fin m) :
    Host.gather gd x idx (ix1 e) = x (ix1 (clampRow n hn (idx (ix2 e (0 : Fin 1))))) := by
  obtain ⟨od, cd, ob, sb, sm, iv, ss, wf⟩ := gd
  dsimp only at ho hc hob hsb hm hv hs
  subst ho hc hob hsb hm hv hs
  exact vecGatherDims_apply wf hn x idx e

end GatherVec

/-! ## Extended reals: a sum times a factor, and the guarded reciprocal square root -/

/-- A finite sum times a factor that is nonnegative and not ⊤ is the sum of the products. -/
theorem sum_mul_of_nonneg_ne_top {ι : Type} (s : Finset ι) (f : ι → EReal) (d : EReal) (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- The reciprocal square root guarded by "the argument is positive" (0 otherwise) is nonnegative and never ⊤: at ⊤ it is
    0, at a positive real r it is the real (√r)⁻¹, and everywhere else the guard gives 0. -/
theorem dinv_nonneg_ne_top (x : EReal) :
    0 ≤ (Scalar.select (Ideal.cmp .ogt x 0) (Ideal.rsqrt x) (0 : EReal))
      ∧ (Scalar.select (Ideal.cmp .ogt x 0) (Ideal.rsqrt x) (0 : EReal)) ≠ ⊤ := by
  by_cases hx : 0 < x
  · have hcmp : Ideal.cmp .ogt x 0 = 1#1 := by simp [Ideal.cmp, hx]
    rw [hcmp, select_one]
    induction x using EReal.rec with
    | bot => exact absurd hx (by simp)
    | top =>
      have hval : Ideal.rsqrt (⊤ : EReal) = 0 := rfl
      rw [hval]
      exact ⟨le_refl _, EReal.zero_ne_top⟩
    | coe r =>
      have hr : 0 < r := by exact_mod_cast hx
      have hval : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hval]
      exact ⟨by exact_mod_cast inv_nonneg.mpr (Real.sqrt_nonneg r), EReal.coe_ne_top _⟩
  · have hcmp : Ideal.cmp .ogt x 0 = 0#1 := by simp [Ideal.cmp, hx]
    rw [hcmp, select_zero]
    exact ⟨le_refl _, EReal.zero_ne_top⟩

end RowOps

end
-- ==== Proof.LibHostScatter.lean ====
/-
  The host's accumulating row scatter on the extended reals, read at an entry, stated for the host operation itself.

  On the extended reals the host's accumulating scatter is the exact sum.  Stated at arbitrary sizes, where the
  identification of the host operation with that sum is a matter of unfolding and nothing is enumerated, and then used at
  any literal sizes by rewriting.
-/
import proofs.«138892_j2886218022956_1_alg».proof.Proof.LibRowOps

noncomputable section

open scoped BigOperators

namespace RowOps

open Idealize.ShloMosaic Idealize.ShloMosaic.ValueIdx

/-- ENTRY (i, c) OF THE HOST'S ACCUMULATING ROW SCATTER on the extended reals: the operand's entry plus the sum, over the
    update rows whose word read signed is i, of the rows' entry c. -/
theorem hostScatterAdd_rows_apply {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) (x : (⟨2, ![n, q]⟩ : Shape).Idx → EReal) (idx : IVec (⟨2, ![m, 1]⟩ : Shape) wd)
    (upd : (⟨2, ![m, q]⟩ : Shape).Idx → EReal) (i : Fin n) (c : Fin q) :
    Host.scatterAdd (F := Ideal) (φ := .f32) d x idx upd (ix2 i c)
      = x (ix2 i c) + ∑ e ∈ Finset.univ.filter (fun e : Fin m => (idx (ix2 e (0 : Fin 1))).toInt = (i.val : Int)), upd (ix2 e c) :=
  scatterAdd_rows_apply d hu hi hs hv x idx upd i c

end RowOps

end
-- ==== Proof.LibVecScatter.lean ====
/-
  An accumulating scatter of a vector of m updates into a vector of n entries, the targets given by an m × 1 array of
  words.

  Update j lands on entry i exactly when its word, read signed, is i: the start of the one-entry window is the word
  itself, not clamped, the window has no coordinate of its own, and a word outside 0 … n − 1 drops the update.  So
  entry i of the result is entry i of the operand plus the sum of the updates whose word is i.  Stated for the literal
  record and for any record with these fields.
-/
import Idealize.ShloMosaic.Lib.ValueIdx
import Idealize.ShloMosaic.PureOps.Ideal.Laws

noncomputable section

open scoped BigOperators

namespace VecScatter

open Idealize.ShloMosaic Idealize.ShloMosaic.ValueIdx

variable {n m wd : ℕ}

/-- A rank-1 index set is its coordinate range. -/
def idxEquiv1 {k : ℕ} : (⟨1, ![k]⟩ : Shape).Idx ≃ Fin k where
  toFun y := y 0
  invFun j := ix1 j
  left_inv y := (eq_ix1 y).symm
  right_inv _ := rfl

/-- The dimension numbers as a literal record over given conditions. -/
abbrev vecDims (n m : ℕ) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

/-- Start plus window coordinate of update j on the operand's one axis is j's word read signed. -/
theorem vecDims_start_window (wf : ScatterDims.WF ⟨1, ![n]⟩ ⟨2, ![m, 1]⟩ ⟨1, ![m]⟩ [] [0] [0] 1)
    (idx : IVec (⟨2, ![m, 1]⟩ : Shape) wd) (j : Fin m) (a : Fin 1) :
    (vecDims n m wf).start (ix1 j) idx a + (vecDims n m wf).window (ix1 j) a = (idx (ix2 j (0 : Fin 1))).toInt := by
  match a with
  | ⟨0, _⟩ =>
    have hw : (vecDims n m wf).window (ix1 j) 0 = 0 := by
      unfold ScatterDims.window
      rw [dif_neg (fun h => by
        have h2 := (List.mem_filter.1 h).2
        simp at h2)]
    have hs : (vecDims n m wf).start (ix1 j) idx 0 = (idx (ix2 j (0 : Fin 1))).toInt := by
      unfold ScatterDims.start
      rw [dif_pos (show (0 : Fin 1) ∈ (vecDims n m wf).scatterDimsToOperandDims from List.mem_cons_self)]
      have hsi : (vecDims n m wf).siIdx (ix1 j) ⟨List.idxOf (0 : Fin 1) (vecDims n m wf).scatterDimsToOperandDims,
          List.idxOf_lt_length_iff.2 List.mem_cons_self⟩ = ix2 j (0 : Fin 1) := by
        funext b; refine Fin.ext ?_
        match b with
        | ⟨0, _⟩ => rfl
        | ⟨1, _⟩ => rfl
      rw [hsi]
    show (vecDims n m wf).start (ix1 j) idx 0 + ((vecDims n m wf).window (ix1 j) 0 : ℕ) = _
    rw [hw, hs]; simp

/-- Update j lands on entry i exactly when its word read signed is i: the literal record. -/
theorem vecDims_resultIdx (wf : ScatterDims.WF ⟨1, ![n]⟩ ⟨2, ![m, 1]⟩ ⟨1, ![m]⟩ [] [0] [0] 1)
    (idx : IVec (⟨2, ![m, 1]⟩ : Shape) wd) (j : Fin m) (i : Fin n) :
    (vecDims n m wf).resultIdx? (ix1 j) idx = some (ix1 i) ↔ (idx (ix2 j (0 : Fin 1))).toInt = (i.val : Int) := by
  have hsw := vecDims_start_window wf idx j
  have hi := i.isLt
  unfold ScatterDims.resultIdx?
  constructor
  · intro h
    split at h
    · rename_i hc
      have h0 := congrArg Fin.val (congrFun (Option.some.inj h) 0)
      have hc0 := hc 0
      rw [hsw 0] at hc0
      change ((vecDims n m wf).start (ix1 j) idx 0 + ((vecDims n m wf).window (ix1 j) 0 : ℕ)).toNat = i.val at h0
      rw [hsw 0] at h0
      omega
    · cases h
  · intro h
    have hc : ∀ a : Fin 1, 0 ≤ (vecDims n m wf).start (ix1 j) idx a + ((vecDims n m wf).window (ix1 j) a : ℕ)
        ∧ (vecDims n m wf).start (ix1 j) idx a + ((vecDims n m wf).window (ix1 j) a : ℕ)
          < ((⟨1, ![n]⟩ : Shape).size a : ℕ) := by
      intro a
      rw [hsw a]
      match a with
      | ⟨0, _⟩ =>
        refine ⟨by omega, ?_⟩
        show (idx (ix2 j (0 : Fin 1))).toInt < (n : Int)
        omega
    rw [dif_pos hc]
    congr 1
    funext a
    match a with
    | ⟨0, _⟩ =>
      refine Fin.ext ?_
      show ((vecDims n m wf).start (ix1 j) idx 0 + ((vecDims n m wf).window (ix1 j) 0 : ℕ)).toNat = i.val
      rw [hsw 0]; omega

/-- UPDATE j LANDS ON ENTRY i EXACTLY WHEN ITS WORD READ SIGNED IS i, for any record with these fields. -/
theorem resultIdx_vec (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (idx : IVec (⟨2, ![m, 1]⟩ : Shape) wd) (j : Fin m) (i : Fin n) :
    d.resultIdx? (ix1 j) idx = some (ix1 i) ↔ (idx (ix2 j (0 : Fin 1))).toInt = (i.val : Int) := by
  obtain ⟨uw, iw, sd, iv, wf⟩ := d
  dsimp only at hu hi hs hv
  subst hu hi hs hv
  exact vecDims_resultIdx wf idx j i

/-- ENTRY i OF THE ACCUMULATING SCATTER: the operand's entry plus the sum of the updates whose word is i. -/
theorem scatterAdd_vec_apply (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (i : Fin n) :
    Ideal.hostScatterAdd d x idx upd (ix1 i)
      = x (ix1 i) + ∑ j ∈ Finset.univ.filter (fun j : Fin m => (idx (ix2 j (0 : Fin 1))).toInt = (i.val : Int)),
          upd (ix1 j) := by
  unfold Ideal.hostScatterAdd
  congr 1
  rw [Finset.sum_filter, Finset.sum_filter]
  refine Fintype.sum_equiv idxEquiv1 _ _ fun y => ?_
  obtain ⟨j, rfl⟩ : ∃ j, y = ix1 j := ⟨y 0, eq_ix1 y⟩
  exact if_congr (resultIdx_vec d hu hi hs hv idx j i) rfl rfl

end VecScatter

end
-- ==== Proof.LibAllFinite.lean ====
/-
  Arrays all of whose entries are finite, and the host operations that keep them so.

  Pointwise sums, differences, products and maxima of such arrays are such arrays; a broadcast reads entries of its
  operand, and so do a gather of rows and a gather of vector entries, whatever the start indices are; an accumulating
  scatter adds to each entry of the operand a finite sum of update entries; a matrix product on the extended reals is a
  finite sum of products.  An accumulating scatter of ones over zeros counts, at entry i, the updates whose word is i.
-/
import proofs.«138892_j2886218022956_1_alg».proof.Proof.LibFinite
import proofs.«138892_j2886218022956_1_alg».proof.Proof.LibRowOps
import proofs.«138892_j2886218022956_1_alg».proof.Proof.LibHostScatter
import proofs.«138892_j2886218022956_1_alg».proof.Proof.LibVecScatter
import Idealize.ShloMosaic.Lib.ValueIdx
import Idealize.ShloMosaic.Lib.Pipeline.Value
import Idealize.ShloMosaic.PureOps.Ideal.Laws

noncomputable section

open scoped BigOperators

namespace Finite

open Idealize.ShloMosaic Idealize.ShloMosaic.ValueIdx

/-- Every entry of the array is a real number. -/
def AllFin {s : Shape} (x : s.Idx → EReal) : Prop := ∀ i, IsFin (x i)

section Pointwise
variable {s : Shape}

theorem AllFin.mulf {a b : FVec Ideal s .f32} (ha : AllFin a) (hb : AllFin b) : AllFin (mulf a b) :=
  fun i => (ha i).mul (hb i)

theorem AllFin.addf {a b : FVec Ideal s .f32} (ha : AllFin a) (hb : AllFin b) : AllFin (addf a b) :=
  fun i => (ha i).add (hb i)

theorem AllFin.subf {a b : FVec Ideal s .f32} (ha : AllFin a) (hb : AllFin b) : AllFin (subf a b) :=
  fun i => (ha i).sub (hb i)

theorem AllFin.maximumf {a b : FVec Ideal s .f32} (ha : AllFin a) (hb : AllFin b) : AllFin (maximumf a b) :=
  fun i => (ha i).max (hb i)

/-- A splat of a word that denotes a real number. -/
theorem AllFin.constant {b : BitVec 32} (hb : IsFin (Ideal.ofBits .f32 b)) : AllFin (constant (F := Ideal) s .f32 b) :=
  fun _ => hb

end Pointwise

/-- A broadcast reads entries of its operand. -/
theorem AllFin.broadcastInDim {s t : Shape} (dims : Fin s.rank → Fin t.rank) (h : s.BroadcastsInDim t dims)
    {x : s.Idx → EReal} (hx : AllFin x) : AllFin (broadcastInDim t dims h x) :=
  fun _ => hx _

/-- A gather of rows reads entries of its operand, whatever the start indices. -/
theorem AllFin.gather_rows {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    {x : (⟨2, ![n, q]⟩ : Shape).Idx → EReal} (idx : IVec (⟨2, ![m, 1]⟩ : Shape) wd) (hx : AllFin x) :
    AllFin (Host.gather gd x idx) := by
  intro j
  obtain ⟨e, c, rfl⟩ : ∃ (e : Fin m) (c : Fin q), j = ix2 e c := ⟨j 0, j 1, eq_ix2 j⟩
  rw [RowOps.gather_rows_apply gd ho hc hob hsb hm hv hs hn]
  exact hx _

/-- A gather of vector entries reads entries of its operand, whatever the start indices. -/
theorem AllFin.gather_vec {n m wd : Nat}
    (gd : GatherDims (⟨1, ![n]⟩ : Shape) (⟨2, ![m, 1]⟩ : Shape) (⟨1, ![m]⟩ : Shape))
    (ho : gd.offsetDims = []) (hc : gd.collapsedSliceDims = [0]) (hob : gd.operandBatchingDims = [])
    (hsb : gd.startIndicesBatchingDims = []) (hm : gd.startIndexMap = [0]) (hv : gd.indexVectorDim = 1)
    (hs : gd.sliceSizes = ![1]) (hn : 0 < n)
    {x : (⟨1, ![n]⟩ : Shape).Idx → EReal} (idx : IVec (⟨2, ![m, 1]⟩ : Shape) wd) (hx : AllFin x) :
    AllFin (Host.gather gd x idx) := by
  intro j
  obtain ⟨e, rfl⟩ : ∃ e : Fin m, j = ix1 e := ⟨j 0, eq_ix1 j⟩
  rw [RowOps.gather_vec_apply gd ho hc hob hsb hm hv hs hn]
  exact hx _

/-- An accumulating scatter of rows adds finite sums of update entries to the operand's entries. -/
theorem AllFin.scatterAdd_rows {n m q wd : Nat}
    (d : ScatterDims (⟨2, ![n, q]⟩ : Shape) (⟨2, ![m, 1]⟩ : Shape) (⟨2, ![m, q]⟩ : Shape))
    (hu : d.updateWindowDims = [1]) (hi : d.insertedWindowDims = [0]) (hs : d.scatterDimsToOperandDims = [0])
    (hv : d.indexVectorDim = 1) {x : (⟨2, ![n, q]⟩ : Shape).Idx → EReal} (idx : IVec (⟨2, ![m, 1]⟩ : Shape) wd)
    {upd : (⟨2, ![m, q]⟩ : Shape).Idx → EReal} (hx : AllFin x) (hupd : AllFin upd) :
    AllFin (Host.scatterAdd (F := Ideal) (φ := .f32) d x idx upd) := by
  intro j
  obtain ⟨i, c, rfl⟩ : ∃ (i : Fin n) (c : Fin q), j = ix2 i c := ⟨j 0, j 1, eq_ix2 j⟩
  rw [RowOps.hostScatterAdd_rows_apply d hu hi hs hv]
  exact (hx _).add (IsFin.sum _ _ fun e _ => hupd _)

/-- Entry i of the host's accumulating scatter of a vector: the operand's entry plus the sum of the updates whose word,
    read signed, is i. -/
theorem hostScatterAdd_vec_apply {n m wd : Nat}
    (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (i : Fin n) :
    Host.scatterAdd (F := Ideal) (φ := .f32) d x idx upd (ix1 i)
      = x (ix1 i) + ∑ j ∈ Finset.univ.filter (fun j : Fin m => (idx (ix2 j (0 : Fin 1))).toInt = (i.val : Int)),
          upd (ix1 j) :=
  VecScatter.scatterAdd_vec_apply d hu hi hs hv x idx upd i

/-- An accumulating scatter of ones over zeros COUNTS: entry i is the number of updates whose word is i; when some
    update's word is i the count is a positive real. -/
theorem scatter_ones_pos {n m wd : Nat}
    (d : ScatterDims (⟨1, ![n]⟩ : Shape) (⟨2, ![m, 1]⟩ : Shape) (⟨1, ![m]⟩ : Shape))
    (hu : d.updateWindowDims = []) (hi : d.insertedWindowDims = [0]) (hs : d.scatterDimsToOperandDims = [0])
    (hv : d.indexVectorDim = 1) (x : (⟨1, ![n]⟩ : Shape).Idx → EReal) (idx : IVec (⟨2, ![m, 1]⟩ : Shape) wd)
    (upd : (⟨1, ![m]⟩ : Shape).Idx → EReal) (hx : ∀ i, x i = 0) (hupd : ∀ j, upd j = ((1 : ℝ) : EReal)) (i : Fin n)
    (j₀ : Fin m) (hj₀ : (idx (ix2 j₀ (0 : Fin 1))).toInt = (i.val : Int)) :
    ∃ r : ℝ, 0 < r ∧ Host.scatterAdd (F := Ideal) (φ := .f32) d x idx upd (ix1 i) = (r : EReal) := by
  rw [hostScatterAdd_vec_apply d hu hi hs hv, hx, zero_add, Finset.sum_congr rfl fun j _ => hupd (ix1 j), sum_coe,
    Finset.sum_const, nsmul_eq_mul, mul_one]
  refine ⟨_, ?_, rfl⟩
  have : 0 < (Finset.univ.filter (fun j : Fin m => (idx (ix2 j (0 : Fin 1))).toInt = (i.val : Int))).card :=
    Finset.card_pos.mpr ⟨j₀, Finset.mem_filter.mpr ⟨Finset.mem_univ _, hj₀⟩⟩
  exact_mod_cast this

/-- The host's matrix product of two arrays of finite entries has finite entries. -/
theorem AllFin.dotGeneral {sl sr so : Shape} (d : DotDims sl sr so) {l : FVec Ideal sl .f32} {r : FVec Ideal sr .f32}
    (hl : AllFin l) (hr : AllFin r) : AllFin (Host.dotGeneral d none l r) := by
  intro j
  simp only [Host.dotGeneral]
  rw [Ideal.dotGeneral_apply]
  exact IsFin.sum _ _ fun k _ => (hl _).mul (hr _)

end Finite

end
-- ==== Proof.Consts.lean ====
/-
  The float constants the two programs spell, as the extended reals their bit patterns denote.

  50000.0 is the real number 50000, the number of rows the batch statistics average over; 1.0 is 1; the zero word is
  0; and the batch-norm epsilon 0x3727C5AC (the single-precision number nearest to 10⁻⁵) is a positive real, which is
  all that is ever used of it.
-/
import Idealize.ShloMosaic.PureOps.Ideal

noncomputable section

namespace Cert.Consts

open Idealize.ShloMosaic

/-- The zero word denotes 0. -/
theorem ofBits_zero : Ideal.ofBits .f32 0x00000000#32 = 0 := by
  simp [Ideal.ofBits, Ideal.ieee]

/-- 1.0 denotes 1. -/
theorem ofBits_one : Ideal.ofBits .f32 0x3F800000#32 = ((1 : ℝ) : EReal) := by
  simp [Ideal.ofBits, Ideal.ieee, -EReal.coe_mul]; norm_num

/-- 50000.0 denotes the real number 50000. -/
theorem ofBits_50000 : Ideal.ofBits .f32 0x47435000#32 = (((50000 : ℕ) : ℝ) : EReal) := by
  simp [Ideal.ofBits, Ideal.ieee, -EReal.coe_mul]; norm_num

/-- The epsilon word denotes a positive real. -/
theorem ofBits_eps_pos : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee, -EReal.coe_mul]

end Cert.Consts

end
-- ==== Proof.Spec.lean ====
/-
  Batch normalisation of a 50000 × 128 array, column by column, as pure functions on the extended reals.

  For a column j of the array H: the mean is the column sum divided by the float constant 50000; the variance, as the
  reference computes it, is the mean of the squared deviations from the mean; as the kernel computes it, the mean of
  the squares minus the squared mean.  The normalised, rectified output at (r, j) is
  max (((g_j · (H_rj − mean_j)) · rsqrt (var_j + ε)) + β_j) 0, with the products and the sum associated as written.
  When every entry of H is finite the two variances agree (the moment law), the variance is a nonnegative real, its sum
  with the positive ε is a positive real, and so the output is finite whenever g and β are.
-/
import proofs.«138892_j2886218022956_1_alg».proof.Proof.LibMoments
import proofs.«138892_j2886218022956_1_alg».proof.Proof.LibAllFinite
import proofs.«138892_j2886218022956_1_alg».proof.Proof.Consts
import Idealize.ShloMosaic.Lib.ValueIdx

noncomputable section

open scoped BigOperators

namespace Spec

open Idealize.ShloMosaic Idealize.ShloMosaic.ValueIdx Finite

/-- The number of rows, as the float constant both programs divide by. -/
abbrev rows : EReal := Ideal.ofBits .f32 0x47435000#32
/-- The batch-norm epsilon, as the float constant both programs add. -/
abbrev eps : EReal := Ideal.ofBits .f32 0x3727C5AC#32
/-- The zero word both programs clamp against. -/
abbrev zeroWord : EReal := Ideal.ofBits .f32 0x00000000#32

abbrev Mat : Type := (⟨2, ![50000, 128]⟩ : Shape).Idx → EReal
abbrev Vec128 : Type := (⟨1, ![128]⟩ : Shape).Idx → EReal

/-- The mean of column j. -/
def meanOf (H : Mat) (j : Fin 128) : EReal := Ideal.div (∑ r : Fin 50000, H (ix2 r j)) rows

/-- The variance of column j as the mean of the squared deviations. -/
def varOf (H : Mat) (j : Fin 128) : EReal :=
  Ideal.div (∑ r : Fin 50000, (H (ix2 r j) - meanOf H j) * (H (ix2 r j) - meanOf H j)) rows

/-- The variance of column j as the mean of the squares minus the squared mean. -/
def varOfMoments (H : Mat) (j : Fin 128) : EReal :=
  Ideal.div (∑ r : Fin 50000, H (ix2 r j) * H (ix2 r j)) rows - meanOf H j * meanOf H j

/-- The normalised, rectified entry (r, j), for a given variance row v. -/
def bnOut (H : Mat) (g be : Vec128) (v : Fin 128 → EReal) (r : Fin 50000) (j : Fin 128) : EReal :=
  max (((g (ix1 j) * (H (ix2 r j) - meanOf H j)) * Ideal.rsqrt (v j + eps)) + be (ix1 j)) zeroWord

/-- THE TWO VARIANCES AGREE on an array of finite entries. -/
theorem varOfMoments_eq (H : Mat) (hH : ∀ i, IsFin (H i)) (j : Fin 128) : varOfMoments H j = varOf H j :=
  (Moments.law (n := 50000) (by decide) (fun r => H (ix2 r j)) (fun r => hH _) rows Cert.Consts.ofBits_50000).symm

/-- The mean of a column of finite entries is finite. -/
theorem meanOf_fin (H : Mat) (hH : ∀ i, IsFin (H i)) (j : Fin 128) : IsFin (meanOf H j) := by
  unfold meanOf
  rw [show rows = (((50000 : ℕ) : ℝ) : EReal) from Cert.Consts.ofBits_50000]
  exact (IsFin.sum _ _ fun r _ => hH _).div_coe (by norm_num)

/-- The variance of a column of finite entries is a nonnegative real. -/
theorem varOf_nonneg (H : Mat) (hH : ∀ i, IsFin (H i)) (j : Fin 128) : ∃ v : ℝ, 0 ≤ v ∧ varOf H j = (v : EReal) := by
  obtain ⟨u, hu⟩ := meanOf_fin H hH j
  choose h hh using hH
  unfold varOf
  rw [hu, show rows = (((50000 : ℕ) : ℝ) : EReal) from Cert.Consts.ofBits_50000, Ideal.div_coe (by norm_num)]
  simp only [hh, ← EReal.coe_sub, ← EReal.coe_mul, sum_coe]
  exact ⟨_, mul_nonneg (Finset.sum_nonneg fun r _ => mul_self_nonneg _) (by norm_num), rfl⟩

/-- The normalised, rectified entries of an array of finite entries, with finite scale and shift, are finite. -/
theorem bnOut_fin (H : Mat) (hH : ∀ i, IsFin (H i)) (g be : Vec128) (hg : ∀ i, IsFin (g i)) (hbe : ∀ i, IsFin (be i))
    (r : Fin 50000) (j : Fin 128) : IsFin (bnOut H g be (varOf H) r j) := by
  obtain ⟨v, hv0, hv⟩ := varOf_nonneg H hH j
  obtain ⟨e, he0, he⟩ := Cert.Consts.ofBits_eps_pos
  have hrs : IsFin (Ideal.rsqrt (varOf H j + eps)) := by
    rw [hv, show eps = (e : EReal) from he, ← EReal.coe_add]
    exact IsFin.rsqrt_pos (by linarith)
  unfold bnOut
  refine IsFin.max ((((hg _).mul ((hH _).sub (meanOf_fin H hH j))).mul hrs).add (hbe _)) ?_
  rw [show zeroWord = 0 from Cert.Consts.ofBits_zero]
  exact IsFin.zero

end Spec

end
-- ==== Proof.RegMatmulDot.lean ====
/- The block product the three matmul regions compute. A region's body multiplies a 5000×128 block of rows
   by the whole 128×q weight matrix (q = 128 or 40) into a zero accumulator; at the ideal values entry (r, j) of the
   result is  ∑ k : Fin 128, a (r, k) · b (k, j):  the contraction runs over one axis, whose index set is identified
   with Fin 128, and the operands' indices at (r, j), k are (r, k) and (k, j). -/
import proofs.«138892_j2886218022956_1_alg».proof.Proof.Gen.KernelIdeal
import Idealize.ShloMosaic.Lib.ValueIdx
import Idealize.ShloMosaic.PureOps.Ideal.Laws

noncomputable section

namespace Cert.KernelIdeal.RegionVal

open Cert.KernelIdeal Idealize.ShloMosaic Idealize.ShloMosaic.ValueIdx
open scoped BigOperators

/-! ### The product of a 5000×128 block by a 128×128 block -/

/-- The left operand's index at output index `i` and contraction index `k`: row `i 0`. -/
theorem blockProd128_lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column the contraction coordinate. -/
theorem blockProd128_lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index: row the contraction coordinate, -/
theorem blockProd128_rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and column `i 1`. -/
theorem blockProd128_rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, j) of the block product accumulated into zero is the inner product of row `r` of the left block
    with column `j` of the right block, over the 128 contraction coordinates. -/
theorem blockProd128_apply (a : FVec Ideal S5000x128 .bf16) (b : FVec Ideal S128x128 .bf16) (r : Fin 5000) (j : Fin 128) :
    FloatOps.matmul dot_S5000x128_S128x128_S5000x128_1_0_0_1_n_n none a b (constant (F := Ideal) S5000x128 .f32 0x00000000#32) (ix2 r j)
      = ∑ k : Fin 128, a (ix2 r k) * b (ix2 k j) := by
  refine (Ideal.matmul_constant_zero_apply dot_S5000x128_S128x128_S5000x128_1_0_0_1_n_n none a b (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun d => Fin.ext (by
    match d with
    | ⟨0, _⟩ => exact blockProd128_lhs_row _ _
    | ⟨1, _⟩ => exact (blockProd128_lhs_col _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun d => Fin.ext (by
    match d with
    | ⟨0, _⟩ => exact (blockProd128_rhs_row _ _).trans hk
    | ⟨1, _⟩ => exact blockProd128_rhs_col _ _)
  rw [el, er]

/-! ### The product of a 5000×128 block by a 128×40 block -/

/-- The left operand's index at output index `i` and contraction index `k`: row `i 0`. -/
theorem blockProd40_lhs_row (i : S5000x40.Idx) (k : dot_S5000x128_S128x40_S5000x40_1_0_0_1_n_n.contr.Idx) :
    (dot_S5000x128_S128x40_S5000x40_1_0_0_1_n_n.lhsIdx i k 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and column the contraction coordinate. -/
theorem blockProd40_lhs_col (i : S5000x40.Idx) (k : dot_S5000x128_S128x40_S5000x40_1_0_0_1_n_n.contr.Idx) :
    (dot_S5000x128_S128x40_S5000x40_1_0_0_1_n_n.lhsIdx i k 1).val = (k ⟨0, by decide⟩).val :=
  dot_S5000x128_S128x40_S5000x40_1_0_0_1_n_n.lhsIdx_val_of_single rfl i k
/-- The right operand's index: row the contraction coordinate, -/
theorem blockProd40_rhs_row (i : S5000x40.Idx) (k : dot_S5000x128_S128x40_S5000x40_1_0_0_1_n_n.contr.Idx) :
    (dot_S5000x128_S128x40_S5000x40_1_0_0_1_n_n.rhsIdx i k 0).val = (k ⟨0, by decide⟩).val :=
  dot_S5000x128_S128x40_S5000x40_1_0_0_1_n_n.rhsIdx_val_of_single rfl i k
/-- … and column `i 1`. -/
theorem blockProd40_rhs_col (i : S5000x40.Idx) (k : dot_S5000x128_S128x40_S5000x40_1_0_0_1_n_n.contr.Idx) :
    (dot_S5000x128_S128x40_S5000x40_1_0_0_1_n_n.rhsIdx i k 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (r, j) of the block product accumulated into zero is the inner product of row `r` of the left block
    with column `j` of the right block, over the 128 contraction coordinates. -/
theorem blockProd40_apply (a : FVec Ideal S5000x128 .bf16) (b : FVec Ideal S128x40 .bf16) (r : Fin 5000) (j : Fin 40) :
    FloatOps.matmul dot_S5000x128_S128x40_S5000x40_1_0_0_1_n_n none a b (constant (F := Ideal) S5000x40 .f32 0x00000000#32) (ix2 r j)
      = ∑ k : Fin 128, a (ix2 r k) * b (ix2 k j) := by
  refine (Ideal.matmul_constant_zero_apply dot_S5000x128_S128x40_S5000x40_1_0_0_1_n_n none a b (ix2 r j)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 r j) ((contrEquiv1 dot_S5000x128_S128x40_S5000x40_1_0_0_1_n_n 128 rfl rfl).symm k) = ix2 r k := funext fun d => Fin.ext (by
    match d with
    | ⟨0, _⟩ => exact blockProd40_lhs_row _ _
    | ⟨1, _⟩ => exact (blockProd40_lhs_col _ _).trans hk)
  have er : dot_S5000x128_S128x40_S5000x40_1_0_0_1_n_n.rhsIdx (ix2 r j) ((contrEquiv1 dot_S5000x128_S128x40_S5000x40_1_0_0_1_n_n 128 rfl rfl).symm k) = ix2 k j := funext fun d => Fin.ext (by
    match d with
    | ⟨0, _⟩ => exact (blockProd40_rhs_row _ _).trans hk
    | ⟨1, _⟩ => exact blockProd40_rhs_col _ _)
  rw [el, er]

end Cert.KernelIdeal.RegionVal

end
-- ==== Proof.RegMatmul0.lean ====
/- Region 0 computes the matrix product X · W of the 50000×128 array X by the 128×128 array W, 5000 rows at a
   time: grid point t loads rows 5000·t … 5000·t + 4999 of X and all of W, and stores those rows of the product.
   So entry (r, j) of the output depends on row r of X and column j of W only:  ∑ k : Fin 128, X (r, k) · W (k, j).
   The ten blocks of rows tile the output, so every entry is written, by the point r / 5000. -/
import proofs.«138892_j2886218022956_1_alg».proof.Proof.Gen.KernelIdeal.Frame
import proofs.«138892_j2886218022956_1_alg».proof.Proof.RegMatmulDot
import Idealize.ShloMosaic.Lib.Pipeline.Value
import Idealize.ShloMosaic.Lib.ValueIdx

set_option maxRecDepth 16384

noncomputable section

namespace Cert.KernelIdeal.RegionVal

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## One block -/

/-- The body's stored value at entry (r, j) of its block: the two loaded blocks change format (the identity on the
    extended reals) and are multiplied into zero, so the entry is row `r` of the first against column `j` of the second. -/
theorem matmul0_payload (x0 : Vec Ideal S5000x128 .f32) (x1 : Vec Ideal S128x128 .f32) (r : Fin 5000) (j : Fin 128) :
    k0_pay1 (F := Ideal) x0 x1 (ix2 r j) = ∑ k : Fin 128, x0 (ix2 r k) * x1 (ix2 k j) := by
  unfold k0_pay1
  refine (blockProd128_apply _ _ r j).trans ?_
  rfl

/-- The same at any index of the block, by its coordinates. -/
theorem matmul0_payload_at (x0 : Vec Ideal S5000x128 .f32) (x1 : Vec Ideal S128x128 .f32) (y : S5000x128.Idx) :
    k0_pay1 (F := Ideal) x0 x1 y
      = ∑ k : Fin 128, x0 (ix2 (n0 := 5000) (n1 := 128) (y 0) k) * x1 (ix2 (n0 := 128) (n1 := 128) k (y 1)) := by
  obtain ⟨r, j, rfl⟩ : ∃ (r : Fin 5000) (j : Fin 128), y = ix2 r j := ⟨y 0, y 1, eq_ix2 y⟩
  exact matmul0_payload x0 x1 r j

/-! ## From blocks to the array -/

/-- The product of a 50000×128 array by a 128×128 array, entry by entry: row `i 0` against column `i 1`. -/
def product0 (X : S50000x128.Idx → EReal) (W : S128x128.Idx → EReal) (i : S50000x128.Idx) : EReal :=
  ∑ k : Fin 128, X (ix2 (n0 := 50000) (n1 := 128) (i 0) k) * W (ix2 (n0 := 128) (n1 := 128) k (i 1))

theorem zero_offsets0 : (![0, 0] : Fin 2 → Nat) = fun _ => 0 := funext fun a => by fin_cases a <;> rfl

/-- Where the blocks sit, decided over the ten grid points: point `t` takes row block `t` of the first operand and of
    the output (block column 0), and the whole second operand (block (0, 0)). -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back block `t` of the product: row `y 0` of the block is array row 5000·t + `y 0`, the first
    operand's block holds exactly those rows of its array, and the second operand's block is the whole matrix. -/
theorem matmul0_flushed (c : Dev nD) (t : Fin cfg0.N) :
    (dat0 (F := Ideal) V c).flushed 2 t
      = ((cfg0.win 2).blk t).view.read (Elt Ideal)
          (product0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets0]
  simp only [View.ld_unit_zero (S := S5000x128) zero_offsets0, View.ld_unit_zero (S := S128x128) zero_offsets0]
  obtain ⟨e0, e1, e2, e3, e4, e5⟩ := block_indices0 t
  funext y
  show k0_pay1 (F := Ideal) (iblk0 V c 0 t) (iblk0 V c 1 t) y
    = product0 (V c (Pipeline.arrRef spec0 0)) (V c (Pipeline.arrRef spec0 1)) (((cfg0.win 2).blk t).view.emb y)
  refine (matmul0_payload_at (iblk0 V c 0 t) (iblk0 V c 1 t) y).trans ?_
  unfold product0
  refine Finset.sum_congr rfl fun k _ => ?_
  have h0 : ((cfg0.win 0).blk t).view.emb (ix2 (n0 := 5000) (n1 := 128) (y 0) k)
      = ix2 (n0 := 50000) (n1 := 128) ((((cfg0.win 2).blk t).view.emb y) 0) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : ((cfg0.win 1).blk t).view.emb (ix2 (n0 := 128) (n1 := 128) k (y 1))
      = ix2 (n0 := 128) (n1 := 128) k ((((cfg0.win 2).blk t).view.emb y) 1) := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  exact congrArg₂ (fun a b : EReal => a * b)
    (congrArg (V c (Pipeline.arrRef spec0 0)) h0) (congrArg (V c (Pipeline.arrRef spec0 1)) h1)

/-- An index of the output array is in point `t`'s block iff each coordinate is in the block's range on its axis. -/
theorem matmul0_mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Every entry of the output is written: row `r` lies in the block of point `r / 5000`. -/
theorem matmul0_cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by show _ < grid0.N; rw [N_0]; omega⟩, rfl⟩
  obtain ⟨-, -, -, -, e4, e5⟩ := block_indices0 t
  refine ⟨t, flush0_2 t, ?_⟩
  rw [matmul0_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the product of the two operand arrays as the region finds them. -/
theorem matmul0_array (c : Dev nD) :
    (dat0 (F := Ideal) V c).arrAt 2 cfg0.N
      = product0 (V c (Pipeline.arrRef spec0 0)) (V c (Pipeline.arrRef spec0 1)) :=
  (dat0 (F := Ideal) V c).arrAt_eq_of_cover 2
    (product0 (V c (Pipeline.arrRef spec0 0)) (V c (Pipeline.arrRef spec0 1)))
    (fun t _ => matmul0_flushed V c t) matmul0_cover

/-- Entry (r, j) of the output array after the region, the operand arrays named: row `r` of the first against
    column `j` of the second. -/
theorem matmul0_apply (c : Dev nD) (X : S50000x128.Idx → Elt Ideal .f32) (W : S128x128.Idx → Elt Ideal .f32)
    (hX : V c (Pipeline.arrRef spec0 0) = X) (hW : V c (Pipeline.arrRef spec0 1) = W) (r : Fin 50000) (j : Fin 128) :
    (dat0 (F := Ideal) V c).arrAt 2 cfg0.N (ix2 r j) = ∑ k : Fin 128, X (ix2 r k) * W (ix2 k j) := by
  subst hX hW
  exact congrFun (matmul0_array V c) (ix2 r j)

end Cert.KernelIdeal.RegionVal

end
-- ==== Proof.RegPointwiseBias1.lean ====
/-
  Region 1 adds a bias row to a matrix: out[r, j] = a[r, j] + b[0, j] for the 50000 × 128 array `a` and the
  1 × 128 row `b`. The grid has ten points; point t reads rows 5000 t … 5000 t + 4999 of `a` and the whole row `b`,
  and writes the same rows of the result. An entry of the result depends on the one entry of `a` at its own position
  and on the one entry of `b` in its own column, on nothing else. The ten row blocks are disjoint and fill the array,
  so after the last point the whole array holds the sum.
-/
import proofs.«138892_j2886218022956_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The origin of a rank-2 block, as the constant function. -/
theorem origin2 : (![0, 0] : Fin 2 → Nat) = fun _ => 0 := funext fun a => by fin_cases a <;> rfl

/-- One entry of the body's result: the entry of the row block plus the bias entry of the same column.
    The two shape casts are identities and the broadcast copies the single bias row to every row. -/
theorem bias1_entry (x0 : Vec Ideal S5000x128 .f32) (x1 : Vec Ideal S1x128 .f32) (r : Fin 5000) (j : Fin 128) :
    k1_pay1 x0 x1 (ix2 r j) = x0 (ix2 r j) + x1 (ix2 (0 : Fin 1) j) := by
  unfold k1_pay1
  refine (addf_apply _ _ _).trans ?_
  refine congrArg₂ (· + ·) (congrFun (shapeCast_self x0 _) _) ?_
  refine (broadcastTo_1b_ab_apply _ _ r j).trans ?_
  exact congrFun (shapeCast_self x1 _) _

/-- The same at an arbitrary index of the block. -/
theorem bias1_entry' (x0 : Vec Ideal S5000x128 .f32) (x1 : Vec Ideal S1x128 .f32) (y : S5000x128.Idx) :
    k1_pay1 x0 x1 y = x0 y + x1 (ix2 (0 : Fin 1) (y 1)) := by
  obtain ⟨r, j, rfl⟩ : ∃ (r : Fin 5000) (j : Fin 128), y = ix2 r j := ⟨y 0, y 1, eq_ix2 y⟩
  exact bias1_entry x0 x1 r j

/-- The whole result as one function of the two arrays: each entry of the input plus the bias entry of its column. -/
def biasArr1 (a : S50000x128.Idx → Elt Ideal .f32) (b : S1x128.Idx → Elt Ideal .f32) : S50000x128.Idx → Elt Ideal .f32 :=
  fun i => a i + b (ix2 (0 : Fin 1) (i 1))

/-- Where the blocks sit, decided over the ten grid points: the input and the output row blocks move together, point `t`
    holds row block `t`, the column block is always the first, and the bias row is the same block at every point. -/
theorem bias1_maps : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What grid point `t` writes back is block `t` of that function of the two arrays as the region finds them:
    the input block and the output block are the same rows, and the bias block is the whole bias row. -/
theorem bias1_block (c : Dev nD) (t : Fin cfg1.N) :
    (dat1 (F := Ideal) V c).flushed 2 t
      = ((cfg1.win 2).blk t).view.read (Elt Ideal) (biasArr1 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero origin2]
  simp only [View.ld_unit_zero (S := S5000x128) origin2, View.ld_unit_zero (S := S1x128) origin2]
  funext (y : S5000x128.Idx)
  refine (bias1_entry' (iblk1 V c 0 t) (iblk1 V c 1 t) y).trans ?_
  obtain ⟨e0, e1, e2, e3, e4, e5⟩ := bias1_maps t
  have hy0 : (y 0).val < 5000 := (y 0).isLt
  have hy1 : (y 1).val < 128 := (y 1).isLt
  have h0 : ((cfg1.win 0).blk t).view.emb y = ((cfg1.win 2).blk t).view.emb y := by
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  have h1 : ((cfg1.win 1).blk t).view.emb (ix2 (0 : Fin 1) (y 1))
      = ix2 (0 : Fin 1) ((((cfg1.win 2).blk t).view.emb y) 1) := by
    funext a; apply Fin.ext
    match a with
    | ⟨0, _⟩ => show win1_1.index t (0 : Fin 2) * 1 + 1 * 0 = 0; omega
    | ⟨1, _⟩ => show win1_1.index t (1 : Fin 2) * 128 + 1 * (y 1).val = win1_2.index t (1 : Fin 2) * 128 + 1 * (y 1).val; omega
  exact congrArg₂ (· + ·) (congrArg (V c (Pipeline.arrRef spec1 0)) h0) (congrArg (V c (Pipeline.arrRef spec1 1)) h1)

/-- An index of the array lies in point `t`'s output block iff each coordinate lies in the block's range on its axis. -/
theorem bias1_mem (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v38).slice (win1_2.rect t)).set ↔ _
  rw [View.set_slice_whole, Rect.mem_set_unit]
  exact Iff.rfl

/-- Every row of the array is written: row `r` lies in the block of point `r / 5000`. -/
theorem bias1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1, e2, e3, e4, e5⟩ := bias1_maps t
  refine ⟨t, flush1_2 t, ?_⟩
  rw [bias1_mem]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the input plus the bias row, everywhere. -/
theorem bias1_array (c : Dev nD) :
    (dat1 (F := Ideal) V c).arrAt 2 cfg1.N = biasArr1 (V c (Pipeline.arrRef spec1 0)) (V c (Pipeline.arrRef spec1 1)) :=
  (dat1 (F := Ideal) V c).arrAt_eq_of_cover 2 _ (fun t _ => bias1_block V c t) bias1_cover

/-- Entry by entry: `out[r, j] = a[r, j] + b[0, j]` (the sum is the extended reals'). -/
theorem bias1_apply (c : Dev nD) (r : Fin 50000) (j : Fin 128) :
    (dat1 (F := Ideal) V c).arrAt 2 cfg1.N (ix2 r j)
      = HAdd.hAdd (α := Elt Ideal .f32) (β := Elt Ideal .f32) (γ := Elt Ideal .f32)
          (V c (Pipeline.arrRef spec1 0) (ix2 r j)) (V c (Pipeline.arrRef spec1 1) (ix2 (0 : Fin 1) j)) :=
  congrFun (bias1_array V c) (ix2 r j)

/-- The same with the two arrays named: whatever functions `a`, `b` the region finds in its two input arrays. -/
theorem bias1_apply_of (c : Dev nD) (a : S50000x128.Idx → Elt Ideal .f32) (b : S1x128.Idx → Elt Ideal .f32)
    (ha : V c (Pipeline.arrRef spec1 0) = a) (hb : V c (Pipeline.arrRef spec1 1) = b) (r : Fin 50000) (j : Fin 128) :
    (dat1 (F := Ideal) V c).arrAt 2 cfg1.N (ix2 r j) = a (ix2 r j) + b (ix2 (0 : Fin 1) j) := by
  subst ha hb
  exact bias1_apply V c r j

end Cert.KernelIdeal.RegionVal

end
-- ==== Proof.RegStatsSums.lean ====
/-
  Regrouping a sum over consecutive naturals by blocks of 5000: what lets the ten per-block sums of a 50000-row
  column be read as one sum over all its rows. Valid in any additive commutative monoid, so in particular over
  the extended reals with no finiteness assumption.
-/
import Mathlib.Algebra.BigOperators.Fin
import Mathlib.Algebra.BigOperators.Intervals
import Mathlib.Data.EReal.Basic

namespace Cert.KernelIdeal.RegionVal

open Finset

/-- One more block of 5000 consecutive rows: the sum over the first 5000 (n + 1) naturals splits into the sum over
    the first 5000 n and the sum over the n-th block. -/
theorem sum_range_block {M : Type*} [AddCommMonoid M] (f : ℕ → M) (n : ℕ) :
    ∑ r ∈ range (5000 * (n + 1)), f r = ∑ r ∈ range (5000 * n), f r + ∑ q : Fin 5000, f (5000 * n + q.val) := by
  rw [Nat.mul_succ, Finset.sum_range_add, Fin.sum_univ_eq_sum_range (fun q => f (5000 * n + q)) 5000]

/-- The first block alone. -/
theorem sum_range_block_zero {M : Type*} [AddCommMonoid M] (f : ℕ → M) :
    ∑ r ∈ range (5000 * (0 + 1)), f r = ∑ q : Fin 5000, f (5000 * 0 + q.val) := by
  rw [sum_range_block, Nat.mul_zero, Finset.sum_range_zero, zero_add]

end Cert.KernelIdeal.RegionVal
-- ==== Proof.RegStats2Pay.lean ====
/-
  Region 2 computes batch-norm statistics of a 50000 x 128 array h, 5000 rows per grid point: it keeps two
  1 x 128 rows, the running column sums of h and of h*h. This module reads the body's arithmetic at an entry, over
  the extended reals: the row the first point stores is zero, and one point's update of lane j adds to the old
  value the sum over the block's 5000 rows q of the entry (q, j), resp. of its square. An updated lane depends on
  the old lane j and on column j of the block only.
-/
import proofs.«138892_j2886218022956_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RegionVal

open Cert.KernelIdeal Cert.KernelIdeal.Gen Idealize.ShloMosaic Idealize.ShloMosaic.ValueIdx

/-- The row the first grid point stores before accumulating is the zero word, which is the extended real 0. -/
theorem zeroRowA2_apply (j : Fin 128) : k2_pay1 (F := Ideal) (ix2 (0 : Fin 1) j) = 0 := by
  unfold k2_pay1
  exact Ideal.ofBits_zero_f32

theorem zeroRowB2_apply (j : Fin 128) : k2_pay2 (F := Ideal) (ix2 (0 : Fin 1) j) = 0 := by
  unfold k2_pay2
  exact Ideal.ofBits_zero_f32

/-- Reducing a 5000 x 128 block along its rows: lane j of the result collects the entries (q, j). -/
theorem rowsLift2 (j : Fin 128) (q : Fin 5000) :
    reduces_S5000x128_S128.lift (fun a => (ix2 (0 : Fin 1) j : S1x128.Idx) a.succ) q = ix2 q j := by
  funext a
  match a with
  | ⟨0, _⟩ => rfl
  | ⟨1, _⟩ => rfl

/-- The new running column sum: the old one plus the sum of the block's column j over its 5000 rows. -/
theorem colsumStep2_apply (x0 : Vec Ideal S5000x128 .f32) (x1 : Vec Ideal S1x128 .f32) (j : Fin 128) :
    k2_pay4 (F := Ideal) x0 x1 (ix2 (0 : Fin 1) j) = x1 (ix2 0 j) + ∑ q : Fin 5000, x0 (ix2 q j) := by
  unfold k2_pay4 k2_pay3
  rw [shapeCast_self, shapeCast_self]
  refine (addf_apply _ _ _).trans ?_
  refine congrArg (fun z => x1 (ix2 0 j) + z) ?_
  refine (shapeCast_addUnit_apply _ _ _ _).trans ?_
  refine (Ideal.multiReduction_add_single x0 _ reduces_S5000x128_S128 (.inl rfl) rfl _).trans ?_
  exact Finset.sum_congr rfl fun q _ => congrArg x0 (rowsLift2 j q)

/-- The new running column sum of squares: the old one plus the sum of the squared entries of column j. -/
theorem colsumsqStep2_apply (x0 : Vec Ideal S5000x128 .f32) (x1 : Vec Ideal S1x128 .f32) (j : Fin 128) :
    k2_pay5 (F := Ideal) x0 x1 (ix2 (0 : Fin 1) j)
      = x1 (ix2 0 j) + ∑ q : Fin 5000, x0 (ix2 q j) * x0 (ix2 q j) := by
  unfold k2_pay5 k2_pay3
  rw [shapeCast_self, shapeCast_self]
  refine (addf_apply _ _ _).trans ?_
  refine congrArg (fun z => x1 (ix2 0 j) + z) ?_
  refine (shapeCast_addUnit_apply _ _ _ _).trans ?_
  refine (Ideal.multiReduction_add_single (mulf x0 x0) _ reduces_S5000x128_S128 (.inl rfl) rfl _).trans ?_
  refine Finset.sum_congr rfl fun q _ => ?_
  refine (mulf_apply x0 x0 _).trans ?_
  rw [rowsLift2 j q]

end Cert.KernelIdeal.RegionVal
-- ==== Proof.RegStats2Body.lean ====
/-
  Region 2 (batch-norm statistics, 5000 rows of h per grid point): what the body leaves in its two 1 x 128 rows,
  for either control case and any float values. At the first point both rows are zeroed, read back, and updated;
  at every later point they are updated from what the point before left. The update of the first row is "old row
  plus column sums of the block", of the second "old row plus column sums of the block's squares".
-/
import proofs.«138892_j2886218022956_1_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.RegionVal

open Cert.KernelIdeal Cert.KernelIdeal.Gen Idealize.ShloMosaic Idealize.ShloMosaic.ValueIdx
open Idealize.ShloMosaic.TcCoe Idealize.ShloMosaic.Tactic
open Idealize.SL Idealize.SL.Sem
open Idealize.ShloMosaic.Pipeline (Dat Cfg Window)

variable {F : FTy → Type} [FloatOps F]

theorem origin2 : (![0, 0] : Fin 2 → Nat) = fun _ => 0 := funext fun a => by fin_cases a <;> rfl

/-- At a later grid point the first row is left at the update of what it held, by the block. -/
theorem keepSum2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S5000x128 .f32) (xo1 xo2 : Vec F S1x128 .f32) :
    out2_B_1 c i a1 h1 a2 h2 a3 h3 hc x0 xo1 xo2 = k2_pay4 x0 xo1 := by
  unfold out2_B_1
  rw [View.read_writes_eq_canon _ _ _ (cover2_B_1 c i a1 h1 a2 h2 a3 h3 hc x0 xo1 xo2)]
  unfold kernelRun2_B
  dsimp only
  rw [View.canon_unit_zero origin2]
  simp only [View.readAt_eq_ld, h1.read_unread, h2.read_unread, View.ld_unit_zero (S := S5000x128) origin2,
    View.ld_unit_zero (S := S1x128) origin2]

/-- At a later grid point the second row is left at the update of what it held, by the block's squares. -/
theorem keepSumsq2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S5000x128 .f32) (xo1 xo2 : Vec F S1x128 .f32) :
    out2_B_2 c i a1 h1 a2 h2 a3 h3 hc x0 xo1 xo2 = k2_pay5 x0 xo2 := by
  unfold out2_B_2
  rw [View.read_writes_eq_canon _ _ _ (cover2_B_2 c i a1 h1 a2 h2 a3 h3 hc x0 xo1 xo2)]
  unfold kernelRun2_B
  dsimp only
  rw [View.canon_unit_zero origin2]
  simp only [View.readAt_eq_ld, h1.read_unread, h3.read_unread, View.ld_unit_zero (S := S5000x128) origin2,
    View.ld_unit_zero (S := S1x128) origin2]

/-- At the first grid point the first row is zeroed, read back, and left at the update of the zero row. -/
theorem firstSum2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S5000x128 .f32) :
    out2_A_1 c i a1 h1 a2 h2 a3 h3 hc x0 = k2_pay4 x0 k2_pay1 := by
  unfold out2_A_1
  rw [View.read_writes_eq_canon _ _ _ (cover2_A_1 c i a1 h1 a2 h2 a3 h3 hc x0)]
  unfold kernelRun2_A
  dsimp only
  sl_unfold_words
  rw [View.canon_cons_unit_zero (S := S1x128) origin2, View.readCov_unit_zero (S := S1x128) _ origin2]
  simp only [View.readAt_eq_ld, h1.read_unread, View.ld_unit_zero (S := S5000x128) origin2,
    View.ld_unit_zero (S := S1x128) origin2]

/-- At the first grid point the second row likewise. -/
theorem firstSumsq2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S5000x128 .f32) :
    out2_A_2 c i a1 h1 a2 h2 a3 h3 hc x0 = k2_pay5 x0 k2_pay2 := by
  unfold out2_A_2
  rw [View.read_writes_eq_canon _ _ _ (cover2_A_2 c i a1 h1 a2 h2 a3 h3 hc x0)]
  unfold kernelRun2_A
  dsimp only
  sl_unfold_words
  rw [View.canon_cons_unit_zero (S := S1x128) origin2, View.readCov_unit_zero (S := S1x128) _ origin2]
  simp only [View.readAt_eq_ld, h1.read_unread, View.ld_unit_zero (S := S5000x128) origin2,
    View.ld_unit_zero (S := S1x128) origin2]

end Cert.KernelIdeal.RegionVal
-- ==== Proof.RegStats2.lean ====
/-
  Region 2: batch-norm statistics of h, a 50000 x 128 array, over a grid of ten points of 5000 rows each. Two
  1 x 128 arrays are kept across the points and written back once, after the last point: the column sums of h and
  the column sums of h*h. After point n lane j of the first holds the sum of column j over rows 0 .. 5000 (n+1) - 1
  (0 + the first block at the first point, then one more block per point), the second the same with squared
  entries; so after the last point lane j holds the sum over all 50000 rows. Entry (0, j) of either result depends
  on column j of h only. Sums are taken in the extended reals, an additive commutative monoid, so regrouping by
  blocks needs no finiteness.
-/
import proofs.«138892_j2886218022956_1_alg».proof.Proof.Gen.KernelIdeal.Frame
import proofs.«138892_j2886218022956_1_alg».proof.Proof.RegStatsSums
import proofs.«138892_j2886218022956_1_alg».proof.Proof.RegStats2Pay
import proofs.«138892_j2886218022956_1_alg».proof.Proof.RegStats2Body
import Idealize.ShloMosaic.Lib.ValueIdx
import Idealize.ShloMosaic.Lib.Pipeline.Value
import Idealize.ShloMosaic.Lib.Pipeline.Dat
import Idealize.ShloMosaic.Lib.Pipeline.FrameBody
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- Entry (r, j) of h as the region finds it, for a natural row number r; 0 past the last row. -/
def hrow2 (c : Dev nD) (j : Fin 128) (r : ℕ) : EReal :=
  if h : r < 50000 then V c (Pipeline.arrRef spec2 0) (ix2 (⟨r, h⟩ : Fin 50000) j) else 0

/-- The block of h at grid point t starts at row 5000 t, column 0: decided over the ten points. -/
theorem hblockAt2 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- Row q of the block at point t is row 5000 t + q of h. -/
theorem blockRead2 (c : Dev nD) (t : Fin cfg2.N) (q : Fin 5000) (j : Fin 128) :
    (iblk2 V c 0 t : Vec Ideal S5000x128 .f32) (ix2 q j) = hrow2 V c j (5000 * t.val + q.val) := by
  have hN : t.val < 10 := lt_of_lt_of_eq t.isLt (show cfg2.N = 10 from N_2)
  obtain ⟨e0, e1⟩ := hblockAt2 t
  unfold hrow2
  rw [dif_pos (by omega)]
  unfold iblk2
  rw [View.read_apply]
  refine congrArg (V c (Pipeline.arrRef spec2 0)) ?_
  funext a
  apply Fin.ext
  match a with
  | ⟨0, _⟩ => show win2_0.index t (0 : Fin 2) * 5000 + 1 * q.val = 5000 * t.val + q.val; omega
  | ⟨1, _⟩ => show win2_0.index t (1 : Fin 2) * 128 + 1 * j.val = j.val; omega

/-- At the first point lane j of the two rows ends at the first block's column sum, resp. sum of squares. -/
theorem firstPoint2 (c : Dev nD) (t : Fin cfg2.N) (h0 : t.val % 10 = 0) (j : Fin 128) :
    (outsAt2 V c t.val t.isLt).1 (ix2 (0 : Fin 1) j) = ∑ q : Fin 5000, hrow2 V c j (5000 * t.val + q.val)
    ∧ (outsAt2 V c t.val t.isLt).2 (ix2 (0 : Fin 1) j)
        = ∑ q : Fin 5000, hrow2 V c j (5000 * t.val + q.val) * hrow2 V c j (5000 * t.val + q.val) := by
  rw [outsAt2_A V c t h0]
  dsimp only
  constructor
  · refine (congrFun (firstSum2 (F := Ideal) c (grid2.coords t) (ms2_0 t) (hs2_0 t) (ms2_1 t) (hs2_1 t) (ms2_2 t)
      (hs2_2 t) ((hcond2_0 t).mpr h0) (iblk2 V c 0 t)) (ix2 (0 : Fin 1) j)).trans ?_
    refine (colsumStep2_apply (iblk2 V c 0 t) (k2_pay1 (F := Ideal)) j).trans ?_
    rw [zeroRowA2_apply, zero_add]
    exact Finset.sum_congr rfl fun q _ => blockRead2 V c t q j
  · refine (congrFun (firstSumsq2 (F := Ideal) c (grid2.coords t) (ms2_0 t) (hs2_0 t) (ms2_1 t) (hs2_1 t) (ms2_2 t)
      (hs2_2 t) ((hcond2_0 t).mpr h0) (iblk2 V c 0 t)) (ix2 (0 : Fin 1) j)).trans ?_
    refine (colsumsqStep2_apply (iblk2 V c 0 t) (k2_pay2 (F := Ideal)) j).trans ?_
    rw [zeroRowB2_apply, zero_add]
    exact Finset.sum_congr rfl fun q _ => by rw [blockRead2 V c t q j]

/-- At a later point lane j of the two rows ends at what the point before left plus this block's column sum,
    resp. sum of squares. -/
theorem laterPoint2 (c : Dev nD) (t : Fin cfg2.N) (h0 : ¬t.val % 10 = 0) (j : Fin 128) :
    (outsAt2 V c t.val t.isLt).1 (ix2 (0 : Fin 1) j)
        = (outsAt2 V c (t.val - 1) (Nat.lt_of_le_of_lt (Nat.sub_le _ _) t.isLt)).1 (ix2 (0 : Fin 1) j)
          + ∑ q : Fin 5000, hrow2 V c j (5000 * t.val + q.val)
    ∧ (outsAt2 V c t.val t.isLt).2 (ix2 (0 : Fin 1) j)
        = (outsAt2 V c (t.val - 1) (Nat.lt_of_le_of_lt (Nat.sub_le _ _) t.isLt)).2 (ix2 (0 : Fin 1) j)
          + ∑ q : Fin 5000, hrow2 V c j (5000 * t.val + q.val) * hrow2 V c j (5000 * t.val + q.val) := by
  rw [outsAt2_B V c t h0]
  dsimp only
  constructor
  · refine (congrFun (keepSum2 (F := Ideal) c (grid2.coords t) (ms2_0 t) (hs2_0 t) (ms2_1 t) (hs2_1 t) (ms2_2 t)
      (hs2_2 t) (fun h => h0 ((hcond2_0 t).mp h)) (iblk2 V c 0 t)
      (outsAt2 V c (t.val - 1) (Nat.lt_of_le_of_lt (Nat.sub_le _ _) t.isLt)).1
      (outsAt2 V c (t.val - 1) (Nat.lt_of_le_of_lt (Nat.sub_le _ _) t.isLt)).2) (ix2 (0 : Fin 1) j)).trans ?_
    refine (colsumStep2_apply (iblk2 V c 0 t)
      (outsAt2 V c (t.val - 1) (Nat.lt_of_le_of_lt (Nat.sub_le _ _) t.isLt)).1 j).trans ?_
    exact congrArg (fun z => (outsAt2 V c (t.val - 1) (Nat.lt_of_le_of_lt (Nat.sub_le _ _) t.isLt)).1 (ix2 (0 : Fin 1) j) + z)
      (Finset.sum_congr rfl fun q _ => blockRead2 V c t q j)
  · refine (congrFun (keepSumsq2 (F := Ideal) c (grid2.coords t) (ms2_0 t) (hs2_0 t) (ms2_1 t) (hs2_1 t) (ms2_2 t)
      (hs2_2 t) (fun h => h0 ((hcond2_0 t).mp h)) (iblk2 V c 0 t)
      (outsAt2 V c (t.val - 1) (Nat.lt_of_le_of_lt (Nat.sub_le _ _) t.isLt)).1
      (outsAt2 V c (t.val - 1) (Nat.lt_of_le_of_lt (Nat.sub_le _ _) t.isLt)).2) (ix2 (0 : Fin 1) j)).trans ?_
    refine (colsumsqStep2_apply (iblk2 V c 0 t)
      (outsAt2 V c (t.val - 1) (Nat.lt_of_le_of_lt (Nat.sub_le _ _) t.isLt)).2 j).trans ?_
    exact congrArg (fun z => (outsAt2 V c (t.val - 1) (Nat.lt_of_le_of_lt (Nat.sub_le _ _) t.isLt)).2 (ix2 (0 : Fin 1) j) + z)
      (Finset.sum_congr rfl fun q _ => by rw [blockRead2 V c t q j])

/-- THE RUNNING SUMS. After point n lane j of the first row holds the sum of column j of h over its first
    5000 (n + 1) rows, and of the second row the sum of the squares of those entries: by induction on the point,
    each step adding one block of 5000 rows. -/
theorem running2 (c : Dev nD) (j : Fin 128) : ∀ (n : ℕ) (h : n < cfg2.N),
    (outsAt2 V c n h).1 (ix2 (0 : Fin 1) j) = ∑ r ∈ Finset.range (5000 * (n + 1)), hrow2 V c j r
    ∧ (outsAt2 V c n h).2 (ix2 (0 : Fin 1) j)
        = ∑ r ∈ Finset.range (5000 * (n + 1)), hrow2 V c j r * hrow2 V c j r
  | 0, h => by
    obtain ⟨e1, e2⟩ := firstPoint2 V c ⟨0, h⟩ rfl j
    exact ⟨e1.trans (sum_range_block_zero (hrow2 V c j)).symm,
      e2.trans (sum_range_block_zero (fun r => hrow2 V c j r * hrow2 V c j r)).symm⟩
  | n + 1, h => by
    have hN : cfg2.N = 10 := N_2
    have hB : ¬(⟨n + 1, h⟩ : Fin cfg2.N).val % 10 = 0 := by dsimp only; omega
    obtain ⟨e1, e2⟩ := laterPoint2 V c ⟨n + 1, h⟩ hB j
    obtain ⟨i1, i2⟩ := running2 c j n (Nat.lt_of_succ_lt h)
    constructor
    · refine e1.trans ?_
      rw [sum_range_block (hrow2 V c j) (n + 1)]
      exact congrArg (fun z => z + ∑ q : Fin 5000, hrow2 V c j (5000 * (n + 1) + q.val)) i1
    · refine e2.trans ?_
      rw [sum_range_block (fun r => hrow2 V c j r * hrow2 V c j r) (n + 1)]
      exact congrArg (fun z => z + ∑ q : Fin 5000, hrow2 V c j (5000 * (n + 1) + q.val) * hrow2 V c j (5000 * (n + 1) + q.val)) i2

/-- A 1 x 128 array is determined by its entries (0, j). -/
theorem rowExt2 {α : Type} (X G : S1x128.Idx → α) (h : ∀ j : Fin 128, X (ix2 (0 : Fin 1) j) = G (ix2 (0 : Fin 1) j)) :
    X = G := by
  funext i
  have e : i = ix2 (0 : Fin 1) (i 1) :=
    (eq_ix2 i).trans (congrArg (fun a : Fin 1 => ix2 a (i 1))
      (Fin.ext (by have h : (i 0).val < 1 := (i 0).isLt; show (i 0).val = 0; omega)))
  rw [e]
  exact h (i 1)

/-- What the sums array ends holding: in lane j the sum of column j of h over all 50000 rows. -/
def colsumRow2 (c : Dev nD) : S1x128.Idx → EReal := fun i => ∑ r ∈ Finset.range 50000, hrow2 V c (i 1) r

/-- What the sums-of-squares array ends holding: in lane j the sum of the squares of column j of h. -/
def colsumsqRow2 (c : Dev nD) : S1x128.Idx → EReal :=
  fun i => ∑ r ∈ Finset.range 50000, hrow2 V c (i 1) r * hrow2 V c (i 1) r

theorem sumsOrigin2 : (fun a => win2_1.index t2_9 a * main_v39_0.ty.shape.size a) = fun _ => 0 :=
  funext fun a => by fin_cases a <;> decide
theorem sumsqOrigin2 : (fun a => win2_2.index t2_9 a * main_v39_1.ty.shape.size a) = fun _ => 0 :=
  funext fun a => by fin_cases a <;> decide

/-- The one write-back of the sums, after the last point, writes the complete column sums: the window's only
    block is the whole 1 x 128 array. -/
theorem colsum2_flushed (c : Dev nD) (t : Fin cfg2.N) (hf : (cfg2.win 1).flush t = true) :
    (dat2 (F := Ideal) V c).flushed 1 t = ((cfg2.win 1).blk t).view.read (Elt Ideal) (colsumRow2 V c) := by
  have hN : cfg2.N = 10 := N_2
  have h9 : t.val = 9 := by have := (flush2_1 t).mp hf; have := t.isLt; omega
  obtain rfl : t = t2_9 := Fin.ext h9
  show (cfg2.win 1).cut (grid2.coords t2_9) ((dat2 (F := Ideal) V c).after 1 t2_9) = _
  rw [after2_1]
  refine Eq.trans ?_ (Memref.read_access_unit_zero (Elt Ideal) main_v39_0 sumsOrigin2
    (fun a => by rw [congrFun sumsOrigin2 a]; simp) (colsumRow2 V c)).symm
  exact rowExt2 _ _ fun j => (running2 V c j 9 t2_9.isLt).1

theorem colsumsq2_flushed (c : Dev nD) (t : Fin cfg2.N) (hf : (cfg2.win 2).flush t = true) :
    (dat2 (F := Ideal) V c).flushed 2 t = ((cfg2.win 2).blk t).view.read (Elt Ideal) (colsumsqRow2 V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 (F := Ideal) V c).after 2 t2_9) = _
  rw [after2_2]
  refine Eq.trans ?_ (Memref.read_access_unit_zero (Elt Ideal) main_v39_1 sumsqOrigin2
    (fun a => by rw [congrFun sumsqOrigin2 a]; simp) (colsumsqRow2 V c)).symm
  exact rowExt2 _ _ fun j => (running2 V c j 9 t2_9.isLt).2

/-- Every entry of the sums array lies in the block the last point writes back (the block is the array). -/
theorem colsum2_cover (i : S1x128.Idx) :
    ∃ t : Fin cfg2.N, (cfg2.win 1).flush t = true ∧ i ∈ ((cfg2.win 1).blk t).view.set :=
  ⟨t2_9, (flush2_1 t2_9).mpr rfl, by
    show i ∈ ((View.whole main_v39_0).slice (win2_1.rect t2_9)).set
    rw [View.set_slice_whole, Rect.mem_set_unit]
    intro a
    have h0 : (i 0 : Nat) < 1 := (i 0).isLt
    have h1 : (i 1 : Nat) < 128 := (i 1).isLt
    match a with
    | ⟨0, _⟩ =>
      show win2_1.index t2_9 0 * win2_1.size 0 ≤ (i 0 : Nat)
        ∧ (i 0 : Nat) < win2_1.index t2_9 0 * win2_1.size 0 + win2_1.xsize (grid2.coords t2_9) 0
      rw [show win2_1.index t2_9 0 * win2_1.size 0 = 0 from by decide +kernel,
        show win2_1.xsize (grid2.coords t2_9) 0 = 1 from by decide +kernel]
      omega
    | ⟨1, _⟩ =>
      show win2_1.index t2_9 1 * win2_1.size 1 ≤ (i 1 : Nat)
        ∧ (i 1 : Nat) < win2_1.index t2_9 1 * win2_1.size 1 + win2_1.xsize (grid2.coords t2_9) 1
      rw [show win2_1.index t2_9 1 * win2_1.size 1 = 0 from by decide +kernel,
        show win2_1.xsize (grid2.coords t2_9) 1 = 128 from by decide +kernel]
      omega⟩

theorem colsumsq2_cover (i : S1x128.Idx) :
    ∃ t : Fin cfg2.N, (cfg2.win 2).flush t = true ∧ i ∈ ((cfg2.win 2).blk t).view.set :=
  ⟨t2_9, (flush2_2 t2_9).mpr rfl, by
    show i ∈ ((View.whole main_v39_1).slice (win2_2.rect t2_9)).set
    rw [View.set_slice_whole, Rect.mem_set_unit]
    intro a
    have h0 : (i 0 : Nat) < 1 := (i 0).isLt
    have h1 : (i 1 : Nat) < 128 := (i 1).isLt
    match a with
    | ⟨0, _⟩ =>
      show win2_2.index t2_9 0 * win2_2.size 0 ≤ (i 0 : Nat)
        ∧ (i 0 : Nat) < win2_2.index t2_9 0 * win2_2.size 0 + win2_2.xsize (grid2.coords t2_9) 0
      rw [show win2_2.index t2_9 0 * win2_2.size 0 = 0 from by decide +kernel,
        show win2_2.xsize (grid2.coords t2_9) 0 = 1 from by decide +kernel]
      omega
    | ⟨1, _⟩ =>
      show win2_2.index t2_9 1 * win2_2.size 1 ≤ (i 1 : Nat)
        ∧ (i 1 : Nat) < win2_2.index t2_9 1 * win2_2.size 1 + win2_2.xsize (grid2.coords t2_9) 1
      rw [show win2_2.index t2_9 1 * win2_2.size 1 = 0 from by decide +kernel,
        show win2_2.xsize (grid2.coords t2_9) 1 = 128 from by decide +kernel]
      omega⟩

/-- The sums array after the region. -/
theorem colsum2_final (c : Dev nD) : (dat2 (F := Ideal) V c).arrAt 1 cfg2.N = colsumRow2 V c :=
  (dat2 (F := Ideal) V c).arrAt_eq_of_cover 1 (colsumRow2 V c) (colsum2_flushed V c) colsum2_cover

/-- The sums-of-squares array after the region. -/
theorem colsumsq2_final (c : Dev nD) : (dat2 (F := Ideal) V c).arrAt 2 cfg2.N = colsumsqRow2 V c :=
  (dat2 (F := Ideal) V c).arrAt_eq_of_cover 2 (colsumsqRow2 V c) (colsumsq2_flushed V c) colsumsq2_cover

/-- Over a named copy x of h, the row reader is x's entry. -/
theorem hrow2_of (c : Dev nD) (x : S50000x128.Idx → Elt Ideal .f32)
    (hx : V c (Pipeline.arrRef spec2 0) = x) (j : Fin 128) (r : ℕ) :
    hrow2 V c j r = if h : r < 50000 then x (ix2 (⟨r, h⟩ : Fin 50000) j) else 0 := by
  subst hx
  rfl

/-- Over a named copy x of h: lane j of the sums array ends at the sum of column j of x over its 50000 rows. -/
theorem colsum2_apply_of (c : Dev nD) (x : S50000x128.Idx → Elt Ideal .f32)
    (hx : V c (Pipeline.arrRef spec2 0) = x) (j : Fin 128) :
    (dat2 (F := Ideal) V c).arrAt 1 cfg2.N (ix2 (0 : Fin 1) j) = ∑ r : Fin 50000, x (ix2 r j) := by
  rw [colsum2_final V c]
  show ∑ r ∈ Finset.range 50000, hrow2 V c j r = _
  rw [Finset.sum_fin_eq_sum_range]
  exact Finset.sum_congr rfl fun r _ => hrow2_of V c x hx j r

/-- Over a named copy x of h: lane j of the sums-of-squares array ends at the sum of the squares of column j. -/
theorem colsumsq2_apply_of (c : Dev nD) (x : S50000x128.Idx → Elt Ideal .f32)
    (hx : V c (Pipeline.arrRef spec2 0) = x) (j : Fin 128) :
    (dat2 (F := Ideal) V c).arrAt 2 cfg2.N (ix2 (0 : Fin 1) j) = ∑ r : Fin 50000, x (ix2 r j) * x (ix2 r j) := by
  rw [colsumsq2_final V c]
  show ∑ r ∈ Finset.range 50000, hrow2 V c j r * hrow2 V c j r = _
  rw [Finset.sum_fin_eq_sum_range]
  refine Finset.sum_congr rfl fun r _ => ?_
  rw [hrow2_of V c x hx j r]
  split
  · rfl
  · exact mul_zero 0

end Cert.KernelIdeal.RegionVal
-- ==== Proof.RegPointwiseNorm3.lean ====
/-
  Region 3 applies a batch normalisation followed by a rectifier to a 50000 × 128 matrix h, column by column:
  out[r, j] = max (((g[0, j] * (h[r, j] - mu[0, j])) * rsqrt (va[0, j] + ε)) + be[0, j]) 0, where mu, va, g, be are four
  1 × 128 rows (mean, variance, scale, shift) and ε is a float literal. The grid has ten points; point t reads rows
  5000 t … 5000 t + 4999 of h and the four whole rows, and writes the same rows of the result. An entry of the result
  depends on the one entry of h at its own position and on the entry of each of the four rows in its own column, on
  nothing else. The ten row blocks are disjoint and fill the array, so after the last point the whole array holds
  that function of the five inputs.
-/
import proofs.«138892_j2886218022956_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The origin of a rank-2 block, as the constant function. -/
theorem origin2' : (![0, 0] : Fin 2 → Nat) = fun _ => 0 := funext fun a => by fin_cases a <;> rfl

/-- One entry of the body's result. With `h` the row block and `mu`, `va`, `g`, `be` the four rows (mean, variance,
    scale, shift), the entry at row `r`, column `j` is
    `max (((g j * (h r j - mu j)) * rsqrt (va j + ε)) + be j) 0`, the products and sums associated as written.
    Every shape cast is an identity, every row broadcast copies the single row to all rows, and the two scalar
    broadcasts read their literal everywhere. -/
theorem norm3_entry (h : Vec Ideal S5000x128 .f32) (mu va g be : Vec Ideal S1x128 .f32) (r : Fin 5000) (j : Fin 128) :
    k3_pay1 h mu va g be (ix2 r j)
      = max (((g (ix2 (0 : Fin 1) j) * (h (ix2 r j) - mu (ix2 (0 : Fin 1) j)))
              * Ideal.rsqrt (va (ix2 (0 : Fin 1) j) + Ideal.ofBits .f32 0x3727C5AC#32))
            + be (ix2 (0 : Fin 1) j))
          (Ideal.ofBits .f32 0x00000000#32) := by
  unfold k3_pay1
  refine (maximumf_apply _ _ _).trans ?_
  refine congrArg₂ max ?_ rfl
  refine (addf_apply _ _ _).trans ?_
  refine congrArg₂ (· + ·) ?_ ((broadcastTo_1b_ab_apply _ _ r j).trans (congrFun (shapeCast_self be _) _))
  refine (mulf_apply _ _ _).trans ?_
  refine congrArg₂ (· * ·) ?_ ?_
  · refine (mulf_apply _ _ _).trans ?_
    refine congrArg₂ (· * ·) ((broadcastTo_1b_ab_apply _ _ r j).trans (congrFun (shapeCast_self g _) _)) ?_
    refine (subf_apply _ _ _).trans ?_
    exact congrArg₂ (· - ·) (congrFun (shapeCast_self h _) _)
      ((broadcastTo_1b_ab_apply _ _ r j).trans (congrFun (shapeCast_self mu _) _))
  · refine (broadcastTo_1b_ab_apply _ _ r j).trans ?_
    show Ideal.rsqrt (_ + _) = _
    exact congrArg Ideal.rsqrt (congrArg₂ (· + ·) (congrFun (shapeCast_self va _) _) rfl)

/-- The same at an arbitrary index of the block. -/
theorem norm3_entry' (h : Vec Ideal S5000x128 .f32) (mu va g be : Vec Ideal S1x128 .f32) (y : S5000x128.Idx) :
    k3_pay1 h mu va g be y
      = max (((g (ix2 (0 : Fin 1) (y 1)) * (h y - mu (ix2 (0 : Fin 1) (y 1))))
              * Ideal.rsqrt (va (ix2 (0 : Fin 1) (y 1)) + Ideal.ofBits .f32 0x3727C5AC#32))
            + be (ix2 (0 : Fin 1) (y 1)))
          (Ideal.ofBits .f32 0x00000000#32) := by
  obtain ⟨r, j, rfl⟩ : ∃ (r : Fin 5000) (j : Fin 128), y = ix2 r j := ⟨y 0, y 1, eq_ix2 y⟩
  exact norm3_entry h mu va g be r j

/-- The whole result as one function of the five arrays: `h` normalised column by column with the rows `mu` (mean),
    `va` (variance), `g` (scale), `be` (shift), then clamped below at zero. -/
def normArr3 (h : S50000x128.Idx → Elt Ideal .f32) (g be mu va : S1x128.Idx → Elt Ideal .f32) :
    S50000x128.Idx → Elt Ideal .f32 :=
  fun i => max (((g (ix2 (0 : Fin 1) (i 1)) * (h i - mu (ix2 (0 : Fin 1) (i 1))))
              * Ideal.rsqrt (va (ix2 (0 : Fin 1) (i 1)) + Ideal.ofBits .f32 0x3727C5AC#32))
            + be (ix2 (0 : Fin 1) (i 1)))
          (Ideal.ofBits .f32 0x00000000#32)

/-- The scalar expression against an array entry: if the five scalars are what the arrays hold at array index `i` (the
    matrix at `i` itself, each row in column `i 1`), the expression is the result function at `i`. -/
theorem norm3_scalars (h : S50000x128.Idx → Elt Ideal .f32) (g be mu va : S1x128.Idx → Elt Ideal .f32)
    (sh sg sbe smu sva : Elt Ideal .f32) (i : S50000x128.Idx)
    (e0 : sh = h i) (e1 : sg = g (ix2 (0 : Fin 1) (i 1))) (e2 : sbe = be (ix2 (0 : Fin 1) (i 1)))
    (e3 : smu = mu (ix2 (0 : Fin 1) (i 1))) (e4 : sva = va (ix2 (0 : Fin 1) (i 1))) :
    max (((sg * (sh - smu)) * Ideal.rsqrt (sva + Ideal.ofBits .f32 0x3727C5AC#32)) + sbe)
        (Ideal.ofBits .f32 0x00000000#32) = normArr3 h g be mu va i := by
  subst e0 e1 e2 e3 e4
  rfl

/-- Where the blocks sit, decided over the ten grid points: the input and the output row blocks move together, point `t`
    holds row block `t`, the column block is always the first, and each of the four rows is the same block at every point. -/
theorem norm3_maps : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val :=
  (by decide +kernel : ∀ t : Fin grid3.N, _)

/-- The input block and the output block of a point are the same rows and columns of their arrays. -/
theorem norm3_rows (t : Fin cfg3.N) (y : S5000x128.Idx) :
    ((cfg3.win 0).blk t).view.emb y = ((cfg3.win 5).blk t).view.emb y := by
  obtain ⟨e0, e1, e2, e3, e4, e5, e6, e7, e8, e9, e10, e11⟩ := norm3_maps t
  have hy0 : (y 0).val < 5000 := (y 0).isLt
  have hy1 : (y 1).val < 128 := (y 1).isLt
  funext a; apply Fin.ext
  match a with
  | ⟨0, _⟩ => show win3_0.index t (0 : Fin 2) * 5000 + 1 * (y 0).val = win3_5.index t (0 : Fin 2) * 5000 + 1 * (y 0).val; omega
  | ⟨1, _⟩ => show win3_0.index t (1 : Fin 2) * 128 + 1 * (y 1).val = win3_5.index t (1 : Fin 2) * 128 + 1 * (y 1).val; omega

/-- Each row block is the whole row: its entry in column `y 1` sits in the column of the output entry. (One lemma per row.) -/
theorem norm3_row1 (t : Fin cfg3.N) (y : S5000x128.Idx) :
    ((cfg3.win 1).blk t).view.emb (ix2 (0 : Fin 1) (y 1)) = ix2 (0 : Fin 1) ((((cfg3.win 5).blk t).view.emb y) 1) := by
  obtain ⟨e0, e1, e2, e3, e4, e5, e6, e7, e8, e9, e10, e11⟩ := norm3_maps t
  have hy1 : (y 1).val < 128 := (y 1).isLt
  funext a; apply Fin.ext
  match a with
  | ⟨0, _⟩ => show win3_1.index t (0 : Fin 2) * 1 + 1 * 0 = 0; omega
  | ⟨1, _⟩ => show win3_1.index t (1 : Fin 2) * 128 + 1 * (y 1).val = win3_5.index t (1 : Fin 2) * 128 + 1 * (y 1).val; omega

theorem norm3_row2 (t : Fin cfg3.N) (y : S5000x128.Idx) :
    ((cfg3.win 2).blk t).view.emb (ix2 (0 : Fin 1) (y 1)) = ix2 (0 : Fin 1) ((((cfg3.win 5).blk t).view.emb y) 1) := by
  obtain ⟨e0, e1, e2, e3, e4, e5, e6, e7, e8, e9, e10, e11⟩ := norm3_maps t
  have hy1 : (y 1).val < 128 := (y 1).isLt
  funext a; apply Fin.ext
  match a with
  | ⟨0, _⟩ => show win3_2.index t (0 : Fin 2) * 1 + 1 * 0 = 0; omega
  | ⟨1, _⟩ => show win3_2.index t (1 : Fin 2) * 128 + 1 * (y 1).val = win3_5.index t (1 : Fin 2) * 128 + 1 * (y 1).val; omega

theorem norm3_row3 (t : Fin cfg3.N) (y : S5000x128.Idx) :
    ((cfg3.win 3).blk t).view.emb (ix2 (0 : Fin 1) (y 1)) = ix2 (0 : Fin 1) ((((cfg3.win 5).blk t).view.emb y) 1) := by
  obtain ⟨e0, e1, e2, e3, e4, e5, e6, e7, e8, e9, e10, e11⟩ := norm3_maps t
  have hy1 : (y 1).val < 128 := (y 1).isLt
  funext a; apply Fin.ext
  match a with
  | ⟨0, _⟩ => show win3_3.index t (0 : Fin 2) * 1 + 1 * 0 = 0; omega
  | ⟨1, _⟩ => show win3_3.index t (1 : Fin 2) * 128 + 1 * (y 1).val = win3_5.index t (1 : Fin 2) * 128 + 1 * (y 1).val; omega

theorem norm3_row4 (t : Fin cfg3.N) (y : S5000x128.Idx) :
    ((cfg3.win 4).blk t).view.emb (ix2 (0 : Fin 1) (y 1)) = ix2 (0 : Fin 1) ((((cfg3.win 5).blk t).view.emb y) 1) := by
  obtain ⟨e0, e1, e2, e3, e4, e5, e6, e7, e8, e9, e10, e11⟩ := norm3_maps t
  have hy1 : (y 1).val < 128 := (y 1).isLt
  funext a; apply Fin.ext
  match a with
  | ⟨0, _⟩ => show win3_4.index t (0 : Fin 2) * 1 + 1 * 0 = 0; omega
  | ⟨1, _⟩ => show win3_4.index t (1 : Fin 2) * 128 + 1 * (y 1).val = win3_5.index t (1 : Fin 2) * 128 + 1 * (y 1).val; omega

/-- The matrix block of a point, read at a block index, is the matrix read at the output entry's array index. -/
theorem norm3_read0 (c : Dev nD) (t : Fin cfg3.N) (y : S5000x128.Idx) :
    iblk3 V c 0 t y = V c (Pipeline.arrRef spec3 0) (((cfg3.win 5).blk t).view.emb y) :=
  congrArg (V c (Pipeline.arrRef spec3 0)) (norm3_rows t y)

/-- Each row's block, read in column `y 1`, is the row read in the output entry's column. (One lemma per row.) -/
theorem norm3_read1 (c : Dev nD) (t : Fin cfg3.N) (y : S5000x128.Idx) :
    iblk3 V c 1 t (ix2 (0 : Fin 1) (y 1))
      = V c (Pipeline.arrRef spec3 1) (ix2 (0 : Fin 1) ((((cfg3.win 5).blk t).view.emb y) 1)) :=
  congrArg (V c (Pipeline.arrRef spec3 1)) (norm3_row1 t y)

theorem norm3_read2 (c : Dev nD) (t : Fin cfg3.N) (y : S5000x128.Idx) :
    iblk3 V c 2 t (ix2 (0 : Fin 1) (y 1))
      = V c (Pipeline.arrRef spec3 2) (ix2 (0 : Fin 1) ((((cfg3.win 5).blk t).view.emb y) 1)) :=
  congrArg (V c (Pipeline.arrRef spec3 2)) (norm3_row2 t y)

theorem norm3_read3 (c : Dev nD) (t : Fin cfg3.N) (y : S5000x128.Idx) :
    iblk3 V c 3 t (ix2 (0 : Fin 1) (y 1))
      = V c (Pipeline.arrRef spec3 3) (ix2 (0 : Fin 1) ((((cfg3.win 5).blk t).view.emb y) 1)) :=
  congrArg (V c (Pipeline.arrRef spec3 3)) (norm3_row3 t y)

theorem norm3_read4 (c : Dev nD) (t : Fin cfg3.N) (y : S5000x128.Idx) :
    iblk3 V c 4 t (ix2 (0 : Fin 1) (y 1))
      = V c (Pipeline.arrRef spec3 4) (ix2 (0 : Fin 1) ((((cfg3.win 5).blk t).view.emb y) 1)) :=
  congrArg (V c (Pipeline.arrRef spec3 4)) (norm3_row4 t y)

/-- Block `t` of the result function, read at a block index, is the function at the entry's array index. -/
theorem norm3_readout (c : Dev nD) (t : Fin cfg3.N) (y : S5000x128.Idx) :
    ((cfg3.win 5).blk t).view.read (Elt Ideal)
        (normArr3 (V c (Pipeline.arrRef spec3 0)) (V c (Pipeline.arrRef spec3 1)) (V c (Pipeline.arrRef spec3 2))
          (V c (Pipeline.arrRef spec3 3)) (V c (Pipeline.arrRef spec3 4))) y
      = normArr3 (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb y) := rfl

/-- What grid point `t` writes back is block `t` of that function of the five arrays as the region finds them:
    the input block and the output block are the same rows, and each row block is the whole row. -/
theorem norm3_block (c : Dev nD) (t : Fin cfg3.N) :
    (dat3 (F := Ideal) V c).flushed 5 t
      = ((cfg3.win 5).blk t).view.read (Elt Ideal)
          (normArr3 (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero origin2']
  simp only [View.ld_unit_zero (S := S5000x128) origin2', View.ld_unit_zero (S := S1x128) origin2']
  funext (y : S5000x128.Idx)
  refine (norm3_entry' (iblk3 V c 0 t) (iblk3 V c 3 t) (iblk3 V c 4 t) (iblk3 V c 1 t) (iblk3 V c 2 t) y).trans ?_
  refine Eq.trans ?_ (norm3_readout V c t y).symm
  exact norm3_scalars (V c (Pipeline.arrRef spec3 0)) (V c (Pipeline.arrRef spec3 1)) (V c (Pipeline.arrRef spec3 2))
    (V c (Pipeline.arrRef spec3 3)) (V c (Pipeline.arrRef spec3 4))
    (iblk3 V c 0 t y) (iblk3 V c 1 t (ix2 (0 : Fin 1) (y 1))) (iblk3 V c 2 t (ix2 (0 : Fin 1) (y 1)))
    (iblk3 V c 3 t (ix2 (0 : Fin 1) (y 1))) (iblk3 V c 4 t (ix2 (0 : Fin 1) (y 1)))
    (((cfg3.win 5).blk t).view.emb y)
    (norm3_read0 V c t y) (norm3_read1 V c t y) (norm3_read2 V c t y) (norm3_read3 V c t y) (norm3_read4 V c t y)

/-- An index of the array lies in point `t`'s output block iff each coordinate lies in the block's range on its axis. -/
theorem norm3_mem (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v52).slice (win3_5.rect t)).set ↔ _
  rw [View.set_slice_whole, Rect.mem_set_unit]
  exact Iff.rfl

/-- Every row of the array is written: row `r` lies in the block of point `r / 5000`. -/
theorem norm3_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  obtain ⟨e0, e1, e2, e3, e4, e5, e6, e7, e8, e9, e10, e11⟩ := norm3_maps t
  refine ⟨t, flush3_5 t, ?_⟩
  rw [norm3_mem]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the normalised, clamped input, everywhere. -/
theorem norm3_array (c : Dev nD) :
    (dat3 (F := Ideal) V c).arrAt 5 cfg3.N
      = normArr3 (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => norm3_block V c t) norm3_cover

/-- Entry by entry, with the five arrays named: whatever functions the region finds in its five input arrays
    (`h` the matrix, `g` the scale row, `be` the shift row, `mu` the mean row, `va` the variance row),
    `out[r, j] = max (((g[0, j] * (h[r, j] - mu[0, j])) * rsqrt (va[0, j] + ε)) + be[0, j]) 0`, where `ε` and `0` are
    the two float literals of the body, left as words. -/
theorem norm3_apply_of (c : Dev nD) (h : S50000x128.Idx → Elt Ideal .f32) (g be mu va : S1x128.Idx → Elt Ideal .f32)
    (hh : V c (Pipeline.arrRef spec3 0) = h) (hg : V c (Pipeline.arrRef spec3 1) = g)
    (hbe : V c (Pipeline.arrRef spec3 2) = be) (hmu : V c (Pipeline.arrRef spec3 3) = mu)
    (hva : V c (Pipeline.arrRef spec3 4) = va) (r : Fin 50000) (j : Fin 128) :
    (dat3 (F := Ideal) V c).arrAt 5 cfg3.N (ix2 r j)
      = max (((g (ix2 (0 : Fin 1) j) * (h (ix2 r j) - mu (ix2 (0 : Fin 1) j)))
              * Ideal.rsqrt (va (ix2 (0 : Fin 1) j) + Ideal.ofBits .f32 0x3727C5AC#32))
            + be (ix2 (0 : Fin 1) j))
          (Ideal.ofBits .f32 0x00000000#32) := by
  subst hh hg hbe hmu hva
  exact congrFun (norm3_array V c) (ix2 r j)

end Cert.KernelIdeal.RegionVal

end
-- ==== Proof.RefAt1.lean ====
/- The reference's first layer read entry by entry, against the shared specification of batch normalisation:
   the first matrix product is a sum over the 128 contraction coordinates; the bias is added column-wise; the batch
   mean of column j is the column sum over the float constant 50000; the batch variance is the mean of the squared
   deviations; and the normalised entry (r, j) is  max (((g_j · (H_rj − mean_j)) · rsqrt (var_j + ε)) + β_j) 0.
   Every broadcast of a row vector is read at the entry's column, every column sum runs over the rows. -/
import proofs.«138892_j2886218022956_1_alg».proof.Proof.Gen.ReferenceIdeal.Read
import proofs.«138892_j2886218022956_1_alg».proof.Proof.Spec
import Idealize.ShloMosaic.Lib.ValueIdx

noncomputable section

namespace Cert.ReferenceIdeal.At

open Cert.ReferenceIdeal Idealize.ShloMosaic Idealize.ShloMosaic.ValueIdx Finite
open scoped BigOperators

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 x5 x6 : (⟨S128, .f32⟩ : BufTy).Contents (Elt Ideal))

/-! ## The index maps of the broadcasts and of the column sums, at coordinates -/

/-- The first matrix product at an entry: row r of the features against column j of the weights. -/
theorem v23_at (r : Fin 50000) (j : Fin 128) :
    Read.val_main_v23 (F := Ideal) x0 x3 (ix2 r j) = ∑ k : Fin 128, x0 (ix2 r k) * x3 (ix2 k j) := by
  rw [Read.val_main_v23_apply]
  refine Finset.sum_congr rfl fun k _ => ?_
  have el : Read.lidx_main_v23 (ix2 r j) k = ix2 r k :=
    funext fun a => Fin.ext (by match a with | ⟨0, _⟩ => rfl | ⟨1, _⟩ => rfl)
  have er : Read.ridx_main_v23 (ix2 r j) k = ix2 k j :=
    funext fun a => Fin.ext (by match a with | ⟨0, _⟩ => rfl | ⟨1, _⟩ => rfl)
  rw [el, er]

/-- The bias added to the aggregated features: entry (r, j) gets the bias of column j. -/
theorem v39_at (r : Fin 50000) (j : Fin 128) :
    Read.val_main_v39 (F := Ideal) x0 x1 x2 x3 x4 (ix2 r j)
      = Read.val_main_v36 (F := Ideal) x0 x1 x2 x3 (ix2 r j) + x4 (ix1 j) := by
  rw [Read.val_main_v39_apply, Read.val_main_v38_apply, Read.val_main_v37_apply]
  have e : Read.idx_main_v37 (Read.idx_main_v38 (ix2 r j)) = ix1 j :=
    funext fun a => Fin.ext (by match a with | ⟨0, _⟩ => rfl)
  exact congrArg (fun i => Read.val_main_v36 (F := Ideal) x0 x1 x2 x3 (ix2 r j) + x4 i) e

/-- The column sum's index map at coordinates: summand k of column j is entry (k, j). -/
theorem v40_idx (j : Fin 128) (k : Fin 50000) : Read.idx_main_v40 (ix1 j) k = ix2 k j :=
  funext fun a => Fin.ext (by match a with | ⟨0, _⟩ => rfl | ⟨1, _⟩ => rfl)

/-- The batch mean of column j: the column sum over the float constant 50000. -/
theorem v42_at (j : Fin 128) :
    Read.val_main_v42 (F := Ideal) x0 x1 x2 x3 x4 (ix1 j) = Spec.meanOf (Read.val_main_v39 (F := Ideal) x0 x1 x2 x3 x4) j := by
  rw [Read.val_main_v42_apply, Read.val_main_v40_apply, Read.val_main_v41_apply, Read.val_main_cst_7_apply,
    Read.val_main_cst_8_apply]
  unfold Spec.meanOf
  rw [Finset.sum_congr rfl fun k _ => congrArg (Read.val_main_v39 (F := Ideal) x0 x1 x2 x3 x4) (v40_idx j k)]
  show Ideal.div (Ideal.ofBits .f32 0x00000000#32 + _) _ = _
  rw [Cert.Consts.ofBits_zero, zero_add]
  rfl

/-- The deviation from the batch mean at an entry (the copy of the mean the variance reads). -/
theorem v45_at (r : Fin 50000) (j : Fin 128) :
    Read.val_main_v45 (F := Ideal) x0 x1 x2 x3 x4 (ix2 r j) = Read.val_main_v39 (F := Ideal) x0 x1 x2 x3 x4 (ix2 r j) - Spec.meanOf (Read.val_main_v39 (F := Ideal) x0 x1 x2 x3 x4) j := by
  rw [Read.val_main_v45_apply, Read.val_main_v44_apply, Read.val_main_v43_apply]
  have e : Read.idx_main_v43 (Read.idx_main_v44 (ix2 r j)) = ix1 j :=
    funext fun a => Fin.ext (by match a with | ⟨0, _⟩ => rfl)
  rw [e, v42_at]
  rfl

/-- The squared deviation at an entry. -/
theorem v46_at (r : Fin 50000) (j : Fin 128) :
    Read.val_main_v46 (F := Ideal) x0 x1 x2 x3 x4 (ix2 r j)
      = (Read.val_main_v39 (F := Ideal) x0 x1 x2 x3 x4 (ix2 r j) - Spec.meanOf (Read.val_main_v39 (F := Ideal) x0 x1 x2 x3 x4) j) * (Read.val_main_v39 (F := Ideal) x0 x1 x2 x3 x4 (ix2 r j) - Spec.meanOf (Read.val_main_v39 (F := Ideal) x0 x1 x2 x3 x4) j) := by
  rw [Read.val_main_v46_apply, v45_at]
  rfl

/-- The second column sum's index map at coordinates. -/
theorem v47_idx (j : Fin 128) (k : Fin 50000) : Read.idx_main_v47 (ix1 j) k = ix2 k j :=
  funext fun a => Fin.ext (by match a with | ⟨0, _⟩ => rfl | ⟨1, _⟩ => rfl)

/-- The batch variance of column j: the mean of the squared deviations from the mean. -/
theorem v49_at (j : Fin 128) :
    Read.val_main_v49 (F := Ideal) x0 x1 x2 x3 x4 (ix1 j) = Spec.varOf (Read.val_main_v39 (F := Ideal) x0 x1 x2 x3 x4) j := by
  rw [Read.val_main_v49_apply, Read.val_main_v47_apply, Read.val_main_v48_apply, Read.val_main_cst_9_apply,
    Read.val_main_cst_10_apply]
  unfold Spec.varOf
  rw [Finset.sum_congr rfl fun k _ =>
    (congrArg (Read.val_main_v46 (F := Ideal) x0 x1 x2 x3 x4) (v47_idx j k)).trans (v46_at x0 x1 x2 x3 x4 k j)]
  show Ideal.div (Ideal.ofBits .f32 0x00000000#32 + _) _ = _
  rw [Cert.Consts.ofBits_zero, zero_add]
  rfl

/-- The deviation from the batch mean at an entry (the copy the normalisation reads). -/
theorem v52_at (r : Fin 50000) (j : Fin 128) :
    Read.val_main_v52 (F := Ideal) x0 x1 x2 x3 x4 (ix2 r j) = Read.val_main_v39 (F := Ideal) x0 x1 x2 x3 x4 (ix2 r j) - Spec.meanOf (Read.val_main_v39 (F := Ideal) x0 x1 x2 x3 x4) j := by
  rw [Read.val_main_v52_apply, Read.val_main_v51_apply, Read.val_main_v50_apply]
  have e : Read.idx_main_v50 (Read.idx_main_v51 (ix2 r j)) = ix1 j :=
    funext fun a => Fin.ext (by match a with | ⟨0, _⟩ => rfl)
  rw [e, v42_at]
  rfl

/-- The reciprocal standard deviation of column j: rsqrt of the variance plus epsilon. -/
theorem v58_at (j : Fin 128) :
    Read.val_main_v58 (F := Ideal) x0 x1 x2 x3 x4 (ix1 j) = Ideal.rsqrt (Spec.varOf (Read.val_main_v39 (F := Ideal) x0 x1 x2 x3 x4) j + Spec.eps) := by
  rw [Read.val_main_v58_apply, Read.val_main_v57_apply, Read.val_main_v56_apply, Read.val_main_cst_11_apply, v49_at]
  rfl

/-- The normalised, scaled, shifted and rectified entry (r, j). -/
theorem v65_at (r : Fin 50000) (j : Fin 128) :
    Read.val_main_v65 (F := Ideal) x0 x1 x2 x3 x4 x5 x6 (ix2 r j)
      = Spec.bnOut (Read.val_main_v39 (F := Ideal) x0 x1 x2 x3 x4) x5 x6 (Spec.varOf (Read.val_main_v39 (F := Ideal) x0 x1 x2 x3 x4)) r j := by
  rw [Read.val_main_v65_apply, Read.val_main_call0_v0_apply, Read.val_main_call0_cst_apply, Read.val_main_v64_apply,
    Read.val_main_v63_apply, Read.val_main_v62_apply, Read.val_main_v61_apply, Read.val_main_v60_apply,
    Read.val_main_v59_apply, Read.val_main_v55_apply, Read.val_main_v54_apply, Read.val_main_v53_apply, v52_at]
  have e6 : Read.idx_main_v62 (Read.idx_main_v63 (ix2 r j)) = ix1 j :=
    funext fun a => Fin.ext (by match a with | ⟨0, _⟩ => rfl)
  have e5 : Read.idx_main_v53 (Read.idx_main_v54 (ix2 r j)) = ix1 j :=
    funext fun a => Fin.ext (by match a with | ⟨0, _⟩ => rfl)
  have es : Read.idx_main_v59 (Read.idx_main_v60 (ix2 r j)) = ix1 j :=
    funext fun a => Fin.ext (by match a with | ⟨0, _⟩ => rfl)
  rw [e6, e5, es, v58_at]
  rfl

/-- When the pre-normalisation array and the scale and shift vectors have finite entries, so has the rectified output. -/
theorem v65_finite (h39 : AllFin (s := S50000x128) (Read.val_main_v39 (F := Ideal) x0 x1 x2 x3 x4))
    (h5 : AllFin (s := S128) x5) (h6 : AllFin (s := S128) x6) :
    AllFin (s := S50000x128) (Read.val_main_v65 (F := Ideal) x0 x1 x2 x3 x4 x5 x6) := by
  intro i
  obtain ⟨r, j, rfl⟩ : ∃ (r : Fin 50000) (j : Fin 128), i = ix2 r j := ⟨i 0, i 1, eq_ix2 i⟩
  rw [v65_at]
  exact Spec.bnOut_fin _ h39 x5 x6 h5 h6 r j

end Cert.ReferenceIdeal.At

end
-- ==== Proof.LibUnitReshapes.lean ====
/-
  Reshapes that only add or drop an axis of extent one, read at an index.

  A reshape keeps the row-major position.  A vector of n entries seen as a column [n, 1] has entry p at (p, 0); seen
  as a row [1, n] it has entry c at (0, c); and a column [n, 1] seen as a vector has entry (p, 0) at p.
-/
import Idealize.ShloMosaic.Lib.ValueIdx
import Idealize.ShloMosaic.Lib.Pipeline.Value

noncomputable section

namespace UnitReshapes

open Idealize.ShloMosaic Idealize.ShloMosaic.ValueIdx

variable {α : Type}

/-- A vector seen as a column reads entry p at (p, 0). -/
theorem asColumn_apply {n : Nat} (h : (⟨1, ![n]⟩ : Shape).ShapeCasts ⟨2, ![n, 1]⟩) (x : (⟨1, ![n]⟩ : Shape).Idx → α) (p : Fin n) :
    shapeCast (⟨2, ![n, 1]⟩ : Shape) x h (ix2 p (0 : Fin 1)) = x (ix1 p) :=
  shapeCast_apply x h _ (ix1 p) (by
    rw [Shape.rowMajor_val_one, Shape.rowMajor_val_two]
    show p.val = p.val * 1 + 0
    omega)

/-- A vector seen as a row reads entry c at (0, c). -/
theorem asRow_apply {n : Nat} (h : (⟨1, ![n]⟩ : Shape).ShapeCasts ⟨2, ![1, n]⟩) (x : (⟨1, ![n]⟩ : Shape).Idx → α) (c : Fin n) :
    shapeCast (⟨2, ![1, n]⟩ : Shape) x h (ix2 (0 : Fin 1) c) = x (ix1 c) :=
  shapeCast_apply x h _ (ix1 c) (by
    rw [Shape.rowMajor_val_one, Shape.rowMajor_val_two]
    show c.val = 0 * n + c.val
    omega)

/-- A column seen as a vector reads entry (p, 0) at p. -/
theorem ofColumn_apply {n : Nat} (h : (⟨2, ![n, 1]⟩ : Shape).ShapeCasts ⟨1, ![n]⟩) (x : (⟨2, ![n, 1]⟩ : Shape).Idx → α) (p : Fin n) :
    shapeCast (⟨1, ![n]⟩ : Shape) x h (ix1 p) = x (ix2 p (0 : Fin 1)) :=
  shapeCast_apply x h _ (ix2 p (0 : Fin 1)) (by
    rw [Shape.rowMajor_val_one, Shape.rowMajor_val_two]
    show p.val * 1 + 0 = p.val
    omega)

end UnitReshapes

end
-- ==== Proof.LibRowReshape.lean ====
/-
  A one-row matrix seen as a vector: entry c of the vector is entry (0, c) of the row.
-/
import Idealize.ShloMosaic.Lib.ValueIdx
import Idealize.ShloMosaic.Lib.Pipeline.Value

noncomputable section

namespace RowReshape

open Idealize.ShloMosaic Idealize.ShloMosaic.ValueIdx

variable {α : Type}

/-- A row seen as a vector reads entry (0, c) at c. -/
theorem ofRow_apply {n : Nat} (h : (⟨2, ![1, n]⟩ : Shape).ShapeCasts ⟨1, ![n]⟩) (x : (⟨2, ![1, n]⟩ : Shape).Idx → α) (c : Fin n) :
    shapeCast (⟨1, ![n]⟩ : Shape) x h (ix1 c) = x (ix2 (0 : Fin 1) c) :=
  shapeCast_apply x h _ (ix2 (0 : Fin 1) c) (by
    rw [Shape.rowMajor_val_one, Shape.rowMajor_val_two]
    show 0 * n + c.val = c.val
    omega)

end RowReshape

end
-- ==== Proof.KernelLayer1.lean ====
/-
  The first layer of the kernel program, boundary by boundary, against the reference's stages.

  Product region, then a host stretch (gather by source, scale by edge weight, scatter-add by target), then the bias
  region, the statistics region, a host stretch (mean and variance of each column from the two raw moments, and the four
  vectors laid out as rows), and the normalising region.  Each boundary's contents are identified with the reference
  program's stage of the same meaning; the one place where the two programs compute differently is the variance, where
  the finiteness of the pre-activation entries is used.
-/
import proofs.«138892_j2886218022956_1_alg».proof.Proof.Carry
import proofs.«138892_j2886218022956_1_alg».proof.Proof.Spec
import proofs.«138892_j2886218022956_1_alg».proof.Proof.RegMatmul0
import proofs.«138892_j2886218022956_1_alg».proof.Proof.RegPointwiseBias1
import proofs.«138892_j2886218022956_1_alg».proof.Proof.RegStats2
import proofs.«138892_j2886218022956_1_alg».proof.Proof.RegPointwiseNorm3
import proofs.«138892_j2886218022956_1_alg».proof.Proof.RefAt1
import proofs.«138892_j2886218022956_1_alg».proof.Proof.LibUnitReshapes
import proofs.«138892_j2886218022956_1_alg».proof.Proof.LibRowReshape
import proofs.«138892_j2886218022956_1_alg».proof.Proof.Gen.ReferenceIdeal.Read
import Idealize.ShloMosaic.Lib.StableHlo.Run

set_option maxRecDepth 16384

noncomputable section

open scoped BigOperators

namespace Cert.KernelIdeal.Value

open Cert.KernelIdeal Cert.KernelIdeal.Gen Cert.KernelIdeal.RegionVal
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Layer 1: the linear map -/

/-- The product region leaves the reference's matrix product: entry (r, j) is the sum over k of the input's (r, k) times the weight's (k, j). -/
theorem product1 (c : Dev nD) :
    W2 (F := Ideal) m ρ c (Proc.devRef .tc main_v23) = Cert.ReferenceIdeal.Read.val_main_v23 (F := Ideal) (m ((c.tc : Thread nD τ).loc main_arg0)) (m ((c.tc : Thread nD τ).loc main_arg3)) := by
  refine (W2_arr m ρ c 2).trans ?_
  funext i
  obtain ⟨r, j, rfl⟩ : ∃ (r : Fin 50000) (j : Fin 128), i = ix2 r j := ⟨i 0, i 1, eq_ix2 i⟩
  exact (matmul0_apply (V1 m ρ) c _ _ (arg0At_1 m ρ c) (arg3At_1 m ρ c) r j).trans (Cert.ReferenceIdeal.At.v23_at (m ((c.tc : Thread nD τ).loc main_arg0)) (m ((c.tc : Thread nD τ).loc main_arg3)) r j).symm

/-! ## Layer 1: gather along the edges, weigh, and sum into the target nodes -/

/-- The host stretch after the product gathers its rows by source, scales them by the edge weights and adds them up by target: the reference's own operations on the reference's own operands. -/
theorem agg1 (c : Dev nD) :
    W3 (F := Ideal) m ρ c (Proc.devRef .tc main_v36) = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after (hostOps1 (F := Ideal)) (W2 m ρ c) (Proc.devRef .tc main_v36) = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3))
  host_read
  rw [product1 m ρ c, srcAt_2 m ρ c, dstAt_2 m ρ c, normAt_2 m ρ c]
  rfl

/-- The bias vector laid out as a row. -/
theorem biasrow1 (c : Dev nD) :
    W3 (F := Ideal) m ρ c (Proc.devRef .tc main_v37) = shapeCast S1x128 (m ((c.tc : Thread nD τ).loc main_arg4)) shapeCasts_S128_S1x128 := by
  show StableHlo.after (hostOps1 (F := Ideal)) (W2 m ρ c) (Proc.devRef .tc main_v37) = shapeCast S1x128 (m ((c.tc : Thread nD τ).loc main_arg4)) shapeCasts_S128_S1x128
  host_read
  rw [arg4At_2 m ρ c]
  rfl

/-- The bias region adds the row to every row of the aggregate: the reference's pre-activation array. -/
theorem hidden1 (c : Dev nD) :
    W4 (F := Ideal) m ρ c (Proc.devRef .tc main_v38) = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 2).trans ?_
  funext i
  obtain ⟨r, j, rfl⟩ : ∃ (r : Fin 50000) (j : Fin 128), i = ix2 r j := ⟨i 0, i 1, eq_ix2 i⟩
  refine (bias1_apply_of (V3 m ρ) c _ _ (agg1 m ρ c) (biasrow1 m ρ c) r j).trans ?_
  rw [Cert.ReferenceIdeal.At.v39_at, UnitReshapes.asRow_apply]

/-! ## Layer 1: the column statistics -/

/-- The statistics region's first row: column sums of the pre-activation array. -/
theorem colsum1 (c : Dev nD) (j : Fin 128) :
    W5 (F := Ideal) m ρ c (Proc.devRef .tc main_v39_0) (ix2 (0 : Fin 1) j) = ∑ r : Fin 50000, Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r j) :=
  (congrFun (W5_arr m ρ c 1) _).trans (colsum2_apply_of (V4 m ρ) c _ (hidden1 m ρ c) j)

/-- Its second row: column sums of the squares. -/
theorem colsumsq1 (c : Dev nD) (j : Fin 128) :
    W5 (F := Ideal) m ρ c (Proc.devRef .tc main_v39_1) (ix2 (0 : Fin 1) j)
      = ∑ r : Fin 50000, Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r j) * Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r j) :=
  (congrFun (W5_arr m ρ c 2) _).trans (colsumsq2_apply_of (V4 m ρ) c _ (hidden1 m ρ c) j)

/-- The host's mean of column j: the column sum over the number of rows. -/
theorem mean1_at (c : Dev nD) (j : Fin 128) :
    W6 (F := Ideal) m ρ c (Proc.devRef .tc main_v42) (ix1 j) = Spec.meanOf (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) j := by
  show StableHlo.after (hostOps3 (F := Ideal)) (W5 m ρ c) (Proc.devRef .tc main_v42) (ix1 j) = Spec.meanOf (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) j
  host_read
  show Ideal.div (shapeCast S128 (W5 m ρ c (Proc.devRef .tc main_v39_0)) shapeCasts_S1x128_S128 (ix1 j)) Spec.rows = _
  rw [RowReshape.ofRow_apply, colsum1 m ρ c j]
  rfl

/-- The host's variance of column j, from the two raw moments. -/
theorem var1_at (c : Dev nD) (j : Fin 128) :
    W6 (F := Ideal) m ρ c (Proc.devRef .tc main_v47) (ix1 j) = Spec.varOfMoments (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) j := by
  show StableHlo.after (hostOps3 (F := Ideal)) (W5 m ρ c) (Proc.devRef .tc main_v47) (ix1 j) = Spec.varOfMoments (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) j
  host_read
  show Ideal.div (shapeCast S128 (W5 m ρ c (Proc.devRef .tc main_v39_1)) shapeCasts_S1x128_S128 (ix1 j)) Spec.rows
      - Ideal.div (shapeCast S128 (W5 m ρ c (Proc.devRef .tc main_v39_0)) shapeCasts_S1x128_S128 (ix1 j)) Spec.rows
        * Ideal.div (shapeCast S128 (W5 m ρ c (Proc.devRef .tc main_v39_0)) shapeCasts_S1x128_S128 (ix1 j)) Spec.rows = _
  rw [RowReshape.ofRow_apply, RowReshape.ofRow_apply, colsum1 m ρ c j, colsumsq1 m ρ c j]
  rfl

/-- The mean vector is the reference's. -/
theorem mean1 (c : Dev nD) :
    W6 (F := Ideal) m ρ c (Proc.devRef .tc main_v42) = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨j, rfl⟩ : ∃ j : Fin 128, i = ix1 j := ⟨i 0, eq_ix1 i⟩
  exact (mean1_at m ρ c j).trans (Cert.ReferenceIdeal.At.v42_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j).symm

/-- The variance vector is the reference's when the pre-activation entries are finite: the mean of the squares minus the squared mean is the mean of the squared deviations. -/
theorem var1 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W6 (F := Ideal) m ρ c (Proc.devRef .tc main_v47) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨j, rfl⟩ : ∃ j : Fin 128, i = ix1 j := ⟨i 0, eq_ix1 i⟩
  exact ((var1_at m ρ c j).trans (Spec.varOfMoments_eq _ hH1 j)).trans (Cert.ReferenceIdeal.At.v49_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j).symm

/-! ## Layer 1: the rows the normalising region reads -/

/-- The scale vector laid out as a row. -/
theorem gammarow1 (c : Dev nD) :
    W6 (F := Ideal) m ρ c (Proc.devRef .tc main_v48) = shapeCast S1x128 (m ((c.tc : Thread nD τ).loc main_arg5)) shapeCasts_S128_S1x128 := by
  show StableHlo.after (hostOps3 (F := Ideal)) (W5 m ρ c) (Proc.devRef .tc main_v48) = shapeCast S1x128 (m ((c.tc : Thread nD τ).loc main_arg5)) shapeCasts_S128_S1x128
  host_read
  rw [arg5At_5 m ρ c]
  rfl

/-- The shift vector laid out as a row. -/
theorem betarow1 (c : Dev nD) :
    W6 (F := Ideal) m ρ c (Proc.devRef .tc main_v49) = shapeCast S1x128 (m ((c.tc : Thread nD τ).loc main_arg6)) shapeCasts_S128_S1x128 := by
  show StableHlo.after (hostOps3 (F := Ideal)) (W5 m ρ c) (Proc.devRef .tc main_v49) = shapeCast S1x128 (m ((c.tc : Thread nD τ).loc main_arg6)) shapeCasts_S128_S1x128
  host_read
  rw [arg6At_5 m ρ c]
  rfl

/-- The mean vector laid out as a row. -/
theorem meanrow1 (c : Dev nD) :
    W6 (F := Ideal) m ρ c (Proc.devRef .tc main_v50) = shapeCast S1x128 (Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S128_S1x128 := by
  refine Eq.trans ?_ (congrArg (fun a => shapeCast S1x128 a shapeCasts_S128_S1x128) (mean1 m ρ c))
  show StableHlo.after (hostOps3 (F := Ideal)) (W5 m ρ c) (Proc.devRef .tc main_v50)
      = shapeCast S1x128 (StableHlo.after (hostOps3 (F := Ideal)) (W5 m ρ c) (Proc.devRef .tc main_v42)) shapeCasts_S128_S1x128
  host_read
  rfl

/-- The variance vector laid out as a row. -/
theorem varrow1 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W6 (F := Ideal) m ρ c (Proc.devRef .tc main_v51) = shapeCast S1x128 (Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S128_S1x128 := by
  refine Eq.trans ?_ (congrArg (fun a => shapeCast S1x128 a shapeCasts_S128_S1x128) (var1 m ρ c hH1))
  show StableHlo.after (hostOps3 (F := Ideal)) (W5 m ρ c) (Proc.devRef .tc main_v51)
      = shapeCast S1x128 (StableHlo.after (hostOps3 (F := Ideal)) (W5 m ρ c) (Proc.devRef .tc main_v47)) shapeCasts_S128_S1x128
  host_read
  rfl

/-- The pre-activation array is still there after the statistics region, which only reads it … -/
theorem hidden1_afterStats (c : Dev nD) :
    W5 (F := Ideal) m ρ c (Proc.devRef .tc main_v38) = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ((W5_arr m ρ c 0).trans (((dat2 (V4 m ρ) c).arrAt_in 0 rfl _).trans (A_eq2 (V4 m ρ) c 0))).trans (hidden1 m ρ c)

/-- … and after the host stretch that follows, which does not write it. -/
theorem hidden1_atNorm (c : Dev nD) :
    W6 (F := Ideal) m ρ c (Proc.devRef .tc main_v38) = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (hidden1_afterStats m ρ c)
  show StableHlo.after (hostOps3 (F := Ideal)) (W5 m ρ c) (Proc.devRef .tc main_v38) = W5 m ρ c (Proc.devRef .tc main_v38)
  after_results_simp

/-! ## Layer 1: normalise, scale, shift, clamp at zero -/

/-- The normalising region leaves the reference's activation array. -/
theorem act1 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W7 (F := Ideal) m ρ c (Proc.devRef .tc main_v52) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W7_arr m ρ c 5).trans ?_
  funext i
  obtain ⟨r, j, rfl⟩ : ∃ (r : Fin 50000) (j : Fin 128), i = ix2 r j := ⟨i 0, i 1, eq_ix2 i⟩
  refine (norm3_apply_of (V6 m ρ) c _ _ _ _ _ (hidden1_atNorm m ρ c) (gammarow1 m ρ c) (betarow1 m ρ c)
    (meanrow1 m ρ c) (varrow1 m ρ c hH1) r j).trans ?_
  rw [Cert.ReferenceIdeal.At.v65_at, UnitReshapes.asRow_apply, UnitReshapes.asRow_apply, UnitReshapes.asRow_apply, UnitReshapes.asRow_apply,
    Cert.ReferenceIdeal.At.v42_at, Cert.ReferenceIdeal.At.v49_at]
  rfl

end Cert.KernelIdeal.Value

end
-- ==== Proof.RegMatmul4.lean ====
/- Region 4 computes the matrix product X · W of the 50000×128 array X (the activations the preceding regions
   left) by the 128×128 array W, 5000 rows at a time: grid point t loads rows 5000·t … 5000·t + 4999 of X and all of
   W, and stores those rows of the product. So entry (r, j) of the output depends on row r of X and column j of W
   only:  ∑ k : Fin 128, X (r, k) · W (k, j).  The ten blocks of rows tile the output, so every entry is written,
   by the point r / 5000. -/
import proofs.«138892_j2886218022956_1_alg».proof.Proof.Gen.KernelIdeal.Frame
import proofs.«138892_j2886218022956_1_alg».proof.Proof.RegMatmulDot
import Idealize.ShloMosaic.Lib.Pipeline.Value
import Idealize.ShloMosaic.Lib.ValueIdx

set_option maxRecDepth 16384

noncomputable section

namespace Cert.KernelIdeal.RegionVal

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## One block -/

/-- The body's stored value at entry (r, j) of its block: the two loaded blocks change format (the identity on the
    extended reals) and are multiplied into zero, so the entry is row `r` of the first against column `j` of the second. -/
theorem matmul4_payload (x0 : Vec Ideal S5000x128 .f32) (x1 : Vec Ideal S128x128 .f32) (r : Fin 5000) (j : Fin 128) :
    k4_pay1 (F := Ideal) x0 x1 (ix2 r j) = ∑ k : Fin 128, x0 (ix2 r k) * x1 (ix2 k j) := by
  unfold k4_pay1
  refine (blockProd128_apply _ _ r j).trans ?_
  refine Finset.sum_congr rfl fun k _ => ?_
  have hc := congrFun (shapeCast_self x0 Facts₀.shapeCasts_S5000x128_S5000x128) (ix2 (n0 := 5000) (n1 := 128) r k)
  exact congrArg (fun a : EReal => a * x1 (ix2 (n0 := 128) (n1 := 128) k j)) hc

/-- The same at any index of the block, by its coordinates. -/
theorem matmul4_payload_at (x0 : Vec Ideal S5000x128 .f32) (x1 : Vec Ideal S128x128 .f32) (y : S5000x128.Idx) :
    k4_pay1 (F := Ideal) x0 x1 y
      = ∑ k : Fin 128, x0 (ix2 (n0 := 5000) (n1 := 128) (y 0) k) * x1 (ix2 (n0 := 128) (n1 := 128) k (y 1)) := by
  obtain ⟨r, j, rfl⟩ : ∃ (r : Fin 5000) (j : Fin 128), y = ix2 r j := ⟨y 0, y 1, eq_ix2 y⟩
  exact matmul4_payload x0 x1 r j

/-! ## From blocks to the array -/

/-- The product of a 50000×128 array by a 128×128 array, entry by entry: row `i 0` against column `i 1`. -/
def product4 (X : S50000x128.Idx → EReal) (W : S128x128.Idx → EReal) (i : S50000x128.Idx) : EReal :=
  ∑ k : Fin 128, X (ix2 (n0 := 50000) (n1 := 128) (i 0) k) * W (ix2 (n0 := 128) (n1 := 128) k (i 1))

theorem zero_offsets4 : (![0, 0] : Fin 2 → Nat) = fun _ => 0 := funext fun a => by fin_cases a <;> rfl

/-- Where the blocks sit, decided over the ten grid points: point `t` takes row block `t` of the first operand and of
    the output (block column 0), and the whole second operand (block (0, 0)). -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Point `t` writes back block `t` of the product: row `y 0` of the block is array row 5000·t + `y 0`, the first
    operand's block holds exactly those rows of its array, and the second operand's block is the whole matrix. -/
theorem matmul4_flushed (c : Dev nD) (t : Fin cfg4.N) :
    (dat4 (F := Ideal) V c).flushed 2 t
      = ((cfg4.win 2).blk t).view.read (Elt Ideal)
          (product4 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_offsets4]
  simp only [View.ld_unit_zero (S := S5000x128) zero_offsets4, View.ld_unit_zero (S := S128x128) zero_offsets4]
  obtain ⟨e0, e1, e2, e3, e4, e5⟩ := block_indices4 t
  funext y
  show k4_pay1 (F := Ideal) (iblk4 V c 0 t) (iblk4 V c 1 t) y
    = product4 (V c (Pipeline.arrRef spec4 0)) (V c (Pipeline.arrRef spec4 1)) (((cfg4.win 2).blk t).view.emb y)
  refine (matmul4_payload_at (iblk4 V c 0 t) (iblk4 V c 1 t) y).trans ?_
  unfold product4
  refine Finset.sum_congr rfl fun k _ => ?_
  have h0 : ((cfg4.win 0).blk t).view.emb (ix2 (n0 := 5000) (n1 := 128) (y 0) k)
      = ix2 (n0 := 50000) (n1 := 128) ((((cfg4.win 2).blk t).view.emb y) 0) k := by
    funext a; apply Fin.ext
    match a with
    | ⟨0, _⟩ => show win4_0.index t (0 : Fin 2) * 5000 + 1 * (y 0).val = win4_2.index t (0 : Fin 2) * 5000 + 1 * (y 0).val; omega
    | ⟨1, _⟩ => show win4_0.index t (1 : Fin 2) * 128 + 1 * k.val = k.val; omega
  have h1 : ((cfg4.win 1).blk t).view.emb (ix2 (n0 := 128) (n1 := 128) k (y 1))
      = ix2 (n0 := 128) (n1 := 128) k ((((cfg4.win 2).blk t).view.emb y) 1) := by
    funext a; apply Fin.ext
    match a with
    | ⟨0, _⟩ => show win4_1.index t (0 : Fin 2) * 128 + 1 * k.val = k.val; omega
    | ⟨1, _⟩ => show win4_1.index t (1 : Fin 2) * 128 + 1 * (y 1).val = win4_2.index t (1 : Fin 2) * 128 + 1 * (y 1).val; omega
  exact congrArg₂ (fun a b : EReal => a * b)
    (congrArg (V c (Pipeline.arrRef spec4 0)) h0) (congrArg (V c (Pipeline.arrRef spec4 1)) h1)

/-- An index of the output array is in point `t`'s block iff each coordinate is in the block's range on its axis. -/
theorem matmul4_mem_block (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v53).slice (win4_2.rect t)).set ↔ _
  rw [View.set_slice_whole, Rect.mem_set_unit]
  exact Iff.rfl

/-- Every entry of the output is written: row `r` lies in the block of point `r / 5000`. -/
theorem matmul4_cover (i : S50000x128.Idx) :
    ∃ t : Fin cfg4.N, (cfg4.win 2).flush t = true ∧ i ∈ ((cfg4.win 2).blk t).view.set := by
  have hi0 : (i 0).val < 50000 := idx2_lt0 i
  have hi1 : (i 1).val < 128 := idx2_lt1 i
  obtain ⟨t, ht⟩ : ∃ t : Fin cfg4.N, t.val = (i 0).val / 5000 :=
    ⟨⟨(i 0).val / 5000, by show _ < grid4.N; rw [N_4]; omega⟩, rfl⟩
  obtain ⟨-, -, -, -, e4, e5⟩ := block_indices4 t
  refine ⟨t, flush4_2 t, ?_⟩
  rw [matmul4_mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region is the product of the two operand arrays as the region finds them. -/
theorem matmul4_array (c : Dev nD) :
    (dat4 (F := Ideal) V c).arrAt 2 cfg4.N
      = product4 (V c (Pipeline.arrRef spec4 0)) (V c (Pipeline.arrRef spec4 1)) :=
  (dat4 (F := Ideal) V c).arrAt_eq_of_cover 2
    (product4 (V c (Pipeline.arrRef spec4 0)) (V c (Pipeline.arrRef spec4 1)))
    (fun t _ => matmul4_flushed V c t) matmul4_cover

/-- Entry (r, j) of the output array after the region, the operand arrays named: row `r` of the first against
    column `j` of the second. -/
theorem matmul4_apply (c : Dev nD) (X : S50000x128.Idx → Elt Ideal .f32) (W : S128x128.Idx → Elt Ideal .f32)
    (hX : V c (Pipeline.arrRef spec4 0) = X) (hW : V c (Pipeline.arrRef spec4 1) = W) (r : Fin 50000) (j : Fin 128) :
    (dat4 (F := Ideal) V c).arrAt 2 cfg4.N (ix2 r j) = ∑ k : Fin 128, X (ix2 r k) * W (ix2 k j) := by
  subst hX hW
  exact congrFun (matmul4_array V c) (ix2 r j)

end Cert.KernelIdeal.RegionVal

end
-- ==== Proof.RegPointwiseBias5.lean ====
/-
  Region 5 adds a bias row to a matrix: out[r, j] = a[r, j] + b[0, j] for the 50000 × 128 array `a` and the
  1 × 128 row `b`. The grid has ten points; point t reads rows 5000 t … 5000 t + 4999 of `a` and the whole row `b`,
  and writes the same rows of the result. An entry of the result depends on the one entry of `a` at its own position
  and on the one entry of `b` in its own column, on nothing else. The ten row blocks are disjoint and fill the array,
  so after the last point the whole array holds the sum.
-/
import proofs.«138892_j2886218022956_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The origin of a rank-2 block, as the constant function. -/
theorem origin2 : (![0, 0] : Fin 2 → Nat) = fun _ => 0 := funext fun a => by fin_cases a <;> rfl

/-- One entry of the body's result: the entry of the row block plus the bias entry of the same column.
    The two shape casts are identities and the broadcast copies the single bias row to every row. -/
theorem bias5_entry (x0 : Vec Ideal S5000x128 .f32) (x1 : Vec Ideal S1x128 .f32) (r : Fin 5000) (j : Fin 128) :
    k5_pay1 x0 x1 (ix2 r j) = x0 (ix2 r j) + x1 (ix2 (0 : Fin 1) j) := by
  unfold k5_pay1
  refine (addf_apply _ _ _).trans ?_
  refine congrArg₂ (· + ·) (congrFun (shapeCast_self x0 _) _) ?_
  refine (broadcastTo_1b_ab_apply _ _ r j).trans ?_
  exact congrFun (shapeCast_self x1 _) _

/-- The same at an arbitrary index of the block. -/
theorem bias5_entry' (x0 : Vec Ideal S5000x128 .f32) (x1 : Vec Ideal S1x128 .f32) (y : S5000x128.Idx) :
    k5_pay1 x0 x1 y = x0 y + x1 (ix2 (0 : Fin 1) (y 1)) := by
  obtain ⟨r, j, rfl⟩ : ∃ (r : Fin 5000) (j : Fin 128), y = ix2 r j := ⟨y 0, y 1, eq_ix2 y⟩
  exact bias5_entry x0 x1 r j

/-- The whole result as one function of the two arrays: each entry of the input plus the bias entry of its column. -/
def biasArr5 (a : S50000x128.Idx → Elt Ideal .f32) (b : S1x128.Idx → Elt Ideal .f32) : S50000x128.Idx → Elt Ideal .f32 :=
  fun i => a i + b (ix2 (0 : Fin 1) (i 1))

/-- Where the blocks sit, decided over the ten grid points: the input and the output row blocks move together, point `t`
    holds row block `t`, the column block is always the first, and the bias row is the same block at every point. -/
theorem bias5_maps : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) = t.val :=
  (by decide +kernel : ∀ t : Fin grid5.N, _)

/-- What grid point `t` writes back is block `t` of that function of the two arrays as the region finds them:
    the input block and the output block are the same rows, and the bias block is the whole bias row. -/
theorem bias5_block (c : Dev nD) (t : Fin cfg5.N) :
    (dat5 (F := Ideal) V c).flushed 2 t
      = ((cfg5.win 2).blk t).view.read (Elt Ideal) (biasArr5 (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero origin2]
  simp only [View.ld_unit_zero (S := S5000x128) origin2, View.ld_unit_zero (S := S1x128) origin2]
  funext (y : S5000x128.Idx)
  refine (bias5_entry' (iblk5 V c 0 t) (iblk5 V c 1 t) y).trans ?_
  obtain ⟨e0, e1, e2, e3, e4, e5⟩ := bias5_maps t
  have hy0 : (y 0).val < 5000 := (y 0).isLt
  have hy1 : (y 1).val < 128 := (y 1).isLt
  have h0 : ((cfg5.win 0).blk t).view.emb y = ((cfg5.win 2).blk t).view.emb y := by
    funext a; apply Fin.ext
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 128 + 1 * (y 1).val = win5_2.index t (1 : Fin 2) * 128 + 1 * (y 1).val; omega
  have h1 : ((cfg5.win 1).blk t).view.emb (ix2 (0 : Fin 1) (y 1))
      = ix2 (0 : Fin 1) ((((cfg5.win 2).blk t).view.emb y) 1) := by
    funext a; apply Fin.ext
    match a with
    | ⟨0, _⟩ => show win5_1.index t (0 : Fin 2) * 1 + 1 * 0 = 0; omega
    | ⟨1, _⟩ => show win5_1.index t (1 : Fin 2) * 128 + 1 * (y 1).val = win5_2.index t (1 : Fin 2) * 128 + 1 * (y 1).val; omega
  exact congrArg₂ (· + ·) (congrArg (V c (Pipeline.arrRef spec5 0)) h0) (congrArg (V c (Pipeline.arrRef spec5 1)) h1)

/-- An index of the array lies in point `t`'s output block iff each coordinate lies in the block's range on its axis. -/
theorem bias5_mem (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v68).slice (win5_2.rect t)).set ↔ _
  rw [View.set_slice_whole, Rect.mem_set_unit]
  exact Iff.rfl

/-- Every row of the array is written: row `r` lies in the block of point `r / 5000`. -/
theorem bias5_cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ : ∃ t : Fin cfg5.N, t.val = (i 0).val / 5000 :=
    ⟨⟨(i 0).val / 5000, by show _ < grid5.N; rw [N_5]; omega⟩, rfl⟩
  obtain ⟨e0, e1, e2, e3, e4, e5⟩ := bias5_maps t
  refine ⟨t, flush5_2 t, ?_⟩
  rw [bias5_mem]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region: the input plus the bias row, everywhere. -/
theorem bias5_array (c : Dev nD) :
    (dat5 (F := Ideal) V c).arrAt 2 cfg5.N = biasArr5 (V c (Pipeline.arrRef spec5 0)) (V c (Pipeline.arrRef spec5 1)) :=
  (dat5 (F := Ideal) V c).arrAt_eq_of_cover 2 _ (fun t _ => bias5_block V c t) bias5_cover

/-- Entry by entry: `out[r, j] = a[r, j] + b[0, j]` (the sum is the extended reals'). -/
theorem bias5_apply (c : Dev nD) (r : Fin 50000) (j : Fin 128) :
    (dat5 (F := Ideal) V c).arrAt 2 cfg5.N (ix2 r j)
      = HAdd.hAdd (α := Elt Ideal .f32) (β := Elt Ideal .f32) (γ := Elt Ideal .f32)
          (V c (Pipeline.arrRef spec5 0) (ix2 r j)) (V c (Pipeline.arrRef spec5 1) (ix2 (0 : Fin 1) j)) :=
  congrFun (bias5_array V c) (ix2 r j)

/-- The same with the two arrays named: whatever functions `a`, `b` the region finds in its two input arrays. -/
theorem bias5_apply_of (c : Dev nD) (a : S50000x128.Idx → Elt Ideal .f32) (b : S1x128.Idx → Elt Ideal .f32)
    (ha : V c (Pipeline.arrRef spec5 0) = a) (hb : V c (Pipeline.arrRef spec5 1) = b) (r : Fin 50000) (j : Fin 128) :
    (dat5 (F := Ideal) V c).arrAt 2 cfg5.N (ix2 r j) = a (ix2 r j) + b (ix2 (0 : Fin 1) j) := by
  subst ha hb
  exact bias5_apply V c r j

end Cert.KernelIdeal.RegionVal

end
-- ==== Proof.RegStats6Pay.lean ====
/-
  Region 6 computes batch-norm statistics of a 50000 x 128 array h, 5000 rows per grid point: it keeps two
  1 x 128 rows, the running column sums of h and of h*h. This module reads the body's arithmetic at an entry, over
  the extended reals: the row the first point stores is zero, and one point's update of lane j adds to the old
  value the sum over the block's 5000 rows q of the entry (q, j), resp. of its square. An updated lane depends on
  the old lane j and on column j of the block only.
-/
import proofs.«138892_j2886218022956_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RegionVal

open Cert.KernelIdeal Cert.KernelIdeal.Gen Idealize.ShloMosaic Idealize.ShloMosaic.ValueIdx

/-- The row the first grid point stores before accumulating is the zero word, which is the extended real 0. -/
theorem zeroRowA6_apply (j : Fin 128) : k6_pay1 (F := Ideal) (ix2 (0 : Fin 1) j) = 0 := by
  unfold k6_pay1
  exact Ideal.ofBits_zero_f32

theorem zeroRowB6_apply (j : Fin 128) : k6_pay2 (F := Ideal) (ix2 (0 : Fin 1) j) = 0 := by
  unfold k6_pay2
  exact Ideal.ofBits_zero_f32

/-- Reducing a 5000 x 128 block along its rows: lane j of the result collects the entries (q, j). -/
theorem rowsLift6 (j : Fin 128) (q : Fin 5000) :
    reduces_S5000x128_S128.lift (fun a => (ix2 (0 : Fin 1) j : S1x128.Idx) a.succ) q = ix2 q j := by
  funext a
  match a with
  | ⟨0, _⟩ => rfl
  | ⟨1, _⟩ => rfl

/-- The new running column sum: the old one plus the sum of the block's column j over its 5000 rows. -/
theorem colsumStep6_apply (x0 : Vec Ideal S5000x128 .f32) (x1 : Vec Ideal S1x128 .f32) (j : Fin 128) :
    k6_pay4 (F := Ideal) x0 x1 (ix2 (0 : Fin 1) j) = x1 (ix2 0 j) + ∑ q : Fin 5000, x0 (ix2 q j) := by
  unfold k6_pay4 k6_pay3
  rw [shapeCast_self, shapeCast_self]
  refine (addf_apply _ _ _).trans ?_
  refine congrArg (fun z => x1 (ix2 0 j) + z) ?_
  refine (shapeCast_addUnit_apply _ _ _ _).trans ?_
  refine (Ideal.multiReduction_add_single x0 _ reduces_S5000x128_S128 (.inl rfl) rfl _).trans ?_
  exact Finset.sum_congr rfl fun q _ => congrArg x0 (rowsLift6 j q)

/-- The new running column sum of squares: the old one plus the sum of the squared entries of column j. -/
theorem colsumsqStep6_apply (x0 : Vec Ideal S5000x128 .f32) (x1 : Vec Ideal S1x128 .f32) (j : Fin 128) :
    k6_pay5 (F := Ideal) x0 x1 (ix2 (0 : Fin 1) j)
      = x1 (ix2 0 j) + ∑ q : Fin 5000, x0 (ix2 q j) * x0 (ix2 q j) := by
  unfold k6_pay5 k6_pay3
  rw [shapeCast_self, shapeCast_self]
  refine (addf_apply _ _ _).trans ?_
  refine congrArg (fun z => x1 (ix2 0 j) + z) ?_
  refine (shapeCast_addUnit_apply _ _ _ _).trans ?_
  refine (Ideal.multiReduction_add_single (mulf x0 x0) _ reduces_S5000x128_S128 (.inl rfl) rfl _).trans ?_
  refine Finset.sum_congr rfl fun q _ => ?_
  refine (mulf_apply x0 x0 _).trans ?_
  rw [rowsLift6 j q]

end Cert.KernelIdeal.RegionVal
-- ==== Proof.RegStats6Body.lean ====
/-
  Region 6 (batch-norm statistics, 5000 rows of h per grid point): what the body leaves in its two 1 x 128 rows,
  for either control case and any float values. At the first point both rows are zeroed, read back, and updated;
  at every later point they are updated from what the point before left. The update of the first row is "old row
  plus column sums of the block", of the second "old row plus column sums of the block's squares".
-/
import proofs.«138892_j2886218022956_1_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.RegionVal

open Cert.KernelIdeal Cert.KernelIdeal.Gen Idealize.ShloMosaic Idealize.ShloMosaic.ValueIdx
open Idealize.ShloMosaic.TcCoe Idealize.ShloMosaic.Tactic
open Idealize.SL Idealize.SL.Sem
open Idealize.ShloMosaic.Pipeline (Dat Cfg Window)

variable {F : FTy → Type} [FloatOps F]

theorem origin6 : (![0, 0] : Fin 2 → Nat) = fun _ => 0 := funext fun a => by fin_cases a <;> rfl

/-- At a later grid point the first row is left at the update of what it held, by the block. -/
theorem keepSum6 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond6_0 i) (x0 : Vec F S5000x128 .f32) (xo1 xo2 : Vec F S1x128 .f32) :
    out6_B_1 c i a1 h1 a2 h2 a3 h3 hc x0 xo1 xo2 = k6_pay4 x0 xo1 := by
  unfold out6_B_1
  rw [View.read_writes_eq_canon _ _ _ (cover6_B_1 c i a1 h1 a2 h2 a3 h3 hc x0 xo1 xo2)]
  unfold kernelRun6_B
  dsimp only
  rw [View.canon_unit_zero origin6]
  simp only [View.readAt_eq_ld, h1.read_unread, h2.read_unread, View.ld_unit_zero (S := S5000x128) origin6,
    View.ld_unit_zero (S := S1x128) origin6]

/-- At a later grid point the second row is left at the update of what it held, by the block's squares. -/
theorem keepSumsq6 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond6_0 i) (x0 : Vec F S5000x128 .f32) (xo1 xo2 : Vec F S1x128 .f32) :
    out6_B_2 c i a1 h1 a2 h2 a3 h3 hc x0 xo1 xo2 = k6_pay5 x0 xo2 := by
  unfold out6_B_2
  rw [View.read_writes_eq_canon _ _ _ (cover6_B_2 c i a1 h1 a2 h2 a3 h3 hc x0 xo1 xo2)]
  unfold kernelRun6_B
  dsimp only
  rw [View.canon_unit_zero origin6]
  simp only [View.readAt_eq_ld, h1.read_unread, h3.read_unread, View.ld_unit_zero (S := S5000x128) origin6,
    View.ld_unit_zero (S := S1x128) origin6]

/-- At the first grid point the first row is zeroed, read back, and left at the update of the zero row. -/
theorem firstSum6 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond6_0 i) (x0 : Vec F S5000x128 .f32) :
    out6_A_1 c i a1 h1 a2 h2 a3 h3 hc x0 = k6_pay4 x0 k6_pay1 := by
  unfold out6_A_1
  rw [View.read_writes_eq_canon _ _ _ (cover6_A_1 c i a1 h1 a2 h2 a3 h3 hc x0)]
  unfold kernelRun6_A
  dsimp only
  sl_unfold_words
  rw [View.canon_cons_unit_zero (S := S1x128) origin6, View.readCov_unit_zero (S := S1x128) _ origin6]
  simp only [View.readAt_eq_ld, h1.read_unread, View.ld_unit_zero (S := S5000x128) origin6,
    View.ld_unit_zero (S := S1x128) origin6]

/-- At the first grid point the second row likewise. -/
theorem firstSumsq6 (c : Dev nD) (i : grid6.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond6_0 i) (x0 : Vec F S5000x128 .f32) :
    out6_A_2 c i a1 h1 a2 h2 a3 h3 hc x0 = k6_pay5 x0 k6_pay2 := by
  unfold out6_A_2
  rw [View.read_writes_eq_canon _ _ _ (cover6_A_2 c i a1 h1 a2 h2 a3 h3 hc x0)]
  unfold kernelRun6_A
  dsimp only
  sl_unfold_words
  rw [View.canon_cons_unit_zero (S := S1x128) origin6, View.readCov_unit_zero (S := S1x128) _ origin6]
  simp only [View.readAt_eq_ld, h1.read_unread, View.ld_unit_zero (S := S5000x128) origin6,
    View.ld_unit_zero (S := S1x128) origin6]

end Cert.KernelIdeal.RegionVal
-- ==== Proof.RegStats6.lean ====
/-
  Region 6: batch-norm statistics of h, a 50000 x 128 array, over a grid of ten points of 5000 rows each. Two
  1 x 128 arrays are kept across the points and written back once, after the last point: the column sums of h and
  the column sums of h*h. After point n lane j of the first holds the sum of column j over rows 0 .. 5000 (n+1) - 1
  (0 + the first block at the first point, then one more block per point), the second the same with squared
  entries; so after the last point lane j holds the sum over all 50000 rows. Entry (0, j) of either result depends
  on column j of h only. Sums are taken in the extended reals, an additive commutative monoid, so regrouping by
  blocks needs no finiteness.
-/
import proofs.«138892_j2886218022956_1_alg».proof.Proof.Gen.KernelIdeal.Frame
import proofs.«138892_j2886218022956_1_alg».proof.Proof.RegStatsSums
import proofs.«138892_j2886218022956_1_alg».proof.Proof.RegStats6Pay
import proofs.«138892_j2886218022956_1_alg».proof.Proof.RegStats6Body
import Idealize.ShloMosaic.Lib.ValueIdx
import Idealize.ShloMosaic.Lib.Pipeline.Value
import Idealize.ShloMosaic.Lib.Pipeline.Dat
import Idealize.ShloMosaic.Lib.Pipeline.FrameBody
import Idealize.ShloMosaic.PureOps.Ideal.Laws

set_option maxRecDepth 16384

noncomputable section

namespace Cert.KernelIdeal.RegionVal

open Cert.KernelIdeal Cert.KernelIdeal.Gen Idealize.ShloMosaic Idealize.ShloMosaic.ValueIdx
open Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- Entry (r, j) of h as the region finds it, for a natural row number r; 0 past the last row. -/
def hrow6 (c : Dev nD) (j : Fin 128) (r : ℕ) : EReal :=
  if h : r < 50000 then V c (Pipeline.arrRef spec6 0) (ix2 (⟨r, h⟩ : Fin 50000) j) else 0

/-- The block of h at grid point t starts at row 5000 t, column 0: decided over the ten points. -/
theorem hblockAt6 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)

/-- Row q of the block at point t is row 5000 t + q of h. -/
theorem blockRead6 (c : Dev nD) (t : Fin cfg6.N) (q : Fin 5000) (j : Fin 128) :
    (iblk6 V c 0 t : Vec Ideal S5000x128 .f32) (ix2 q j) = hrow6 V c j (5000 * t.val + q.val) := by
  have hN : t.val < 10 := lt_of_lt_of_eq t.isLt (show cfg6.N = 10 from N_6)
  obtain ⟨e0, e1⟩ := hblockAt6 t
  unfold hrow6
  rw [dif_pos (by omega)]
  unfold iblk6
  rw [View.read_apply]
  refine congrArg (V c (Pipeline.arrRef spec6 0)) ?_
  funext a
  apply Fin.ext
  match a with
  | ⟨0, _⟩ => show win6_0.index t (0 : Fin 2) * 5000 + 1 * q.val = 5000 * t.val + q.val; omega
  | ⟨1, _⟩ => show win6_0.index t (1 : Fin 2) * 128 + 1 * j.val = j.val; omega

/-- At the first point lane j of the two rows ends at the first block's column sum, resp. sum of squares. -/
theorem firstPoint6 (c : Dev nD) (t : Fin cfg6.N) (h0 : t.val % 10 = 0) (j : Fin 128) :
    (outsAt6 V c t.val t.isLt).1 (ix2 (0 : Fin 1) j) = ∑ q : Fin 5000, hrow6 V c j (5000 * t.val + q.val)
    ∧ (outsAt6 V c t.val t.isLt).2 (ix2 (0 : Fin 1) j)
        = ∑ q : Fin 5000, hrow6 V c j (5000 * t.val + q.val) * hrow6 V c j (5000 * t.val + q.val) := by
  rw [outsAt6_A V c t h0]
  dsimp only
  constructor
  · refine (congrFun (firstSum6 (F := Ideal) c (grid6.coords t) (ms6_0 t) (hs6_0 t) (ms6_1 t) (hs6_1 t) (ms6_2 t)
      (hs6_2 t) ((hcond6_0 t).mpr h0) (iblk6 V c 0 t)) (ix2 (0 : Fin 1) j)).trans ?_
    refine (colsumStep6_apply (iblk6 V c 0 t) (k6_pay1 (F := Ideal)) j).trans ?_
    rw [zeroRowA6_apply, zero_add]
    exact Finset.sum_congr rfl fun q _ => blockRead6 V c t q j
  · refine (congrFun (firstSumsq6 (F := Ideal) c (grid6.coords t) (ms6_0 t) (hs6_0 t) (ms6_1 t) (hs6_1 t) (ms6_2 t)
      (hs6_2 t) ((hcond6_0 t).mpr h0) (iblk6 V c 0 t)) (ix2 (0 : Fin 1) j)).trans ?_
    refine (colsumsqStep6_apply (iblk6 V c 0 t) (k6_pay2 (F := Ideal)) j).trans ?_
    rw [zeroRowB6_apply, zero_add]
    exact Finset.sum_congr rfl fun q _ => by rw [blockRead6 V c t q j]

/-- At a later point lane j of the two rows ends at what the point before left plus this block's column sum,
    resp. sum of squares. -/
theorem laterPoint6 (c : Dev nD) (t : Fin cfg6.N) (h0 : ¬t.val % 10 = 0) (j : Fin 128) :
    (outsAt6 V c t.val t.isLt).1 (ix2 (0 : Fin 1) j)
        = (outsAt6 V c (t.val - 1) (Nat.lt_of_le_of_lt (Nat.sub_le _ _) t.isLt)).1 (ix2 (0 : Fin 1) j)
          + ∑ q : Fin 5000, hrow6 V c j (5000 * t.val + q.val)
    ∧ (outsAt6 V c t.val t.isLt).2 (ix2 (0 : Fin 1) j)
        = (outsAt6 V c (t.val - 1) (Nat.lt_of_le_of_lt (Nat.sub_le _ _) t.isLt)).2 (ix2 (0 : Fin 1) j)
          + ∑ q : Fin 5000, hrow6 V c j (5000 * t.val + q.val) * hrow6 V c j (5000 * t.val + q.val) := by
  rw [outsAt6_B V c t h0]
  dsimp only
  constructor
  · refine (congrFun (keepSum6 (F := Ideal) c (grid6.coords t) (ms6_0 t) (hs6_0 t) (ms6_1 t) (hs6_1 t) (ms6_2 t)
      (hs6_2 t) (fun h => h0 ((hcond6_0 t).mp h)) (iblk6 V c 0 t)
      (outsAt6 V c (t.val - 1) (Nat.lt_of_le_of_lt (Nat.sub_le _ _) t.isLt)).1
      (outsAt6 V c (t.val - 1) (Nat.lt_of_le_of_lt (Nat.sub_le _ _) t.isLt)).2) (ix2 (0 : Fin 1) j)).trans ?_
    refine (colsumStep6_apply (iblk6 V c 0 t)
      (outsAt6 V c (t.val - 1) (Nat.lt_of_le_of_lt (Nat.sub_le _ _) t.isLt)).1 j).trans ?_
    exact congrArg (fun z => (outsAt6 V c (t.val - 1) (Nat.lt_of_le_of_lt (Nat.sub_le _ _) t.isLt)).1 (ix2 (0 : Fin 1) j) + z)
      (Finset.sum_congr rfl fun q _ => blockRead6 V c t q j)
  · refine (congrFun (keepSumsq6 (F := Ideal) c (grid6.coords t) (ms6_0 t) (hs6_0 t) (ms6_1 t) (hs6_1 t) (ms6_2 t)
      (hs6_2 t) (fun h => h0 ((hcond6_0 t).mp h)) (iblk6 V c 0 t)
      (outsAt6 V c (t.val - 1) (Nat.lt_of_le_of_lt (Nat.sub_le _ _) t.isLt)).1
      (outsAt6 V c (t.val - 1) (Nat.lt_of_le_of_lt (Nat.sub_le _ _) t.isLt)).2) (ix2 (0 : Fin 1) j)).trans ?_
    refine (colsumsqStep6_apply (iblk6 V c 0 t)
      (outsAt6 V c (t.val - 1) (Nat.lt_of_le_of_lt (Nat.sub_le _ _) t.isLt)).2 j).trans ?_
    exact congrArg (fun z => (outsAt6 V c (t.val - 1) (Nat.lt_of_le_of_lt (Nat.sub_le _ _) t.isLt)).2 (ix2 (0 : Fin 1) j) + z)
      (Finset.sum_congr rfl fun q _ => by rw [blockRead6 V c t q j])

/-- THE RUNNING SUMS. After point n lane j of the first row holds the sum of column j of h over its first
    5000 (n + 1) rows, and of the second row the sum of the squares of those entries: by induction on the point,
    each step adding one block of 5000 rows. -/
theorem running6 (c : Dev nD) (j : Fin 128) : ∀ (n : ℕ) (h : n < cfg6.N),
    (outsAt6 V c n h).1 (ix2 (0 : Fin 1) j) = ∑ r ∈ Finset.range (5000 * (n + 1)), hrow6 V c j r
    ∧ (outsAt6 V c n h).2 (ix2 (0 : Fin 1) j)
        = ∑ r ∈ Finset.range (5000 * (n + 1)), hrow6 V c j r * hrow6 V c j r
  | 0, h => by
    obtain ⟨e1, e2⟩ := firstPoint6 V c ⟨0, h⟩ rfl j
    exact ⟨e1.trans (sum_range_block_zero (hrow6 V c j)).symm,
      e2.trans (sum_range_block_zero (fun r => hrow6 V c j r * hrow6 V c j r)).symm⟩
  | n + 1, h => by
    have hN : cfg6.N = 10 := N_6
    have hB : ¬(⟨n + 1, h⟩ : Fin cfg6.N).val % 10 = 0 := by dsimp only; omega
    obtain ⟨e1, e2⟩ := laterPoint6 V c ⟨n + 1, h⟩ hB j
    obtain ⟨i1, i2⟩ := running6 c j n (Nat.lt_of_succ_lt h)
    constructor
    · refine e1.trans ?_
      rw [sum_range_block (hrow6 V c j) (n + 1)]
      exact congrArg (fun z => z + ∑ q : Fin 5000, hrow6 V c j (5000 * (n + 1) + q.val)) i1
    · refine e2.trans ?_
      rw [sum_range_block (fun r => hrow6 V c j r * hrow6 V c j r) (n + 1)]
      exact congrArg (fun z => z + ∑ q : Fin 5000, hrow6 V c j (5000 * (n + 1) + q.val) * hrow6 V c j (5000 * (n + 1) + q.val)) i2

/-- A 1 x 128 array is determined by its entries (0, j). -/
theorem rowExt6 {α : Type} (X G : S1x128.Idx → α) (h : ∀ j : Fin 128, X (ix2 (0 : Fin 1) j) = G (ix2 (0 : Fin 1) j)) :
    X = G := by
  funext i
  have e : i = ix2 (0 : Fin 1) (i 1) :=
    (eq_ix2 i).trans (congrArg (fun a : Fin 1 => ix2 a (i 1))
      (Fin.ext (by have h : (i 0).val < 1 := (i 0).isLt; show (i 0).val = 0; omega)))
  rw [e]
  exact h (i 1)

/-- What the sums array ends holding: in lane j the sum of column j of h over all 50000 rows. -/
def colsumRow6 (c : Dev nD) : S1x128.Idx → EReal := fun i => ∑ r ∈ Finset.range 50000, hrow6 V c (i 1) r

/-- What the sums-of-squares array ends holding: in lane j the sum of the squares of column j of h. -/
def colsumsqRow6 (c : Dev nD) : S1x128.Idx → EReal :=
  fun i => ∑ r ∈ Finset.range 50000, hrow6 V c (i 1) r * hrow6 V c (i 1) r

theorem sumsOrigin6 : (fun a => win6_1.index t6_9 a * main_v69_0.ty.shape.size a) = fun _ => 0 :=
  funext fun a => by fin_cases a <;> decide
theorem sumsqOrigin6 : (fun a => win6_2.index t6_9 a * main_v69_1.ty.shape.size a) = fun _ => 0 :=
  funext fun a => by fin_cases a <;> decide

/-- The one write-back of the sums, after the last point, writes the complete column sums: the window's only
    block is the whole 1 x 128 array. -/
theorem colsum6_flushed (c : Dev nD) (t : Fin cfg6.N) (hf : (cfg6.win 1).flush t = true) :
    (dat6 (F := Ideal) V c).flushed 1 t = ((cfg6.win 1).blk t).view.read (Elt Ideal) (colsumRow6 V c) := by
  have hN : cfg6.N = 10 := N_6
  have h9 : t.val = 9 := by have := (flush6_1 t).mp hf; have := t.isLt; omega
  obtain rfl : t = t6_9 := Fin.ext h9
  show (cfg6.win 1).cut (grid6.coords t6_9) ((dat6 (F := Ideal) V c).after 1 t6_9) = _
  rw [after6_1]
  refine Eq.trans ?_ (Memref.read_access_unit_zero (Elt Ideal) main_v69_0 sumsOrigin6
    (fun a => by rw [congrFun sumsOrigin6 a]; simp) (colsumRow6 V c)).symm
  exact rowExt6 _ _ fun j => (running6 V c j 9 t6_9.isLt).1

theorem colsumsq6_flushed (c : Dev nD) (t : Fin cfg6.N) (hf : (cfg6.win 2).flush t = true) :
    (dat6 (F := Ideal) V c).flushed 2 t = ((cfg6.win 2).blk t).view.read (Elt Ideal) (colsumsqRow6 V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 (F := Ideal) V c).after 2 t6_9) = _
  rw [after6_2]
  refine Eq.trans ?_ (Memref.read_access_unit_zero (Elt Ideal) main_v69_1 sumsqOrigin6
    (fun a => by rw [congrFun sumsqOrigin6 a]; simp) (colsumsqRow6 V c)).symm
  exact rowExt6 _ _ fun j => (running6 V c j 9 t6_9.isLt).2

/-- Every entry of the sums array lies in the block the last point writes back (the block is the array). -/
theorem colsum6_cover (i : S1x128.Idx) :
    ∃ t : Fin cfg6.N, (cfg6.win 1).flush t = true ∧ i ∈ ((cfg6.win 1).blk t).view.set :=
  ⟨t6_9, (flush6_1 t6_9).mpr rfl, by
    show i ∈ ((View.whole main_v69_0).slice (win6_1.rect t6_9)).set
    rw [View.set_slice_whole, Rect.mem_set_unit]
    intro a
    have h0 : (i 0 : Nat) < 1 := (i 0).isLt
    have h1 : (i 1 : Nat) < 128 := (i 1).isLt
    match a with
    | ⟨0, _⟩ =>
      show win6_1.index t6_9 0 * win6_1.size 0 ≤ (i 0 : Nat)
        ∧ (i 0 : Nat) < win6_1.index t6_9 0 * win6_1.size 0 + win6_1.xsize (grid6.coords t6_9) 0
      rw [show win6_1.index t6_9 0 * win6_1.size 0 = 0 from by decide +kernel,
        show win6_1.xsize (grid6.coords t6_9) 0 = 1 from by decide +kernel]
      omega
    | ⟨1, _⟩ =>
      show win6_1.index t6_9 1 * win6_1.size 1 ≤ (i 1 : Nat)
        ∧ (i 1 : Nat) < win6_1.index t6_9 1 * win6_1.size 1 + win6_1.xsize (grid6.coords t6_9) 1
      rw [show win6_1.index t6_9 1 * win6_1.size 1 = 0 from by decide +kernel,
        show win6_1.xsize (grid6.coords t6_9) 1 = 128 from by decide +kernel]
      omega⟩

theorem colsumsq6_cover (i : S1x128.Idx) :
    ∃ t : Fin cfg6.N, (cfg6.win 2).flush t = true ∧ i ∈ ((cfg6.win 2).blk t).view.set :=
  ⟨t6_9, (flush6_2 t6_9).mpr rfl, by
    show i ∈ ((View.whole main_v69_1).slice (win6_2.rect t6_9)).set
    rw [View.set_slice_whole, Rect.mem_set_unit]
    intro a
    have h0 : (i 0 : Nat) < 1 := (i 0).isLt
    have h1 : (i 1 : Nat) < 128 := (i 1).isLt
    match a with
    | ⟨0, _⟩ =>
      show win6_2.index t6_9 0 * win6_2.size 0 ≤ (i 0 : Nat)
        ∧ (i 0 : Nat) < win6_2.index t6_9 0 * win6_2.size 0 + win6_2.xsize (grid6.coords t6_9) 0
      rw [show win6_2.index t6_9 0 * win6_2.size 0 = 0 from by decide +kernel,
        show win6_2.xsize (grid6.coords t6_9) 0 = 1 from by decide +kernel]
      omega
    | ⟨1, _⟩ =>
      show win6_2.index t6_9 1 * win6_2.size 1 ≤ (i 1 : Nat)
        ∧ (i 1 : Nat) < win6_2.index t6_9 1 * win6_2.size 1 + win6_2.xsize (grid6.coords t6_9) 1
      rw [show win6_2.index t6_9 1 * win6_2.size 1 = 0 from by decide +kernel,
        show win6_2.xsize (grid6.coords t6_9) 1 = 128 from by decide +kernel]
      omega⟩

/-- The sums array after the region. -/
theorem colsum6_final (c : Dev nD) : (dat6 (F := Ideal) V c).arrAt 1 cfg6.N = colsumRow6 V c :=
  (dat6 (F := Ideal) V c).arrAt_eq_of_cover 1 (colsumRow6 V c) (colsum6_flushed V c) colsum6_cover

/-- The sums-of-squares array after the region. -/
theorem colsumsq6_final (c : Dev nD) : (dat6 (F := Ideal) V c).arrAt 2 cfg6.N = colsumsqRow6 V c :=
  (dat6 (F := Ideal) V c).arrAt_eq_of_cover 2 (colsumsqRow6 V c) (colsumsq6_flushed V c) colsumsq6_cover

/-- Over a named copy x of h, the row reader is x's entry. -/
theorem hrow6_of (c : Dev nD) (x : S50000x128.Idx → Elt Ideal .f32)
    (hx : V c (Pipeline.arrRef spec6 0) = x) (j : Fin 128) (r : ℕ) :
    hrow6 V c j r = if h : r < 50000 then x (ix2 (⟨r, h⟩ : Fin 50000) j) else 0 := by
  subst hx
  rfl

/-- Over a named copy x of h: lane j of the sums array ends at the sum of column j of x over its 50000 rows. -/
theorem colsum6_apply_of (c : Dev nD) (x : S50000x128.Idx → Elt Ideal .f32)
    (hx : V c (Pipeline.arrRef spec6 0) = x) (j : Fin 128) :
    (dat6 (F := Ideal) V c).arrAt 1 cfg6.N (ix2 (0 : Fin 1) j) = ∑ r : Fin 50000, x (ix2 r j) := by
  rw [colsum6_final V c]
  show ∑ r ∈ Finset.range 50000, hrow6 V c j r = _
  rw [Finset.sum_fin_eq_sum_range]
  exact Finset.sum_congr rfl fun r _ => hrow6_of V c x hx j r

/-- Over a named copy x of h: lane j of the sums-of-squares array ends at the sum of the squares of column j. -/
theorem colsumsq6_apply_of (c : Dev nD) (x : S50000x128.Idx → Elt Ideal .f32)
    (hx : V c (Pipeline.arrRef spec6 0) = x) (j : Fin 128) :
    (dat6 (F := Ideal) V c).arrAt 2 cfg6.N (ix2 (0 : Fin 1) j) = ∑ r : Fin 50000, x (ix2 r j) * x (ix2 r j) := by
  rw [colsumsq6_final V c]
  show ∑ r ∈ Finset.range 50000, hrow6 V c j r * hrow6 V c j r = _
  rw [Finset.sum_fin_eq_sum_range]
  refine Finset.sum_congr rfl fun r _ => ?_
  rw [hrow6_of V c x hx j r]
  split
  · rfl
  · exact mul_zero 0

end Cert.KernelIdeal.RegionVal
-- ==== Proof.RegPointwiseNorm7.lean ====
/-
  Region 7 applies a batch normalisation followed by a rectifier to a 50000 × 128 matrix h, column by column:
  out[r, j] = max (((g[0, j] * (h[r, j] - mu[0, j])) * rsqrt (va[0, j] + ε)) + be[0, j]) 0, where mu, va, g, be are four
  1 × 128 rows (mean, variance, scale, shift) and ε is a float literal. The grid has ten points; point t reads rows
  5000 t … 5000 t + 4999 of h and the four whole rows, and writes the same rows of the result. An entry of the result
  depends on the one entry of h at its own position and on the entry of each of the four rows in its own column, on
  nothing else. The ten row blocks are disjoint and fill the array, so after the last point the whole array holds
  that function of the five inputs.
-/
import proofs.«138892_j2886218022956_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The origin of a rank-2 block, as the constant function. -/
theorem origin2' : (![0, 0] : Fin 2 → Nat) = fun _ => 0 := funext fun a => by fin_cases a <;> rfl

/-- One entry of the body's result. With `h` the row block and `mu`, `va`, `g`, `be` the four rows (mean, variance,
    scale, shift), the entry at row `r`, column `j` is
    `max (((g j * (h r j - mu j)) * rsqrt (va j + ε)) + be j) 0`, the products and sums associated as written.
    Every shape cast is an identity, every row broadcast copies the single row to all rows, and the two scalar
    broadcasts read their literal everywhere. -/
theorem norm7_entry (h : Vec Ideal S5000x128 .f32) (mu va g be : Vec Ideal S1x128 .f32) (r : Fin 5000) (j : Fin 128) :
    k7_pay1 h mu va g be (ix2 r j)
      = max (((g (ix2 (0 : Fin 1) j) * (h (ix2 r j) - mu (ix2 (0 : Fin 1) j)))
              * Ideal.rsqrt (va (ix2 (0 : Fin 1) j) + Ideal.ofBits .f32 0x3727C5AC#32))
            + be (ix2 (0 : Fin 1) j))
          (Ideal.ofBits .f32 0x00000000#32) := by
  unfold k7_pay1
  refine (maximumf_apply _ _ _).trans ?_
  refine congrArg₂ max ?_ rfl
  refine (addf_apply _ _ _).trans ?_
  refine congrArg₂ (· + ·) ?_ ((broadcastTo_1b_ab_apply _ _ r j).trans (congrFun (shapeCast_self be _) _))
  refine (mulf_apply _ _ _).trans ?_
  refine congrArg₂ (· * ·) ?_ ?_
  · refine (mulf_apply _ _ _).trans ?_
    refine congrArg₂ (· * ·) ((broadcastTo_1b_ab_apply _ _ r j).trans (congrFun (shapeCast_self g _) _)) ?_
    refine (subf_apply _ _ _).trans ?_
    exact congrArg₂ (· - ·) (congrFun (shapeCast_self h _) _)
      ((broadcastTo_1b_ab_apply _ _ r j).trans (congrFun (shapeCast_self mu _) _))
  · refine (broadcastTo_1b_ab_apply _ _ r j).trans ?_
    show Ideal.rsqrt (_ + _) = _
    exact congrArg Ideal.rsqrt (congrArg₂ (· + ·) (congrFun (shapeCast_self va _) _) rfl)

/-- The same at an arbitrary index of the block. -/
theorem norm7_entry' (h : Vec Ideal S5000x128 .f32) (mu va g be : Vec Ideal S1x128 .f32) (y : S5000x128.Idx) :
    k7_pay1 h mu va g be y
      = max (((g (ix2 (0 : Fin 1) (y 1)) * (h y - mu (ix2 (0 : Fin 1) (y 1))))
              * Ideal.rsqrt (va (ix2 (0 : Fin 1) (y 1)) + Ideal.ofBits .f32 0x3727C5AC#32))
            + be (ix2 (0 : Fin 1) (y 1)))
          (Ideal.ofBits .f32 0x00000000#32) := by
  obtain ⟨r, j, rfl⟩ : ∃ (r : Fin 5000) (j : Fin 128), y = ix2 r j := ⟨y 0, y 1, eq_ix2 y⟩
  exact norm7_entry h mu va g be r j

/-- The whole result as one function of the five arrays: `h` normalised column by column with the rows `mu` (mean),
    `va` (variance), `g` (scale), `be` (shift), then clamped below at zero. -/
def normArr7 (h : S50000x128.Idx → Elt Ideal .f32) (g be mu va : S1x128.Idx → Elt Ideal .f32) :
    S50000x128.Idx → Elt Ideal .f32 :=
  fun i => max (((g (ix2 (0 : Fin 1) (i 1)) * (h i - mu (ix2 (0 : Fin 1) (i 1))))
              * Ideal.rsqrt (va (ix2 (0 : Fin 1) (i 1)) + Ideal.ofBits .f32 0x3727C5AC#32))
            + be (ix2 (0 : Fin 1) (i 1)))
          (Ideal.ofBits .f32 0x00000000#32)

/-- The scalar expression against an array entry: if the five scalars are what the arrays hold at array index `i` (the
    matrix at `i` itself, each row in column `i 1`), the expression is the result function at `i`. -/
theorem norm7_scalars (h : S50000x128.Idx → Elt Ideal .f32) (g be mu va : S1x128.Idx → Elt Ideal .f32)
    (sh sg sbe smu sva : Elt Ideal .f32) (i : S50000x128.Idx)
    (e0 : sh = h i) (e1 : sg = g (ix2 (0 : Fin 1) (i 1))) (e2 : sbe = be (ix2 (0 : Fin 1) (i 1)))
    (e3 : smu = mu (ix2 (0 : Fin 1) (i 1))) (e4 : sva = va (ix2 (0 : Fin 1) (i 1))) :
    max (((sg * (sh - smu)) * Ideal.rsqrt (sva + Ideal.ofBits .f32 0x3727C5AC#32)) + sbe)
        (Ideal.ofBits .f32 0x00000000#32) = normArr7 h g be mu va i := by
  subst e0 e1 e2 e3 e4
  rfl

/-- Where the blocks sit, decided over the ten grid points: the input and the output row blocks move together, point `t`
    holds row block `t`, the column block is always the first, and each of the four rows is the same block at every point. -/
theorem norm7_maps : ∀ t : Fin cfg7.N, win7_0.index t (0 : Fin 2) = win7_5.index t (0 : Fin 2)
    ∧ win7_0.index t (1 : Fin 2) = 0 ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val :=
  (by decide +kernel : ∀ t : Fin grid7.N, _)

/-- The input block and the output block of a point are the same rows and columns of their arrays. -/
theorem norm7_rows (t : Fin cfg7.N) (y : S5000x128.Idx) :
    ((cfg7.win 0).blk t).view.emb y = ((cfg7.win 5).blk t).view.emb y := by
  obtain ⟨e0, e1, e2, e3, e4, e5, e6, e7, e8, e9, e10, e11⟩ := norm7_maps t
  have hy0 : (y 0).val < 5000 := (y 0).isLt
  have hy1 : (y 1).val < 128 := (y 1).isLt
  funext a; apply Fin.ext
  match a with
  | ⟨0, _⟩ => show win7_0.index t (0 : Fin 2) * 5000 + 1 * (y 0).val = win7_5.index t (0 : Fin 2) * 5000 + 1 * (y 0).val; omega
  | ⟨1, _⟩ => show win7_0.index t (1 : Fin 2) * 128 + 1 * (y 1).val = win7_5.index t (1 : Fin 2) * 128 + 1 * (y 1).val; omega

/-- Each row block is the whole row: its entry in column `y 1` sits in the column of the output entry. (One lemma per row.) -/
theorem norm7_row1 (t : Fin cfg7.N) (y : S5000x128.Idx) :
    ((cfg7.win 1).blk t).view.emb (ix2 (0 : Fin 1) (y 1)) = ix2 (0 : Fin 1) ((((cfg7.win 5).blk t).view.emb y) 1) := by
  obtain ⟨e0, e1, e2, e3, e4, e5, e6, e7, e8, e9, e10, e11⟩ := norm7_maps t
  have hy1 : (y 1).val < 128 := (y 1).isLt
  funext a; apply Fin.ext
  match a with
  | ⟨0, _⟩ => show win7_1.index t (0 : Fin 2) * 1 + 1 * 0 = 0; omega
  | ⟨1, _⟩ => show win7_1.index t (1 : Fin 2) * 128 + 1 * (y 1).val = win7_5.index t (1 : Fin 2) * 128 + 1 * (y 1).val; omega

theorem norm7_row2 (t : Fin cfg7.N) (y : S5000x128.Idx) :
    ((cfg7.win 2).blk t).view.emb (ix2 (0 : Fin 1) (y 1)) = ix2 (0 : Fin 1) ((((cfg7.win 5).blk t).view.emb y) 1) := by
  obtain ⟨e0, e1, e2, e3, e4, e5, e6, e7, e8, e9, e10, e11⟩ := norm7_maps t
  have hy1 : (y 1).val < 128 := (y 1).isLt
  funext a; apply Fin.ext
  match a with
  | ⟨0, _⟩ => show win7_2.index t (0 : Fin 2) * 1 + 1 * 0 = 0; omega
  | ⟨1, _⟩ => show win7_2.index t (1 : Fin 2) * 128 + 1 * (y 1).val = win7_5.index t (1 : Fin 2) * 128 + 1 * (y 1).val; omega

theorem norm7_row3 (t : Fin cfg7.N) (y : S5000x128.Idx) :
    ((cfg7.win 3).blk t).view.emb (ix2 (0 : Fin 1) (y 1)) = ix2 (0 : Fin 1) ((((cfg7.win 5).blk t).view.emb y) 1) := by
  obtain ⟨e0, e1, e2, e3, e4, e5, e6, e7, e8, e9, e10, e11⟩ := norm7_maps t
  have hy1 : (y 1).val < 128 := (y 1).isLt
  funext a; apply Fin.ext
  match a with
  | ⟨0, _⟩ => show win7_3.index t (0 : Fin 2) * 1 + 1 * 0 = 0; omega
  | ⟨1, _⟩ => show win7_3.index t (1 : Fin 2) * 128 + 1 * (y 1).val = win7_5.index t (1 : Fin 2) * 128 + 1 * (y 1).val; omega

theorem norm7_row4 (t : Fin cfg7.N) (y : S5000x128.Idx) :
    ((cfg7.win 4).blk t).view.emb (ix2 (0 : Fin 1) (y 1)) = ix2 (0 : Fin 1) ((((cfg7.win 5).blk t).view.emb y) 1) := by
  obtain ⟨e0, e1, e2, e3, e4, e5, e6, e7, e8, e9, e10, e11⟩ := norm7_maps t
  have hy1 : (y 1).val < 128 := (y 1).isLt
  funext a; apply Fin.ext
  match a with
  | ⟨0, _⟩ => show win7_4.index t (0 : Fin 2) * 1 + 1 * 0 = 0; omega
  | ⟨1, _⟩ => show win7_4.index t (1 : Fin 2) * 128 + 1 * (y 1).val = win7_5.index t (1 : Fin 2) * 128 + 1 * (y 1).val; omega

/-- The matrix block of a point, read at a block index, is the matrix read at the output entry's array index. -/
theorem norm7_read0 (c : Dev nD) (t : Fin cfg7.N) (y : S5000x128.Idx) :
    iblk7 V c 0 t y = V c (Pipeline.arrRef spec7 0) (((cfg7.win 5).blk t).view.emb y) :=
  congrArg (V c (Pipeline.arrRef spec7 0)) (norm7_rows t y)

/-- Each row's block, read in column `y 1`, is the row read in the output entry's column. (One lemma per row.) -/
theorem norm7_read1 (c : Dev nD) (t : Fin cfg7.N) (y : S5000x128.Idx) :
    iblk7 V c 1 t (ix2 (0 : Fin 1) (y 1))
      = V c (Pipeline.arrRef spec7 1) (ix2 (0 : Fin 1) ((((cfg7.win 5).blk t).view.emb y) 1)) :=
  congrArg (V c (Pipeline.arrRef spec7 1)) (norm7_row1 t y)

theorem norm7_read2 (c : Dev nD) (t : Fin cfg7.N) (y : S5000x128.Idx) :
    iblk7 V c 2 t (ix2 (0 : Fin 1) (y 1))
      = V c (Pipeline.arrRef spec7 2) (ix2 (0 : Fin 1) ((((cfg7.win 5).blk t).view.emb y) 1)) :=
  congrArg (V c (Pipeline.arrRef spec7 2)) (norm7_row2 t y)

theorem norm7_read3 (c : Dev nD) (t : Fin cfg7.N) (y : S5000x128.Idx) :
    iblk7 V c 3 t (ix2 (0 : Fin 1) (y 1))
      = V c (Pipeline.arrRef spec7 3) (ix2 (0 : Fin 1) ((((cfg7.win 5).blk t).view.emb y) 1)) :=
  congrArg (V c (Pipeline.arrRef spec7 3)) (norm7_row3 t y)

theorem norm7_read4 (c : Dev nD) (t : Fin cfg7.N) (y : S5000x128.Idx) :
    iblk7 V c 4 t (ix2 (0 : Fin 1) (y 1))
      = V c (Pipeline.arrRef spec7 4) (ix2 (0 : Fin 1) ((((cfg7.win 5).blk t).view.emb y) 1)) :=
  congrArg (V c (Pipeline.arrRef spec7 4)) (norm7_row4 t y)

/-- Block `t` of the result function, read at a block index, is the function at the entry's array index. -/
theorem norm7_readout (c : Dev nD) (t : Fin cfg7.N) (y : S5000x128.Idx) :
    ((cfg7.win 5).blk t).view.read (Elt Ideal)
        (normArr7 (V c (Pipeline.arrRef spec7 0)) (V c (Pipeline.arrRef spec7 1)) (V c (Pipeline.arrRef spec7 2))
          (V c (Pipeline.arrRef spec7 3)) (V c (Pipeline.arrRef spec7 4))) y
      = normArr7 (V c (Pipeline.arrRef spec7 0)) (V c (Pipeline.arrRef spec7 1)) (V c (Pipeline.arrRef spec7 2))
          (V c (Pipeline.arrRef spec7 3)) (V c (Pipeline.arrRef spec7 4)) (((cfg7.win 5).blk t).view.emb y) := rfl

/-- What grid point `t` writes back is block `t` of that function of the five arrays as the region finds them:
    the input block and the output block are the same rows, and each row block is the whole row. -/
theorem norm7_block (c : Dev nD) (t : Fin cfg7.N) :
    (dat7 (F := Ideal) V c).flushed 5 t
      = ((cfg7.win 5).blk t).view.read (Elt Ideal)
          (normArr7 (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((dat7 (F := Ideal) V c).after 5 t) = _
  rw [after7_5]
  unfold out7_5
  rw [View.canon_unit_zero origin2']
  simp only [View.ld_unit_zero (S := S5000x128) origin2', View.ld_unit_zero (S := S1x128) origin2']
  funext (y : S5000x128.Idx)
  refine (norm7_entry' (iblk7 V c 0 t) (iblk7 V c 3 t) (iblk7 V c 4 t) (iblk7 V c 1 t) (iblk7 V c 2 t) y).trans ?_
  refine Eq.trans ?_ (norm7_readout V c t y).symm
  exact norm7_scalars (V c (Pipeline.arrRef spec7 0)) (V c (Pipeline.arrRef spec7 1)) (V c (Pipeline.arrRef spec7 2))
    (V c (Pipeline.arrRef spec7 3)) (V c (Pipeline.arrRef spec7 4))
    (iblk7 V c 0 t y) (iblk7 V c 1 t (ix2 (0 : Fin 1) (y 1))) (iblk7 V c 2 t (ix2 (0 : Fin 1) (y 1)))
    (iblk7 V c 3 t (ix2 (0 : Fin 1) (y 1))) (iblk7 V c 4 t (ix2 (0 : Fin 1) (y 1)))
    (((cfg7.win 5).blk t).view.emb y)
    (norm7_read0 V c t y) (norm7_read1 V c t y) (norm7_read2 V c t y) (norm7_read3 V c t y) (norm7_read4 V c t y)

/-- An index of the array lies in point `t`'s output block iff each coordinate lies in the block's range on its axis. -/
theorem norm7_mem (t : Fin cfg7.N) (i : S50000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v82).slice (win7_5.rect t)).set ↔ _
  rw [View.set_slice_whole, Rect.mem_set_unit]
  exact Iff.rfl

/-- Every row of the array is written: row `r` lies in the block of point `r / 5000`. -/
theorem norm7_cover (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  obtain ⟨t, ht⟩ : ∃ t : Fin cfg7.N, t.val = (i 0).val / 5000 :=
    ⟨⟨(i 0).val / 5000, by show _ < grid7.N; rw [N_7]; omega⟩, rfl⟩
  obtain ⟨e0, e1, e2, e3, e4, e5, e6, e7, e8, e9, e10, e11⟩ := norm7_maps t
  refine ⟨t, flush7_5 t, ?_⟩
  rw [norm7_mem]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- The output array after the region: the normalised, clamped input, everywhere. -/
theorem norm7_array (c : Dev nD) :
    (dat7 (F := Ideal) V c).arrAt 5 cfg7.N
      = normArr7 (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => norm7_block V c t) norm7_cover

/-- Entry by entry, with the five arrays named: whatever functions the region finds in its five input arrays
    (`h` the matrix, `g` the scale row, `be` the shift row, `mu` the mean row, `va` the variance row),
    `out[r, j] = max (((g[0, j] * (h[r, j] - mu[0, j])) * rsqrt (va[0, j] + ε)) + be[0, j]) 0`, where `ε` and `0` are
    the two float literals of the body, left as words. -/
theorem norm7_apply_of (c : Dev nD) (h : S50000x128.Idx → Elt Ideal .f32) (g be mu va : S1x128.Idx → Elt Ideal .f32)
    (hh : V c (Pipeline.arrRef spec7 0) = h) (hg : V c (Pipeline.arrRef spec7 1) = g)
    (hbe : V c (Pipeline.arrRef spec7 2) = be) (hmu : V c (Pipeline.arrRef spec7 3) = mu)
    (hva : V c (Pipeline.arrRef spec7 4) = va) (r : Fin 50000) (j : Fin 128) :
    (dat7 (F := Ideal) V c).arrAt 5 cfg7.N (ix2 r j)
      = max (((g (ix2 (0 : Fin 1) j) * (h (ix2 r j) - mu (ix2 (0 : Fin 1) j)))
              * Ideal.rsqrt (va (ix2 (0 : Fin 1) j) + Ideal.ofBits .f32 0x3727C5AC#32))
            + be (ix2 (0 : Fin 1) j))
          (Ideal.ofBits .f32 0x00000000#32) := by
  subst hh hg hbe hmu hva
  exact congrFun (norm7_array V c) (ix2 r j)

end Cert.KernelIdeal.RegionVal

end
-- ==== Proof.RefAt2.lean ====
/-
  The reference's second layer and its batch normalisation, read one entry at a time.

  The second layer multiplies the first layer's output by a weight matrix (entry (r, j) is the sum over k of row r
  against column j), aggregates along the edges, and adds the bias of column j. Its batch normalisation takes, for
  every column, the mean (column sum over 50000 rows divided by 50000) and the variance (mean of the squared
  deviations from that mean), and maps entry (r, j) to scale_j times the deviation from the mean, times the
  reciprocal square root of variance_j plus epsilon, plus shift_j, clamped below at zero. The broadcasts in between
  only copy a column's value to every row. The last layer is again a matrix product and a bias. With the
  normalised entries in this form, they are real numbers as soon as the entries they normalise, the scales and
  the shifts are.
-/
import proofs.«138892_j2886218022956_1_alg».proof.Proof.Gen.ReferenceIdeal.Read
import proofs.«138892_j2886218022956_1_alg».proof.Proof.Spec
import Idealize.ShloMosaic.Lib.ValueIdx

noncomputable section

namespace Cert.ReferenceIdeal.At2

open Cert.ReferenceIdeal Cert.ReferenceIdeal.Gen Idealize.ShloMosaic Idealize.ShloMosaic.ValueIdx Finite

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))
  (x11 : (⟨S128x40, .f32⟩ : BufTy).Contents (Elt Ideal)) (x12 : (⟨S40, .f32⟩ : BufTy).Contents (Elt Ideal))

/-- The second layer's matrix product at an entry: row r of the first layer's output against column j of the weights. -/
theorem v66_at (r : Fin 50000) (j : Fin 128) :
    Read.val_main_v66 (F := Ideal) x0 x1 x2 x3 x4 x5 x6 x7 (ix2 r j)
      = ∑ k : Fin 128, Read.val_main_v65 (F := Ideal) x0 x1 x2 x3 x4 x5 x6 (ix2 r k) * x7 (ix2 k j) := by
  rw [Read.val_main_v66_apply]
  refine Finset.sum_congr rfl fun k _ => ?_
  rw [show Read.lidx_main_v66 (ix2 r j) k = ix2 r k from
        funext fun a => Fin.ext (by match a with | ⟨0, _⟩ => rfl | ⟨1, _⟩ => rfl),
    show Read.ridx_main_v66 (ix2 r j) k = ix2 k j from
        funext fun a => Fin.ext (by match a with | ⟨0, _⟩ => rfl | ⟨1, _⟩ => rfl)]

/-- The aggregated features plus the bias of their column. -/
theorem v82_at (r : Fin 50000) (j : Fin 128) :
    Read.val_main_v82 (F := Ideal) x0 x1 x2 x3 x4 x5 x6 x7 x8 (ix2 r j)
      = Read.val_main_v79 (F := Ideal) x0 x1 x2 x3 x4 x5 x6 x7 (ix2 r j) + x8 (ix1 j) := by
  rw [Read.val_main_v82_apply, Read.val_main_v81_apply, Read.val_main_v80_apply]
  rw [show Read.idx_main_v80 (Read.idx_main_v81 (ix2 r j)) = ix1 j from
        funext fun a => Fin.ext (by match a with | ⟨0, _⟩ => rfl)]
  rfl

/-- The column means. -/
theorem v85_at (j : Fin 128) :
    Read.val_main_v85 (F := Ideal) x0 x1 x2 x3 x4 x5 x6 x7 x8 (ix1 j)
      = Spec.meanOf (Read.val_main_v82 (F := Ideal) x0 x1 x2 x3 x4 x5 x6 x7 x8) j := by
  rw [Read.val_main_v85_apply, Read.val_main_v83_apply, Read.val_main_v84_apply, Read.val_main_cst_16_apply,
    Read.val_main_cst_15_apply]
  rw [show FloatOps.ofBits (F := Ideal) .f32 0x00000000#32 = 0 from Ideal.ofBits_zero_f32, zero_add]
  unfold Spec.meanOf
  refine congrArg (fun z => Ideal.div z Spec.rows) (Finset.sum_congr rfl fun k _ => ?_)
  exact congrArg (Read.val_main_v82 (F := Ideal) x0 x1 x2 x3 x4 x5 x6 x7 x8)
    (funext fun a => Fin.ext (by match a with | ⟨0, _⟩ => rfl | ⟨1, _⟩ => rfl))

/-- The mean of column j, repeated down the rows, read at any row. -/
theorem meanRow_at (r : Fin 50000) (j : Fin 128) :
    Read.val_main_v87 (F := Ideal) x0 x1 x2 x3 x4 x5 x6 x7 x8 (ix2 r j)
      = Spec.meanOf (Read.val_main_v82 (F := Ideal) x0 x1 x2 x3 x4 x5 x6 x7 x8) j := by
  rw [Read.val_main_v87_apply, Read.val_main_v86_apply]
  rw [show Read.idx_main_v86 (Read.idx_main_v87 (ix2 r j)) = ix1 j from
        funext fun a => Fin.ext (by match a with | ⟨0, _⟩ => rfl)]
  exact v85_at x0 x1 x2 x3 x4 x5 x6 x7 x8 j

/-- The column variances: the mean of the squared deviations from the column mean. -/
theorem v92_at (j : Fin 128) :
    Read.val_main_v92 (F := Ideal) x0 x1 x2 x3 x4 x5 x6 x7 x8 (ix1 j)
      = Spec.varOf (Read.val_main_v82 (F := Ideal) x0 x1 x2 x3 x4 x5 x6 x7 x8) j := by
  rw [Read.val_main_v92_apply, Read.val_main_v90_apply, Read.val_main_v91_apply, Read.val_main_cst_18_apply,
    Read.val_main_cst_17_apply]
  rw [show FloatOps.ofBits (F := Ideal) .f32 0x00000000#32 = 0 from Ideal.ofBits_zero_f32, zero_add]
  unfold Spec.varOf
  refine congrArg (fun z => Ideal.div z Spec.rows) (Finset.sum_congr rfl fun k _ => ?_)
  rw [show Read.idx_main_v90 (ix1 j) k = ix2 k j from
        funext fun a => Fin.ext (by match a with | ⟨0, _⟩ => rfl | ⟨1, _⟩ => rfl)]
  rw [Read.val_main_v89_apply, Read.val_main_v88_apply, meanRow_at x0 x1 x2 x3 x4 x5 x6 x7 x8 k j]
  rfl

/-- The batch-normalised, rectified second-layer features at an entry: scale times deviation from the column mean,
    times the reciprocal square root of variance plus epsilon, plus shift, clamped below at zero. -/
theorem v108_at (r : Fin 50000) (j : Fin 128) :
    Read.val_main_v108 (F := Ideal) x0 x1 x2 x3 x4 x5 x6 x7 x8 x9 x10 (ix2 r j)
      = Spec.bnOut (Read.val_main_v82 (F := Ideal) x0 x1 x2 x3 x4 x5 x6 x7 x8) x9 x10
          (Spec.varOf (Read.val_main_v82 (F := Ideal) x0 x1 x2 x3 x4 x5 x6 x7 x8)) r j := by
  rw [Read.val_main_v108_apply, Read.val_main_v107_apply, Read.val_main_v104_apply, Read.val_main_v98_apply,
    Read.val_main_v95_apply]
  rw [Read.val_main_v97_apply, Read.val_main_v96_apply, Read.val_main_v94_apply, Read.val_main_v93_apply,
    Read.val_main_v103_apply, Read.val_main_v102_apply, Read.val_main_v101_apply, Read.val_main_v100_apply,
    Read.val_main_v99_apply, Read.val_main_cst_19_apply, Read.val_main_v106_apply, Read.val_main_v105_apply,
    Read.val_main_call1_v0_apply, Read.val_main_call1_cst_apply]
  rw [show Read.idx_main_v96 (Read.idx_main_v97 (ix2 r j)) = ix1 j from
        funext fun a => Fin.ext (by match a with | ⟨0, _⟩ => rfl),
    show Read.idx_main_v93 (Read.idx_main_v94 (ix2 r j)) = ix1 j from
        funext fun a => Fin.ext (by match a with | ⟨0, _⟩ => rfl),
    show Read.idx_main_v102 (Read.idx_main_v103 (ix2 r j)) = ix1 j from
        funext fun a => Fin.ext (by match a with | ⟨0, _⟩ => rfl),
    show Read.idx_main_v105 (Read.idx_main_v106 (ix2 r j)) = ix1 j from
        funext fun a => Fin.ext (by match a with | ⟨0, _⟩ => rfl)]
  rw [v85_at x0 x1 x2 x3 x4 x5 x6 x7 x8 j, v92_at x0 x1 x2 x3 x4 x5 x6 x7 x8 j]
  rfl

/-- The last layer's matrix product at an entry. -/
theorem v109_at (r : Fin 50000) (j : Fin 40) :
    Read.val_main_v109 (F := Ideal) x0 x1 x2 x3 x4 x5 x6 x7 x8 x9 x10 x11 (ix2 r j)
      = ∑ k : Fin 128, Read.val_main_v108 (F := Ideal) x0 x1 x2 x3 x4 x5 x6 x7 x8 x9 x10 (ix2 r k) * x11 (ix2 k j) := by
  rw [Read.val_main_v109_apply]
  refine Finset.sum_congr rfl fun k _ => ?_
  rw [show Read.lidx_main_v109 (ix2 r j) k = ix2 r k from
        funext fun a => Fin.ext (by match a with | ⟨0, _⟩ => rfl | ⟨1, _⟩ => rfl),
    show Read.ridx_main_v109 (ix2 r j) k = ix2 k j from
        funext fun a => Fin.ext (by match a with | ⟨0, _⟩ => rfl | ⟨1, _⟩ => rfl)]

/-- The last layer's aggregated features plus the bias of their column. -/
theorem v125_at (r : Fin 50000) (j : Fin 40) :
    Read.val_main_v125 (F := Ideal) x0 x1 x2 x3 x4 x5 x6 x7 x8 x9 x10 x11 x12 (ix2 r j)
      = Read.val_main_v122 (F := Ideal) x0 x1 x2 x3 x4 x5 x6 x7 x8 x9 x10 x11 (ix2 r j) + x12 (ix1 j) := by
  rw [Read.val_main_v125_apply, Read.val_main_v124_apply, Read.val_main_v123_apply]
  rw [show Read.idx_main_v123 (Read.idx_main_v124 (ix2 r j)) = ix1 j from
        funext fun a => Fin.ext (by match a with | ⟨0, _⟩ => rfl)]
  rfl

/-- The batch-normalised second-layer features are real numbers when the features they normalise, the scale and the
    shift are. -/
theorem v108_finite (h82 : AllFin (s := S50000x128) (Read.val_main_v82 (F := Ideal) x0 x1 x2 x3 x4 x5 x6 x7 x8))
    (h9 : AllFin (s := S128) x9) (h10 : AllFin (s := S128) x10) :
    AllFin (s := S50000x128) (Read.val_main_v108 (F := Ideal) x0 x1 x2 x3 x4 x5 x6 x7 x8 x9 x10) := by
  intro i
  obtain ⟨r, j, rfl⟩ : ∃ (r : Fin 50000) (j : Fin 128), i = ix2 r j := ⟨i 0, i 1, eq_ix2 i⟩
  rw [v108_at x0 x1 x2 x3 x4 x5 x6 x7 x8 x9 x10 r j]
  exact Spec.bnOut_fin _ h82 x9 x10 h9 h10 r j

end Cert.ReferenceIdeal.At2
-- ==== Proof.KernelLayer2.lean ====
/-
  The second layer of the kernel program, boundary by boundary, against the reference's stages.

  The same six steps as the first layer — product, gather-scale-scatter along the edges, bias, column statistics, mean
  and variance with the four rows, normalise-scale-shift-clamp — read on the first layer's activations; the first
  layer's identification with the reference (which used the finiteness of its pre-activations) is an input here, and
  the second layer's variance uses the finiteness of its own pre-activations.
-/
import proofs.«138892_j2886218022956_1_alg».proof.Proof.KernelLayer1
import proofs.«138892_j2886218022956_1_alg».proof.Proof.RegMatmul4
import proofs.«138892_j2886218022956_1_alg».proof.Proof.RegPointwiseBias5
import proofs.«138892_j2886218022956_1_alg».proof.Proof.RegStats6
import proofs.«138892_j2886218022956_1_alg».proof.Proof.RegPointwiseNorm7
import proofs.«138892_j2886218022956_1_alg».proof.Proof.RefAt2
import Idealize.ShloMosaic.Lib.StableHlo.Run

set_option maxRecDepth 16384

noncomputable section

open scoped BigOperators

namespace Cert.KernelIdeal.Value

open Cert.KernelIdeal Cert.KernelIdeal.Gen Cert.KernelIdeal.RegionVal
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Layer 2: the linear map -/

/-- The product region leaves the reference's matrix product: entry (r, j) is the sum over k of the input's (r, k) times the weight's (k, j). -/
theorem product2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W8 (F := Ideal) m ρ c (Proc.devRef .tc main_v53) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 2).trans ?_
  funext i
  obtain ⟨r, j, rfl⟩ : ∃ (r : Fin 50000) (j : Fin 128), i = ix2 r j := ⟨i 0, i 1, eq_ix2 i⟩
  exact (matmul4_apply (V7 m ρ) c _ _ (act1 m ρ c hH1) (arg7At_7 m ρ c) r j).trans (Cert.ReferenceIdeal.At2.v66_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) r j).symm

/-! ## Layer 2: gather along the edges, weigh, and sum into the target nodes -/

/-- The host stretch after the product gathers its rows by source, scales them by the edge weights and adds them up by target: the reference's own operations on the reference's own operands. -/
theorem agg2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W9 (F := Ideal) m ρ c (Proc.devRef .tc main_v66) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after (hostOps5 (F := Ideal)) (W8 m ρ c) (Proc.devRef .tc main_v66) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
  host_read
  rw [product2 m ρ c hH1, srcAt_8 m ρ c, dstAt_8 m ρ c, normAt_8 m ρ c]
  rfl

/-- The bias vector laid out as a row. -/
theorem biasrow2 (c : Dev nD) :
    W9 (F := Ideal) m ρ c (Proc.devRef .tc main_v67) = shapeCast S1x128 (m ((c.tc : Thread nD τ).loc main_arg8)) shapeCasts_S128_S1x128 := by
  show StableHlo.after (hostOps5 (F := Ideal)) (W8 m ρ c) (Proc.devRef .tc main_v67) = shapeCast S1x128 (m ((c.tc : Thread nD τ).loc main_arg8)) shapeCasts_S128_S1x128
  host_read
  rw [arg8At_8 m ρ c]
  rfl

/-- The bias region adds the row to every row of the aggregate: the reference's pre-activation array. -/
theorem hidden2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W10 (F := Ideal) m ρ c (Proc.devRef .tc main_v68) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W10_arr m ρ c 2).trans ?_
  funext i
  obtain ⟨r, j, rfl⟩ : ∃ (r : Fin 50000) (j : Fin 128), i = ix2 r j := ⟨i 0, i 1, eq_ix2 i⟩
  refine (bias5_apply_of (V9 m ρ) c _ _ (agg2 m ρ c hH1) (biasrow2 m ρ c) r j).trans ?_
  rw [Cert.ReferenceIdeal.At2.v82_at, UnitReshapes.asRow_apply]

/-! ## Layer 2: the column statistics -/

/-- The statistics region's first row: column sums of the pre-activation array. -/
theorem colsum2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (j : Fin 128) :
    W11 (F := Ideal) m ρ c (Proc.devRef .tc main_v69_0) (ix2 (0 : Fin 1) j) = ∑ r : Fin 50000, Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r j) :=
  (congrFun (W11_arr m ρ c 1) _).trans (colsum6_apply_of (V10 m ρ) c _ (hidden2 m ρ c hH1) j)

/-- Its second row: column sums of the squares. -/
theorem colsumsq2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (j : Fin 128) :
    W11 (F := Ideal) m ρ c (Proc.devRef .tc main_v69_1) (ix2 (0 : Fin 1) j)
      = ∑ r : Fin 50000, Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r j) * Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 r j) :=
  (congrFun (W11_arr m ρ c 2) _).trans (colsumsq6_apply_of (V10 m ρ) c _ (hidden2 m ρ c hH1) j)

/-- The host's mean of column j: the column sum over the number of rows. -/
theorem mean2_at (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (j : Fin 128) :
    W12 (F := Ideal) m ρ c (Proc.devRef .tc main_v72) (ix1 j) = Spec.meanOf (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) j := by
  show StableHlo.after (hostOps7 (F := Ideal)) (W11 m ρ c) (Proc.devRef .tc main_v72) (ix1 j) = Spec.meanOf (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) j
  host_read
  show Ideal.div (shapeCast S128 (W11 m ρ c (Proc.devRef .tc main_v69_0)) shapeCasts_S1x128_S128 (ix1 j)) Spec.rows = _
  rw [RowReshape.ofRow_apply, colsum2 m ρ c hH1 j]
  rfl

/-- The host's variance of column j, from the two raw moments. -/
theorem var2_at (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (j : Fin 128) :
    W12 (F := Ideal) m ρ c (Proc.devRef .tc main_v77) (ix1 j) = Spec.varOfMoments (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) j := by
  show StableHlo.after (hostOps7 (F := Ideal)) (W11 m ρ c) (Proc.devRef .tc main_v77) (ix1 j) = Spec.varOfMoments (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) j
  host_read
  show Ideal.div (shapeCast S128 (W11 m ρ c (Proc.devRef .tc main_v69_1)) shapeCasts_S1x128_S128 (ix1 j)) Spec.rows
      - Ideal.div (shapeCast S128 (W11 m ρ c (Proc.devRef .tc main_v69_0)) shapeCasts_S1x128_S128 (ix1 j)) Spec.rows
        * Ideal.div (shapeCast S128 (W11 m ρ c (Proc.devRef .tc main_v69_0)) shapeCasts_S1x128_S128 (ix1 j)) Spec.rows = _
  rw [RowReshape.ofRow_apply, RowReshape.ofRow_apply, colsum2 m ρ c hH1 j, colsumsq2 m ρ c hH1 j]
  rfl

/-- The mean vector is the reference's. -/
theorem mean2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W12 (F := Ideal) m ρ c (Proc.devRef .tc main_v72) = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨j, rfl⟩ : ∃ j : Fin 128, i = ix1 j := ⟨i 0, eq_ix1 i⟩
  exact (mean2_at m ρ c hH1 j).trans (Cert.ReferenceIdeal.At2.v85_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) j).symm

/-- The variance vector is the reference's when the pre-activation entries are finite: the mean of the squares minus the squared mean is the mean of the squared deviations. -/
theorem var2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W12 (F := Ideal) m ρ c (Proc.devRef .tc main_v77) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨j, rfl⟩ : ∃ j : Fin 128, i = ix1 j := ⟨i 0, eq_ix1 i⟩
  exact ((var2_at m ρ c hH1 j).trans (Spec.varOfMoments_eq _ hH2 j)).trans (Cert.ReferenceIdeal.At2.v92_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) j).symm

/-! ## Layer 2: the rows the normalising region reads -/

/-- The scale vector laid out as a row. -/
theorem gammarow2 (c : Dev nD) :
    W12 (F := Ideal) m ρ c (Proc.devRef .tc main_v78) = shapeCast S1x128 (m ((c.tc : Thread nD τ).loc main_arg9)) shapeCasts_S128_S1x128 := by
  show StableHlo.after (hostOps7 (F := Ideal)) (W11 m ρ c) (Proc.devRef .tc main_v78) = shapeCast S1x128 (m ((c.tc : Thread nD τ).loc main_arg9)) shapeCasts_S128_S1x128
  host_read
  rw [arg9At_11 m ρ c]
  rfl

/-- The shift vector laid out as a row. -/
theorem betarow2 (c : Dev nD) :
    W12 (F := Ideal) m ρ c (Proc.devRef .tc main_v79) = shapeCast S1x128 (m ((c.tc : Thread nD τ).loc main_arg10)) shapeCasts_S128_S1x128 := by
  show StableHlo.after (hostOps7 (F := Ideal)) (W11 m ρ c) (Proc.devRef .tc main_v79) = shapeCast S1x128 (m ((c.tc : Thread nD τ).loc main_arg10)) shapeCasts_S128_S1x128
  host_read
  rw [arg10At_11 m ρ c]
  rfl

/-- The mean vector laid out as a row. -/
theorem meanrow2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W12 (F := Ideal) m ρ c (Proc.devRef .tc main_v80) = shapeCast S1x128 (Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S128_S1x128 := by
  refine Eq.trans ?_ (congrArg (fun a => shapeCast S1x128 a shapeCasts_S128_S1x128) (mean2 m ρ c hH1))
  show StableHlo.after (hostOps7 (F := Ideal)) (W11 m ρ c) (Proc.devRef .tc main_v80)
      = shapeCast S1x128 (StableHlo.after (hostOps7 (F := Ideal)) (W11 m ρ c) (Proc.devRef .tc main_v72)) shapeCasts_S128_S1x128
  host_read
  rfl

/-- The variance vector laid out as a row. -/
theorem varrow2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W12 (F := Ideal) m ρ c (Proc.devRef .tc main_v81) = shapeCast S1x128 (Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S128_S1x128 := by
  refine Eq.trans ?_ (congrArg (fun a => shapeCast S1x128 a shapeCasts_S128_S1x128) (var2 m ρ c hH1 hH2))
  show StableHlo.after (hostOps7 (F := Ideal)) (W11 m ρ c) (Proc.devRef .tc main_v81)
      = shapeCast S1x128 (StableHlo.after (hostOps7 (F := Ideal)) (W11 m ρ c) (Proc.devRef .tc main_v77)) shapeCasts_S128_S1x128
  host_read
  rfl

/-- The pre-activation array is still there after the statistics region, which only reads it … -/
theorem hidden2_afterStats (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W11 (F := Ideal) m ρ c (Proc.devRef .tc main_v68) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  ((W11_arr m ρ c 0).trans (((dat6 (V10 m ρ) c).arrAt_in 0 rfl _).trans (A_eq6 (V10 m ρ) c 0))).trans (hidden2 m ρ c hH1)

/-- … and after the host stretch that follows, which does not write it. -/
theorem hidden2_atNorm (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) :
    W12 (F := Ideal) m ρ c (Proc.devRef .tc main_v68) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine Eq.trans ?_ (hidden2_afterStats m ρ c hH1)
  show StableHlo.after (hostOps7 (F := Ideal)) (W11 m ρ c) (Proc.devRef .tc main_v68) = W11 m ρ c (Proc.devRef .tc main_v68)
  after_results_simp

/-! ## Layer 2: normalise, scale, shift, clamp at zero -/

/-- The normalising region leaves the reference's activation array. -/
theorem act2 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W13 (F := Ideal) m ρ c (Proc.devRef .tc main_v82) = Cert.ReferenceIdeal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W13_arr m ρ c 5).trans ?_
  funext i
  obtain ⟨r, j, rfl⟩ : ∃ (r : Fin 50000) (j : Fin 128), i = ix2 r j := ⟨i 0, i 1, eq_ix2 i⟩
  refine (norm7_apply_of (V12 m ρ) c _ _ _ _ _ (hidden2_atNorm m ρ c hH1) (gammarow2 m ρ c) (betarow2 m ρ c)
    (meanrow2 m ρ c hH1) (varrow2 m ρ c hH1 hH2) r j).trans ?_
  rw [Cert.ReferenceIdeal.At2.v108_at, UnitReshapes.asRow_apply, UnitReshapes.asRow_apply, UnitReshapes.asRow_apply, UnitReshapes.asRow_apply,
    Cert.ReferenceIdeal.At2.v85_at, Cert.ReferenceIdeal.At2.v92_at]
  rfl

end Cert.KernelIdeal.Value

end
-- ==== Proof.RegMatmul8.lean ====
/- Region 8 computes the matrix product X · W of the 50000×128 array X (the activations the preceding regions
   left) by the 128×40 array W, 5000 rows at a time: grid point t loads rows 5000·t … 5000·t + 4999 of X and all of
   W, and stores those rows of the 50000×40 product. So entry (r, j) of the output depends on row r of X and column
   j of W only:  ∑ k : Fin 128, X (r, k) · W (k, j).  The ten blocks of rows tile the output, so every entry is
   written, by the point r / 5000. -/
import proofs.«138892_j2886218022956_1_alg».proof.Proof.Gen.KernelIdeal.Frame
import proofs.«138892_j2886218022956_1_alg».proof.Proof.RegMatmulDot
import Idealize.ShloMosaic.Lib.Pipeline.Value
import Idealize.ShloMosaic.Lib.ValueIdx

set_option maxRecDepth 16384

noncomputable section

namespace Cert.KernelIdeal.RegionVal

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## One block -/

/-- The body's stored value at entry (r, j) of its block: the two loaded blocks change format (the identity on the
    extended reals) and are multiplied into zero, so the entry is row `r` of the first against column `j` of the second. -/
theorem matmul8_payload (x0 : Vec Ideal S5000x128 .f32) (x1 : Vec Ideal S128x40 .f32) (r : Fin 5000) (j : Fin 40) :
    k8_pay1 (F := Ideal) x0 x1 (ix2 r j) = ∑ k : Fin 128, x0 (ix2 r k) * x1 (ix2 k j) := by
  unfold k8_pay1
  refine (blockProd40_apply _ _ r j).trans ?_
  refine Finset.sum_congr rfl fun k _ => ?_
  have hc := congrFun (shapeCast_self x0 Facts₀.shapeCasts_S5000x128_S5000x128) (ix2 (n0 := 5000) (n1 := 128) r k)
  exact congrArg (fun a : EReal => a * x1 (ix2 (n0 := 128) (n1 := 40) k j)) hc

/-- The same at any index of the block, by its coordinates. -/
theorem matmul8_payload_at (x0 : Vec Ideal S5000x128 .f32) (x1 : Vec Ideal S128x40 .f32) (y : S5000x40.Idx) :
    k8_pay1 (F := Ideal) x0 x1 y
      = ∑ k : Fin 128, x0 (ix2 (n0 := 5000) (n1 := 128) (y 0) k) * x1 (ix2 (n0 := 128) (n1 := 40) k (y 1)) := by
  obtain ⟨r, j, rfl⟩ : ∃ (r : Fin 5000) (j : Fin 40), y = ix2 r j := ⟨y 0, y 1, eq_ix2 y⟩
  exact matmul8_payload x0 x1 r j

/-! ## From blocks to the array -/

/-- The product of a 50000×128 array by a 128×40 array, entry by entry: row `i 0` against column `i 1`. -/
def product8 (X : S50000x128.Idx → EReal) (W : S128x40.Idx → EReal) (i : S50000x40.Idx) : EReal :=
  ∑ k : Fin 128, X (ix2 (n0 := 50000) (n1 := 128) (i 0) k) * W (ix2 (n0 := 128) (n1 := 40) k (i 1))

theorem zero_offsets8 : (![0, 0] : Fin 2 → Nat) = fun _ => 0 := funext fun a => by fin_cases a <;> rfl

/-- Where the blocks sit, decided over the ten grid points: point `t` takes row block `t` of the first operand and of
    the output (block column 0), and the whole second operand (block (0, 0)). -/
theorem block_indices8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Point `t` writes back block `t` of the product: row `y 0` of the block is array row 5000·t + `y 0`, the first
    operand's block holds exactly those rows of its array, and the second operand's block is the whole matrix. -/
theorem matmul8_flushed (c : Dev nD) (t : Fin cfg8.N) :
    (dat8 (F := Ideal) V c).flushed 2 t
      = ((cfg8.win 2).blk t).view.read (Elt Ideal)
          (product8 (V c (Pipeline.arrRef spec8 0)) (V c (Pipeline.arrRef spec8 1))) := by
  show (cfg8.win 2).cut (grid8.coords t) ((dat8 (F := Ideal) V c).after 2 t) = _
  rw [after8_2]
  unfold out8_2
  rw [View.canon_unit_zero zero_offsets8]
  simp only [View.ld_unit_zero (S := S5000x128) zero_offsets8, View.ld_unit_zero (S := S128x40) zero_offsets8]
  obtain ⟨e0, e1, e2, e3, e4, e5⟩ := block_indices8 t
  funext y
  show k8_pay1 (F := Ideal) (iblk8 V c 0 t) (iblk8 V c 1 t) y
    = product8 (V c (Pipeline.arrRef spec8 0)) (V c (Pipeline.arrRef spec8 1)) (((cfg8.win 2).blk t).view.emb y)
  refine (matmul8_payload_at (iblk8 V c 0 t) (iblk8 V c 1 t) y).trans ?_
  unfold product8
  refine Finset.sum_congr rfl fun k _ => ?_
  have h0 : ((cfg8.win 0).blk t).view.emb (ix2 (n0 := 5000) (n1 := 128) (y 0) k)
      = ix2 (n0 := 50000) (n1 := 128) ((((cfg8.win 2).blk t).view.emb y) 0) k := by
    funext a; apply Fin.ext
    match a with
    | ⟨0, _⟩ => show win8_0.index t (0 : Fin 2) * 5000 + 1 * (y 0).val = win8_2.index t (0 : Fin 2) * 5000 + 1 * (y 0).val; omega
    | ⟨1, _⟩ => show win8_0.index t (1 : Fin 2) * 128 + 1 * k.val = k.val; omega
  have h1 : ((cfg8.win 1).blk t).view.emb (ix2 (n0 := 128) (n1 := 40) k (y 1))
      = ix2 (n0 := 128) (n1 := 40) k ((((cfg8.win 2).blk t).view.emb y) 1) := by
    funext a; apply Fin.ext
    match a with
    | ⟨0, _⟩ => show win8_1.index t (0 : Fin 2) * 128 + 1 * k.val = k.val; omega
    | ⟨1, _⟩ => show win8_1.index t (1 : Fin 2) * 40 + 1 * (y 1).val = win8_2.index t (1 : Fin 2) * 40 + 1 * (y 1).val; omega
  exact congrArg₂ (fun a b : EReal => a * b)
    (congrArg (V c (Pipeline.arrRef spec8 0)) h0) (congrArg (V c (Pipeline.arrRef spec8 1)) h1)

/-- An index of the output array is in point `t`'s block iff each coordinate is in the block's range on its axis. -/
theorem matmul8_mem_block (t : Fin cfg8.N) (i : S50000x40.Idx) :
    i ∈ ((cfg8.win 2).blk t).view.set ↔ ∀ a : Fin 2, win8_2.index t a * S5000x40.size a ≤ (i a).val ∧ (i a).val < win8_2.index t a * S5000x40.size a + S5000x40.size a := by
  show i ∈ ((View.whole main_v83).slice (win8_2.rect t)).set ↔ _
  rw [View.set_slice_whole, Rect.mem_set_unit]
  exact Iff.rfl

/-- Every entry of the output is written: row `r` lies in the block of point `r / 5000`. -/
theorem matmul8_cover (i : S50000x40.Idx) :
    ∃ t : Fin cfg8.N, (cfg8.win 2).flush t = true ∧ i ∈ ((cfg8.win 2).blk t).view.set := by
  have hi0 : (i 0).val < 50000 := idx2_lt0 i
  have hi1 : (i 1).val < 40 := idx2_lt1 i
  obtain ⟨t, ht⟩ : ∃ t : Fin cfg8.N, t.val = (i 0).val / 5000 :=
    ⟨⟨(i 0).val / 5000, by show _ < grid8.N; rw [N_8]; omega⟩, rfl⟩
  obtain ⟨-, -, -, -, e4, e5⟩ := block_indices8 t
  refine ⟨t, flush8_2 t, ?_⟩
  rw [matmul8_mem_block]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 40 ≤ (i 1).val ∧ (i 1).val < win8_2.index t (1 : Fin 2) * 40 + 40; omega

/-- The output array after the region is the product of the two operand arrays as the region finds them. -/
theorem matmul8_array (c : Dev nD) :
    (dat8 (F := Ideal) V c).arrAt 2 cfg8.N
      = product8 (V c (Pipeline.arrRef spec8 0)) (V c (Pipeline.arrRef spec8 1)) :=
  (dat8 (F := Ideal) V c).arrAt_eq_of_cover 2
    (product8 (V c (Pipeline.arrRef spec8 0)) (V c (Pipeline.arrRef spec8 1)))
    (fun t _ => matmul8_flushed V c t) matmul8_cover

/-- Entry (r, j) of the output array after the region, the operand arrays named: row `r` of the first against
    column `j` of the second. -/
theorem matmul8_apply (c : Dev nD) (X : S50000x128.Idx → Elt Ideal .f32) (W : S128x40.Idx → Elt Ideal .f32)
    (hX : V c (Pipeline.arrRef spec8 0) = X) (hW : V c (Pipeline.arrRef spec8 1) = W) (r : Fin 50000) (j : Fin 40) :
    (dat8 (F := Ideal) V c).arrAt 2 cfg8.N (ix2 r j) = ∑ k : Fin 128, X (ix2 r k) * W (ix2 k j) := by
  subst hX hW
  exact congrFun (matmul8_array V c) (ix2 r j)

end Cert.KernelIdeal.RegionVal

end
-- ==== Proof.RegPointwiseBias9.lean ====
/-
  Region 9 adds a bias row to a matrix: out[r, j] = a[r, j] + b[0, j] for the 50000 × 40 array `a` and the
  1 × 40 row `b`. The grid has ten points; point t reads rows 5000 t … 5000 t + 4999 of `a` and the whole row `b`,
  and writes the same rows of the result. An entry of the result depends on the one entry of `a` at its own position
  and on the one entry of `b` in its own column, on nothing else. The ten row blocks are disjoint and fill the array,
  so after the last point the whole array holds the sum.
-/
import proofs.«138892_j2886218022956_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

/-- The origin of a rank-2 block, as the constant function. -/
theorem origin2 : (![0, 0] : Fin 2 → Nat) = fun _ => 0 := funext fun a => by fin_cases a <;> rfl

/-- One entry of the body's result: the entry of the row block plus the bias entry of the same column.
    The two shape casts are identities and the broadcast copies the single bias row to every row. -/
theorem bias9_entry (x0 : Vec Ideal S5000x40 .f32) (x1 : Vec Ideal S1x40 .f32) (r : Fin 5000) (j : Fin 40) :
    k9_pay1 x0 x1 (ix2 r j) = x0 (ix2 r j) + x1 (ix2 (0 : Fin 1) j) := by
  unfold k9_pay1
  refine (addf_apply _ _ _).trans ?_
  refine congrArg₂ (· + ·) (congrFun (shapeCast_self x0 _) _) ?_
  refine (broadcastTo_1b_ab_apply _ _ r j).trans ?_
  exact congrFun (shapeCast_self x1 _) _

/-- The same at an arbitrary index of the block. -/
theorem bias9_entry' (x0 : Vec Ideal S5000x40 .f32) (x1 : Vec Ideal S1x40 .f32) (y : S5000x40.Idx) :
    k9_pay1 x0 x1 y = x0 y + x1 (ix2 (0 : Fin 1) (y 1)) := by
  obtain ⟨r, j, rfl⟩ : ∃ (r : Fin 5000) (j : Fin 40), y = ix2 r j := ⟨y 0, y 1, eq_ix2 y⟩
  exact bias9_entry x0 x1 r j

/-- The whole result as one function of the two arrays: each entry of the input plus the bias entry of its column. -/
def biasArr9 (a : S50000x40.Idx → Elt Ideal .f32) (b : S1x40.Idx → Elt Ideal .f32) : S50000x40.Idx → Elt Ideal .f32 :=
  fun i => a i + b (ix2 (0 : Fin 1) (i 1))

/-- Where the blocks sit, decided over the ten grid points: the input and the output row blocks move together, point `t`
    holds row block `t`, the column block is always the first, and the bias row is the same block at every point. -/
theorem bias9_maps : ∀ t : Fin cfg9.N, win9_0.index t (0 : Fin 2) = win9_2.index t (0 : Fin 2)
    ∧ win9_0.index t (1 : Fin 2) = 0 ∧ win9_2.index t (1 : Fin 2) = 0
    ∧ win9_1.index t (0 : Fin 2) = 0 ∧ win9_1.index t (1 : Fin 2) = 0
    ∧ win9_2.index t (0 : Fin 2) = t.val :=
  (by decide +kernel : ∀ t : Fin grid9.N, _)

/-- What grid point `t` writes back is block `t` of that function of the two arrays as the region finds them:
    the input block and the output block are the same rows, and the bias block is the whole bias row. -/
theorem bias9_block (c : Dev nD) (t : Fin cfg9.N) :
    (dat9 (F := Ideal) V c).flushed 2 t
      = ((cfg9.win 2).blk t).view.read (Elt Ideal) (biasArr9 (V c (Pipeline.arrRef spec9 0)) (V c (Pipeline.arrRef spec9 1))) := by
  show (cfg9.win 2).cut (grid9.coords t) ((dat9 (F := Ideal) V c).after 2 t) = _
  rw [after9_2]
  unfold out9_2
  rw [View.canon_unit_zero origin2]
  simp only [View.ld_unit_zero (S := S5000x40) origin2, View.ld_unit_zero (S := S1x40) origin2]
  funext (y : S5000x40.Idx)
  refine (bias9_entry' (iblk9 V c 0 t) (iblk9 V c 1 t) y).trans ?_
  obtain ⟨e0, e1, e2, e3, e4, e5⟩ := bias9_maps t
  have hy0 : (y 0).val < 5000 := (y 0).isLt
  have hy1 : (y 1).val < 40 := (y 1).isLt
  have h0 : ((cfg9.win 0).blk t).view.emb y = ((cfg9.win 2).blk t).view.emb y := by
    funext a; apply Fin.ext
    match a with
    | ⟨0, _⟩ => show win9_0.index t (0 : Fin 2) * 5000 + 1 * (y 0).val = win9_2.index t (0 : Fin 2) * 5000 + 1 * (y 0).val; omega
    | ⟨1, _⟩ => show win9_0.index t (1 : Fin 2) * 40 + 1 * (y 1).val = win9_2.index t (1 : Fin 2) * 40 + 1 * (y 1).val; omega
  have h1 : ((cfg9.win 1).blk t).view.emb (ix2 (0 : Fin 1) (y 1))
      = ix2 (0 : Fin 1) ((((cfg9.win 2).blk t).view.emb y) 1) := by
    funext a; apply Fin.ext
    match a with
    | ⟨0, _⟩ => show win9_1.index t (0 : Fin 2) * 1 + 1 * 0 = 0; omega
    | ⟨1, _⟩ => show win9_1.index t (1 : Fin 2) * 40 + 1 * (y 1).val = win9_2.index t (1 : Fin 2) * 40 + 1 * (y 1).val; omega
  exact congrArg₂ (· + ·) (congrArg (V c (Pipeline.arrRef spec9 0)) h0) (congrArg (V c (Pipeline.arrRef spec9 1)) h1)

/-- An index of the array lies in point `t`'s output block iff each coordinate lies in the block's range on its axis. -/
theorem bias9_mem (t : Fin cfg9.N) (i : S50000x40.Idx) :
    i ∈ ((cfg9.win 2).blk t).view.set ↔ ∀ a : Fin 2, win9_2.index t a * S5000x40.size a ≤ (i a).val
      ∧ (i a).val < win9_2.index t a * S5000x40.size a + S5000x40.size a := by
  show i ∈ ((View.whole main_v98).slice (win9_2.rect t)).set ↔ _
  rw [View.set_slice_whole, Rect.mem_set_unit]
  exact Iff.rfl

/-- Every row of the array is written: row `r` lies in the block of point `r / 5000`. -/
theorem bias9_cover (i : S50000x40.Idx) :
    ∃ t : Fin cfg9.N, (cfg9.win 2).flush t = true ∧ i ∈ ((cfg9.win 2).blk t).view.set := by
  have hi0 : (i 0).val < 50000 := (i 0).isLt
  have hi1 : (i 1).val < 40 := (i 1).isLt
  obtain ⟨t, ht⟩ : ∃ t : Fin cfg9.N, t.val = (i 0).val / 5000 :=
    ⟨⟨(i 0).val / 5000, by show _ < grid9.N; rw [N_9]; omega⟩, rfl⟩
  obtain ⟨e0, e1, e2, e3, e4, e5⟩ := bias9_maps t
  refine ⟨t, flush9_2 t, ?_⟩
  rw [bias9_mem]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 40 ≤ (i 1).val ∧ (i 1).val < win9_2.index t (1 : Fin 2) * 40 + 40; omega

/-- The output array after the region: the input plus the bias row, everywhere. -/
theorem bias9_array (c : Dev nD) :
    (dat9 (F := Ideal) V c).arrAt 2 cfg9.N = biasArr9 (V c (Pipeline.arrRef spec9 0)) (V c (Pipeline.arrRef spec9 1)) :=
  (dat9 (F := Ideal) V c).arrAt_eq_of_cover 2 _ (fun t _ => bias9_block V c t) bias9_cover

/-- Entry by entry: `out[r, j] = a[r, j] + b[0, j]` (the sum is the extended reals'). -/
theorem bias9_apply (c : Dev nD) (r : Fin 50000) (j : Fin 40) :
    (dat9 (F := Ideal) V c).arrAt 2 cfg9.N (ix2 r j)
      = HAdd.hAdd (α := Elt Ideal .f32) (β := Elt Ideal .f32) (γ := Elt Ideal .f32)
          (V c (Pipeline.arrRef spec9 0) (ix2 r j)) (V c (Pipeline.arrRef spec9 1) (ix2 (0 : Fin 1) j)) :=
  congrFun (bias9_array V c) (ix2 r j)

/-- The same with the two arrays named: whatever functions `a`, `b` the region finds in its two input arrays. -/
theorem bias9_apply_of (c : Dev nD) (a : S50000x40.Idx → Elt Ideal .f32) (b : S1x40.Idx → Elt Ideal .f32)
    (ha : V c (Pipeline.arrRef spec9 0) = a) (hb : V c (Pipeline.arrRef spec9 1) = b) (r : Fin 50000) (j : Fin 40) :
    (dat9 (F := Ideal) V c).arrAt 2 cfg9.N (ix2 r j) = a (ix2 r j) + b (ix2 (0 : Fin 1) j) := by
  subst ha hb
  exact bias9_apply V c r j

end Cert.KernelIdeal.RegionVal

end
-- ==== Proof.KernelLayer3.lean ====
/-
  The last layer of the kernel program: product with the 128 × 40 weights, gather-scale-scatter along the edges, bias.
  Its result is the program's result, and it is the reference's result.
-/
import proofs.«138892_j2886218022956_1_alg».proof.Proof.KernelLayer2
import proofs.«138892_j2886218022956_1_alg».proof.Proof.RegMatmul8
import proofs.«138892_j2886218022956_1_alg».proof.Proof.RegPointwiseBias9
import Idealize.ShloMosaic.Lib.StableHlo.Run

set_option maxRecDepth 16384

noncomputable section

open scoped BigOperators

namespace Cert.KernelIdeal.Value

open Cert.KernelIdeal Cert.KernelIdeal.Gen Cert.KernelIdeal.RegionVal
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg)

/-! ## Layer 3: the linear map -/

/-- The product region leaves the reference's matrix product: entry (r, j) is the sum over k of the input's (r, k) times the weight's (k, j). -/
theorem product3 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W14 (F := Ideal) m ρ c (Proc.devRef .tc main_v83) = Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W14_arr m ρ c 2).trans ?_
  funext i
  obtain ⟨r, j, rfl⟩ : ∃ (r : Fin 50000) (j : Fin 40), i = ix2 r j := ⟨i 0, i 1, eq_ix2 i⟩
  exact (matmul8_apply (V13 m ρ) c _ _ (act2 m ρ c hH1 hH2) (arg11At_13 m ρ c) r j).trans (Cert.ReferenceIdeal.At2.v109_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) r j).symm

/-! ## Layer 3: gather along the edges, weigh, and sum into the target nodes -/

/-- The host stretch after the product gathers its rows by source, scales them by the edge weights and adds them up by target: the reference's own operations on the reference's own operands. -/
theorem agg3 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W15 (F := Ideal) m ρ c (Proc.devRef .tc main_v96) = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after (hostOps9 (F := Ideal)) (W14 m ρ c) (Proc.devRef .tc main_v96) = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
  host_read
  rw [product3 m ρ c hH1 hH2, srcAt_14 m ρ c, dstAt_14 m ρ c, normAt_14 m ρ c]
  rfl

/-- The bias vector laid out as a row. -/
theorem biasrow3 (c : Dev nD) :
    W15 (F := Ideal) m ρ c (Proc.devRef .tc main_v97) = shapeCast S1x40 (m ((c.tc : Thread nD τ).loc main_arg12)) shapeCasts_S40_S1x40 := by
  show StableHlo.after (hostOps9 (F := Ideal)) (W14 m ρ c) (Proc.devRef .tc main_v97) = shapeCast S1x40 (m ((c.tc : Thread nD τ).loc main_arg12)) shapeCasts_S40_S1x40
  host_read
  rw [arg12At_14 m ρ c]
  rfl

/-- The bias region adds the row to every row of the aggregate: the reference's pre-activation array. -/
theorem hidden3 (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W16 (F := Ideal) m ρ c (Proc.devRef .tc main_v98) = Cert.ReferenceIdeal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W16_arr m ρ c 2).trans ?_
  funext i
  obtain ⟨r, j, rfl⟩ : ∃ (r : Fin 50000) (j : Fin 40), i = ix2 r j := ⟨i 0, i 1, eq_ix2 i⟩
  refine (bias9_apply_of (V15 m ρ) c _ _ (agg3 m ρ c hH1 hH2) (biasrow3 m ρ c) r j).trans ?_
  rw [Cert.ReferenceIdeal.At2.v125_at, UnitReshapes.asRow_apply]

/-- THE RESULT of the kernel program is the reference's result term of the arguments, given that the two layers'
    pre-activation entries are finite. -/
theorem result_eq (c : Dev nD) (hH1 : ∀ i, Finite.IsFin (Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)) (hH2 : ∀ i, Finite.IsFin (Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i)) :
    W16 (F := Ideal) m ρ c (Proc.devRef .tc main_v98) = Cert.ReferenceIdeal.Read.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  hidden3 m ρ c hH1 hH2

end Cert.KernelIdeal.Value

end
-- ==== Proof.PreFinite.lean ====
/- From the precondition to "every entry of every float argument is a real number".
   The precondition computes, for each of the eleven float arguments x, the conjunction over all entries of
   |x| < +inf (the absolute value on the extended reals is max x (−x), which is +inf at both infinities), and
   conjoins the eleven results; it says the outcome is true. A true conjunction has true conjuncts, a true
   "for all entries" holds at each entry, and an extended real whose absolute value is below +inf is a real. -/
import proofs.«138892_j2886218022956_1_alg».proof.Defs
import proofs.«138892_j2886218022956_1_alg».proof.Proof.Gen.Pre_finite_inputs
import proofs.«138892_j2886218022956_1_alg».proof.Proof.LibAllFinite
import Idealize.ShloMosaic.Lib.ReduceAll
import Idealize.ShloMosaic.Lib.ValueIdx
import Idealize.ShloMosaic.PureOps.Ideal.Laws

set_option maxRecDepth 16384

noncomputable section

namespace Cert.PreFinite

open Idealize.ShloMosaic Idealize.ShloMosaic.ValueIdx Idealize.ShloMosaic.TcCoe Idealize.SL.Sem
open Finite

/-- The word of the comparison's right-hand side denotes plus infinity. -/
theorem inf_word : Ideal.ofBits .f32 0x7F800000#32 = (⊤ : EReal) := by simp [Ideal.ofBits, Ideal.ieee]

/-- An extended real whose absolute value max x (−x) is below plus infinity is a real number: at either infinity
    the maximum is plus infinity. -/
theorem isFin_of_abs_lt_top (x : EReal) (h : max x (-x) < ⊤) : IsFin x := by
  induction x using EReal.rec with
  | bot => exact absurd h (by simp)
  | top => exact absurd h (by simp)
  | coe r => exact ⟨r, rfl⟩

/-- A strict comparison of extended reals that came out true. -/
theorem lt_of_cmp_olt {x y : EReal} (h : Ideal.cmp .olt x y = 1#1) : x < y := by
  by_contra hn
  have h0 : Ideal.cmp .olt x y = 0#1 := by
    unfold Ideal.cmp
    simp [hn]
  rw [h0] at h
  exact absurd h (by decide)

/-- The scalar shape has one index. -/
instance : Subsingleton Cert.Pre_finite_inputs.S_.Idx := ⟨fun a b => funext fun d => d.elim0⟩

/-- One argument's check: when the conjunction over all entries of "|x| < +inf" is true, every entry passed the
    comparison, so every entry is a real number. -/
theorem allFin_of_check {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    AllFin x := by
  intro i
  have hi := Host.reduce_andi_all _ _ hr hu ix0 e i
  have hlt : max (x i) (-(x i)) < Ideal.ofBits .f32 0x7F800000#32 := lt_of_cmp_olt hi
  rw [inf_word] at hlt
  exact isFin_of_abs_lt_top _ hlt

/-- Under the precondition every entry of every float argument is a real number: the precondition is the
    conjunction of the eleven checks, one per float argument, and each conjunct that is true gives its argument. -/
theorem inputs_finite [hPre : Cert.Pre_finite_inputs.Facts]
    (m : (ℓ : Loc KernelIdeal.nD KernelIdeal.τ KernelIdeal.sig) → Buf (Elt Ideal) ℓ)
    (h : Cert.Pre_KernelIdeal m) (c : Dev KernelIdeal.nD) :
    AllFin (s := KernelIdeal.S50000x128) (m ((c.tc : Thread KernelIdeal.nD KernelIdeal.τ).loc KernelIdeal.main_arg0))
      ∧ AllFin (s := KernelIdeal.S128x128) (m ((c.tc : Thread KernelIdeal.nD KernelIdeal.τ).loc KernelIdeal.main_arg3))
      ∧ AllFin (s := KernelIdeal.S128) (m ((c.tc : Thread KernelIdeal.nD KernelIdeal.τ).loc KernelIdeal.main_arg4))
      ∧ AllFin (s := KernelIdeal.S128) (m ((c.tc : Thread KernelIdeal.nD KernelIdeal.τ).loc KernelIdeal.main_arg5))
      ∧ AllFin (s := KernelIdeal.S128) (m ((c.tc : Thread KernelIdeal.nD KernelIdeal.τ).loc KernelIdeal.main_arg6))
      ∧ AllFin (s := KernelIdeal.S128x128) (m ((c.tc : Thread KernelIdeal.nD KernelIdeal.τ).loc KernelIdeal.main_arg7))
      ∧ AllFin (s := KernelIdeal.S128) (m ((c.tc : Thread KernelIdeal.nD KernelIdeal.τ).loc KernelIdeal.main_arg8))
      ∧ AllFin (s := KernelIdeal.S128) (m ((c.tc : Thread KernelIdeal.nD KernelIdeal.τ).loc KernelIdeal.main_arg9))
      ∧ AllFin (s := KernelIdeal.S128) (m ((c.tc : Thread KernelIdeal.nD KernelIdeal.τ).loc KernelIdeal.main_arg10))
      ∧ AllFin (s := KernelIdeal.S128x40) (m ((c.tc : Thread KernelIdeal.nD KernelIdeal.τ).loc KernelIdeal.main_arg11))
      ∧ AllFin (s := KernelIdeal.S40) (m ((c.tc : Thread KernelIdeal.nD KernelIdeal.τ).loc KernelIdeal.main_arg12)) := by
  have e := congrFun (h c) ix0
  unfold Cert.Pre_finite_inputs.fn Cert.Pre_finite_inputs.fn_part1 Cert.Pre_finite_inputs.fn_part2 Cert.Pre_finite_inputs.fn_part3 at e
  dsimp only at e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨allFin_of_check _ _ _ _ h0,
    allFin_of_check _ _ _ _ h3,
    allFin_of_check _ _ _ _ h4,
    allFin_of_check _ _ _ _ h5,
    allFin_of_check _ _ _ _ h6,
    allFin_of_check _ _ _ _ h7,
    allFin_of_check _ _ _ _ h8,
    allFin_of_check _ _ _ _ h9,
    allFin_of_check _ _ _ _ h10,
    allFin_of_check _ _ _ _ h11,
    allFin_of_check _ _ _ _ h12⟩

end Cert.PreFinite

end
-- ==== Proof.RefFiniteNorm.lean ====
/-
  The edge normalisation of the reference is real-valued, with no hypothesis on the inputs.

  The reference appends to the 800000 given edges one self-loop per node, counts for every node the edges that
  point at it (a scatter of ones over zeros), takes the reciprocal square root of that degree, and gives every edge
  the product of the two values at its end nodes. Because of the self-loop every degree is a positive whole number,
  so its reciprocal square root is a real number; and a gather only ever reads entries of its operand, whatever
  the index words are, so every edge coefficient is a product of two real numbers.
-/
import proofs.«138892_j2886218022956_1_alg».proof.Proof.Gen.ReferenceIdeal.Read
import proofs.«138892_j2886218022956_1_alg».proof.Proof.LibAllFinite
import proofs.«138892_j2886218022956_1_alg».proof.Proof.Consts
import Idealize.ShloMosaic.Lib.Pipeline.Value
import Idealize.ShloMosaic.Lib.ValueIdx

noncomputable section

namespace Cert.ReferenceIdeal.RefFinite

open Cert.ReferenceIdeal Cert.ReferenceIdeal.Gen Idealize.ShloMosaic Idealize.ShloMosaic.ValueIdx Finite

/-- A node number below 50000, written as a 32-bit word and read back signed, is itself. -/
theorem nodeWord_toInt (i : Fin 50000) : (BitVec.ofNat 32 i.val).toInt = (i.val : Int) := by
  have hi := i.isLt
  have h1 : (BitVec.ofNat 32 i.val).toNat = i.val := by
    rw [BitVec.toNat_ofNat]; exact Nat.mod_eq_of_lt (by omega)
  rw [BitVec.toInt_eq_toNat_of_lt (by rw [h1]; omega), h1]

/-- Edge 800000 + i of the extended edge list is the self-loop at node i: its target word is i. -/
theorem selfLoop_word (x2 : (⟨S800000, .i32⟩ : BufTy).Contents (Elt Ideal)) (i : Fin 50000) :
    Read.val_main_v5 (F := Ideal) x2 (ix2 (⟨800000 + i.val, by omega⟩ : Fin 850000) (0 : Fin 1))
      = BitVec.ofNat 32 i.val := by
  rw [Read.val_main_v5_apply]
  unfold Read.val_main_v2
  refine (concatenate_pair_apply_right (t := S850000) (s₁ := S800000) (s₂ := S50000) (0 : Fin 1) x2
    (Read.val_main_v0 (F := Ideal)) concatenates_S800000_S50000_S850000_d0 _ rfl rfl (ix1 i) ?_ ?_).trans ?_
  · intro b hb
    exact (hb (Fin.ext (by have h : b.val < 1 := b.isLt; show b.val = 0; omega))).elim
  · show i.val + 800000 = 800000 + i.val
    omega
  · rfl

/-- The degree of node i, self-loop included, is a positive real: the scatter of ones over zeros counts the edges
    whose target is i, and the self-loop is one of them. -/
theorem degree_pos (x2 : (⟨S800000, .i32⟩ : BufTy).Contents (Elt Ideal)) (i : Fin 50000) :
    ∃ r : ℝ, 0 < r ∧ Read.val_main_v6 (F := Ideal) x2 (ix1 i) = (r : EReal) := by
  unfold Read.val_main_v6
  refine scatter_ones_pos scatter_S50000_S850000x1_S850000_n_0_0_1 rfl rfl rfl rfl (Read.val_main_v4 (F := Ideal))
    (Read.val_main_v5 (F := Ideal) x2) (Read.val_main_v3 (F := Ideal)) ?_ ?_ i ⟨800000 + i.val, by omega⟩ ?_
  · intro k
    rw [Read.val_main_v4_apply, Read.val_main_cst_0_apply]
    exact Cert.Consts.ofBits_zero
  · intro k
    rw [Read.val_main_v3_apply, Read.val_main_cst_apply]
    exact Cert.Consts.ofBits_one
  · rw [selfLoop_word]
    exact nodeWord_toInt i

/-- Every entry of the reciprocal square roots of the degrees is a real number. -/
theorem invSqrtDegree_finite (x2 : (⟨S800000, .i32⟩ : BufTy).Contents (Elt Ideal)) :
    AllFin (s := S50000) (Read.val_main_v7 (F := Ideal) x2) := by
  intro i
  obtain ⟨e, rfl⟩ : ∃ e : Fin 50000, i = ix1 e := ⟨i 0, eq_ix1 i⟩
  obtain ⟨r, hr, h6⟩ := degree_pos x2 e
  rw [Read.val_main_v7_apply, h6]
  exact IsFin.rsqrt_pos hr

/-- The symmetric normalisation coefficient of every edge is a real number: it is the product of two entries of the
    reciprocal square roots of the degrees, whichever nodes the edge names. -/
theorem norm_finite (x1 x2 : (⟨S800000, .i32⟩ : BufTy).Contents (Elt Ideal)) :
    AllFin (s := S850000) (Read.val_main_v22 (F := Ideal) x1 x2) := by
  unfold Read.val_main_v22
  refine AllFin.mulf ?_ ?_
  · unfold Read.val_main_v14
    exact AllFin.gather_vec gather_S50000_S850000x1_S850000_n_0_n_n_0_1_1 rfl rfl rfl rfl rfl rfl rfl (by norm_num)
      (Read.val_main_v13 (F := Ideal) x1) (invSqrtDegree_finite x2)
  · unfold Read.val_main_v21
    exact AllFin.gather_vec gather_S50000_S850000x1_S850000_n_0_n_n_0_1_1 rfl rfl rfl rfl rfl rfl rfl (by norm_num)
      (Read.val_main_v20 (F := Ideal) x2) (invSqrtDegree_finite x2)

end Cert.ReferenceIdeal.RefFinite
-- ==== Proof.RefFiniteAgg.lean ====
/-
  The reference's graph aggregation keeps real numbers real.

  A layer multiplies the node features by a weight matrix, gathers for every edge the row of its source node,
  scales that row by the edge's normalisation coefficient, adds the scaled rows into an array of zeros at the edges'
  target nodes, and adds a bias row to every node. Each of these steps maps arrays of real numbers to arrays of
  real numbers: a matrix product and a scatter-add are finite sums of products, a gather and a broadcast only read
  entries. The edge coefficients are real with no hypothesis; so the layer's output is real as soon as its input
  features, weights and bias are. The same argument serves every layer: it is stated once for arbitrary tables.
-/
import proofs.«138892_j2886218022956_1_alg».proof.Proof.Gen.ReferenceIdeal.Read
import proofs.«138892_j2886218022956_1_alg».proof.Proof.LibAllFinite
import proofs.«138892_j2886218022956_1_alg».proof.Proof.RefFiniteNorm
import proofs.«138892_j2886218022956_1_alg».proof.Proof.Consts

noncomputable section

namespace Cert.ReferenceIdeal.RefFinite

open Cert.ReferenceIdeal Cert.ReferenceIdeal.Gen Idealize.ShloMosaic Idealize.ShloMosaic.ValueIdx Finite

/-- ONE AGGREGATION STEP KEEPS THE REALS. Gathering rows of a table T, scaling each gathered row entrywise by an
    array W, and adding the scaled rows into an array Z at the rows the index words name gives an array of real
    numbers as soon as T, W and Z hold real numbers, whatever the two index arrays are: a gather reads entries of
    T, and every entry of the result is an entry of Z plus a finite sum of products. Stated at any sizes, for any
    gather and scatter records of the row form. -/
theorem agg_finite_of {n m q wd : Nat}
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (d : ScatterDims (⟨2, ![n, q]⟩ : Shape) (⟨2, ![m, 1]⟩ : Shape) (⟨2, ![m, q]⟩ : Shape))
    (hu : d.updateWindowDims = [1]) (hi : d.insertedWindowDims = [0]) (hsd : d.scatterDimsToOperandDims = [0])
    (hvd : d.indexVectorDim = 1)
    {T Z : (⟨2, ![n, q]⟩ : Shape).Idx → EReal} {W : (⟨2, ![m, q]⟩ : Shape).Idx → EReal}
    (idxG idxS : IVec (⟨2, ![m, 1]⟩ : Shape) wd)
    (hT : AllFin T) (hZ : AllFin Z) (hW : AllFin W) :
    AllFin (Host.scatterAdd (F := Ideal) (φ := .f32) d Z idxS
      (mulf (F := Ideal) (φ := .f32) (Host.gather gd T idxG) W)) :=
  AllFin.scatterAdd_rows d hu hi hsd hvd idxS hZ
    (AllFin.mulf (AllFin.gather_rows gd ho hc hob hsb hm hv hs hn idxG hT) hW)

/-- The zero word is a real number. -/
theorem zeroWord_fin : IsFin (Ideal.ofBits .f32 0x00000000#32) := by
  rw [Cert.Consts.ofBits_zero]; exact IsFin.zero

/-- The array of zeros the first layer's sums start from. -/
theorem zeros1_finite : AllFin (s := S50000x128) (Read.val_main_v34 (F := Ideal)) := by
  unfold Read.val_main_v34 Read.val_main_cst_6
  exact AllFin.broadcastInDim _ _ (AllFin.constant (s := S_) zeroWord_fin)

/-- The first layer's edge coefficients, repeated along the 128 features. -/
theorem edgeCoeff1_finite (x1 x2 : (⟨S800000, .i32⟩ : BufTy).Contents (Elt Ideal)) :
    AllFin (s := S850000x128) (Read.val_main_v32 (F := Ideal) x1 x2) := by
  unfold Read.val_main_v32 Read.val_main_v31
  exact AllFin.broadcastInDim _ _ (AllFin.broadcastInDim _ _ (norm_finite x1 x2))

/-- A bias vector repeated down the 50000 rows. -/
theorem bias1_finite (x4 : (⟨S128, .f32⟩ : BufTy).Contents (Elt Ideal)) (h4 : AllFin (s := S128) x4) :
    AllFin (s := S50000x128) (Read.val_main_v38 (F := Ideal) x4) := by
  unfold Read.val_main_v38 Read.val_main_v37
  exact AllFin.broadcastInDim _ _ (AllFin.broadcastInDim _ _ h4)

/-- LAYER 1 before its normalisation: the aggregated, biased features are real numbers when the node features, the
    weights and the bias are. -/
theorem v39_finite (x0 : (⟨S50000x128, .f32⟩ : BufTy).Contents (Elt Ideal))
    (x1 x2 : (⟨S800000, .i32⟩ : BufTy).Contents (Elt Ideal)) (x3 : (⟨S128x128, .f32⟩ : BufTy).Contents (Elt Ideal))
    (x4 : (⟨S128, .f32⟩ : BufTy).Contents (Elt Ideal))
    (h0 : AllFin (s := S50000x128) x0) (h3 : AllFin (s := S128x128) x3) (h4 : AllFin (s := S128) x4) :
    AllFin (s := S50000x128) (Read.val_main_v39 (F := Ideal) x0 x1 x2 x3 x4) := by
  unfold Read.val_main_v39
  refine AllFin.addf ?_ (bias1_finite x4 h4)
  unfold Read.val_main_v36 Read.val_main_v33 Read.val_main_v30
  exact agg_finite_of gather_S50000x128_S850000x1_S850000x128_1_0_n_n_0_1_1128 rfl rfl rfl rfl rfl rfl rfl (by norm_num)
    scatter_S50000x128_S850000x1_S850000x128_1_0_0_1 rfl rfl rfl rfl
    (Read.val_main_v29 (F := Ideal) x1) (Read.val_main_v35 (F := Ideal) x2)
    (by unfold Read.val_main_v23; exact AllFin.dotGeneral _ h0 h3) zeros1_finite (edgeCoeff1_finite x1 x2)

/-- The array of zeros the second layer's sums start from. -/
theorem zeros2_finite : AllFin (s := S50000x128) (Read.val_main_v77 (F := Ideal)) := by
  unfold Read.val_main_v77 Read.val_main_cst_14
  exact AllFin.broadcastInDim _ _ (AllFin.constant (s := S_) zeroWord_fin)

/-- The second layer's edge coefficients, repeated along the 128 features. -/
theorem edgeCoeff2_finite (x1 x2 : (⟨S800000, .i32⟩ : BufTy).Contents (Elt Ideal)) :
    AllFin (s := S850000x128) (Read.val_main_v75 (F := Ideal) x1 x2) := by
  unfold Read.val_main_v75 Read.val_main_v74
  exact AllFin.broadcastInDim _ _ (AllFin.broadcastInDim _ _ (norm_finite x1 x2))

theorem bias2_finite (x8 : (⟨S128, .f32⟩ : BufTy).Contents (Elt Ideal)) (h8 : AllFin (s := S128) x8) :
    AllFin (s := S50000x128) (Read.val_main_v81 (F := Ideal) x8) := by
  unfold Read.val_main_v81 Read.val_main_v80
  exact AllFin.broadcastInDim _ _ (AllFin.broadcastInDim _ _ h8)

/-- LAYER 2 before its normalisation: real numbers when the first layer's output, the second weights and bias are. -/
theorem v82_finite (x0 : (⟨S50000x128, .f32⟩ : BufTy).Contents (Elt Ideal))
    (x1 x2 : (⟨S800000, .i32⟩ : BufTy).Contents (Elt Ideal)) (x3 : (⟨S128x128, .f32⟩ : BufTy).Contents (Elt Ideal))
    (x4 x5 x6 : (⟨S128, .f32⟩ : BufTy).Contents (Elt Ideal)) (x7 : (⟨S128x128, .f32⟩ : BufTy).Contents (Elt Ideal))
    (x8 : (⟨S128, .f32⟩ : BufTy).Contents (Elt Ideal))
    (hH1 : AllFin (s := S50000x128) (Read.val_main_v65 (F := Ideal) x0 x1 x2 x3 x4 x5 x6))
    (h7 : AllFin (s := S128x128) x7) (h8 : AllFin (s := S128) x8) :
    AllFin (s := S50000x128) (Read.val_main_v82 (F := Ideal) x0 x1 x2 x3 x4 x5 x6 x7 x8) := by
  unfold Read.val_main_v82
  refine AllFin.addf ?_ (bias2_finite x8 h8)
  unfold Read.val_main_v79 Read.val_main_v76 Read.val_main_v73
  exact agg_finite_of gather_S50000x128_S850000x1_S850000x128_1_0_n_n_0_1_1128 rfl rfl rfl rfl rfl rfl rfl (by norm_num)
    scatter_S50000x128_S850000x1_S850000x128_1_0_0_1 rfl rfl rfl rfl
    (Read.val_main_v72 (F := Ideal) x1) (Read.val_main_v78 (F := Ideal) x2)
    (by unfold Read.val_main_v66; exact AllFin.dotGeneral _ hH1 h7) zeros2_finite (edgeCoeff2_finite x1 x2)

end Cert.ReferenceIdeal.RefFinite
-- ==== Proof.lean ====
/-
  The certificate: a three-layer graph convolution network, its kernel program against its reference.

  Both programs add self-loops to the edge list, weigh every edge by the reciprocal square roots of its endpoints'
  degrees, and apply three times "multiply by a weight matrix, gather rows by source, scale by the edge weight, sum by
  target, add a bias"; after the first two they normalise every column over the 50000 nodes (batch statistics), scale,
  shift and clamp at zero.  The kernel program does the matrix products, the bias additions, the column statistics and
  the normalisation in tiled regions of 5000 rows and leaves the gathers and scatters to the same host operations the
  reference uses.  On the extended reals the two agree entry by entry: a tiled matrix product or column sum is the same
  finite sum, a change of float format is the identity, and the one difference in the arithmetic — the kernel takes
  the variance as the mean of the squares minus the squared mean, the reference as the mean of the squared deviations
  — is the moment law, valid because every pre-activation entry is finite: the inputs are finite by the
  precondition, every node has degree at least one thanks to its self-loop, so the edge weights are finite, and sums,
  products and the normalisation (whose variance plus epsilon is a positive real) keep entries finite.

  The frames of the two kernel programs are the generated ones; the reference's frame is its generated run with the
  result dropped; nothing was rewritten by the idealisation, so there is nothing to preserve.
-/
import proofs.«138892_j2886218022956_1_alg».proof.Defs
import proofs.«138892_j2886218022956_1_alg».proof.Proof.Gen.Kernel
import proofs.«138892_j2886218022956_1_alg».proof.Proof.Gen.Kernel.Skeleton
import proofs.«138892_j2886218022956_1_alg».proof.Proof.Gen.Kernel.Launch
import proofs.«138892_j2886218022956_1_alg».proof.Proof.Gen.Kernel.Points
import proofs.«138892_j2886218022956_1_alg».proof.Proof.Gen.Kernel.Frame
import proofs.«138892_j2886218022956_1_alg».proof.Proof.Gen.KernelIdeal
import proofs.«138892_j2886218022956_1_alg».proof.Proof.Gen.KernelIdeal.Skeleton
import proofs.«138892_j2886218022956_1_alg».proof.Proof.Gen.KernelIdeal.Launch
import proofs.«138892_j2886218022956_1_alg».proof.Proof.Gen.KernelIdeal.Points
import proofs.«138892_j2886218022956_1_alg».proof.Proof.Gen.KernelIdeal.Frame
import proofs.«138892_j2886218022956_1_alg».proof.Proof.Gen.ReferenceIdeal
import proofs.«138892_j2886218022956_1_alg».proof.Proof.Gen.Pre_finite_inputs
import proofs.«138892_j2886218022956_1_alg».proof.Proof.Gen.ReferenceIdeal.Run
import proofs.«138892_j2886218022956_1_alg».proof.Proof.Gen.ReferenceIdeal.Read
import proofs.«138892_j2886218022956_1_alg».proof.Proof.RunResult
import proofs.«138892_j2886218022956_1_alg».proof.Proof.KernelLayer3
import proofs.«138892_j2886218022956_1_alg».proof.Proof.PreFinite
import proofs.«138892_j2886218022956_1_alg».proof.Proof.RefFiniteAgg
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Under the precondition the first layer's pre-activation entries are finite, and then so are the second layer's. -/
theorem preactivations_finite (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ i, Finite.IsFin (Cert.ReferenceIdeal.Read.val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) i))
      ∧ (∀ i, Finite.IsFin (Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i)) := by
  obtain ⟨f0, f3, f4, f5, f6, f7, f8, f9, f10, f11, f12⟩ := Cert.PreFinite.inputs_finite m hpre c
  have h1 := Cert.ReferenceIdeal.RefFinite.v39_finite _ (m ((c.tc : Thread Cert.KernelIdeal.nD Cert.KernelIdeal.τ).loc Cert.KernelIdeal.main_arg1)) (m ((c.tc : Thread Cert.KernelIdeal.nD Cert.KernelIdeal.τ).loc Cert.KernelIdeal.main_arg2)) _ _ f0 f3 f4
  exact ⟨h1, Cert.ReferenceIdeal.RefFinite.v82_finite _ _ _ _ _ _ _ _ _ (Cert.ReferenceIdeal.At.v65_finite _ _ _ _ _ _ _ h1 f5 f6) f7 f8⟩

/-- From memories agreeing on the arguments both programs run, and end with the same result: the reference's result term
    of the arguments. -/
theorem algebraic : Cert.algebraic_KernelIdeal_ReferenceIdeal := by
  intro m ρ m' ρ' hpre hagree
  refine ⟨fun c => Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunResult.run_result (F := Ideal) m ρ)
    obtain ⟨h1, h2⟩ := preactivations_finite m hpre c
    exact Cert.KernelIdeal.Value.result_eq m ρ c h1 h2
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v125_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
